-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x1000 : Shape := ⟨2, ![4096, 1000]⟩
abbrev S16000x1024 : Shape := ⟨2, ![16000, 1024]⟩
abbrev S16000x1000 : Shape := ⟨2, ![16000, 1000]⟩
abbrev S256x1024 : Shape := ⟨2, ![256, 1024]⟩
abbrev S256 : Shape := ⟨1, ![256]⟩
abbrev S2x256 : Shape := ⟨2, ![2, 256]⟩
abbrev S2 : Shape := ⟨1, ![2]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S16000x1024 : S_.BroadcastsInDim S16000x1024 (![] : Fin 0 → Fin S16000x1024.rank)
  reducesTo_S16000x1024_S_d0_1 : S16000x1024.ReducesTo [0, 1] S_
  bcast_S_S16000x1000 : S_.BroadcastsInDim S16000x1000 (![] : Fin 0 → Fin S16000x1000.rank)
  reducesTo_S16000x1000_S_d0_1 : S16000x1000.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S2 .f32) (main_arg8 : FVec F S1 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256x1024 .f32) (main_arg5 : FVec F S256 .f32) (main_arg6 : FVec F S2x256 .f32) (main_arg7 : FVec F S2 .f32) (main_arg8 : FVec F S1 .f32) (main_v13 : IVec S_ 1) (main_v16 : IVec S16000x1000 1) : IVec S_ 1 :=
  let main_c_5 : IVec S_ 1 := constantI S_ 1 1#1
  let main_v17 : IVec S_ 1 := (fun x v => Host.reduce IntOp.andi x v reducesTo_S16000x1000_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x256 .f32 := Host.absf main_arg6
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1000 .f32) (main_arg2 : FVec F S16000x1024 .f32) (main_arg3 : FVec F S16000x1000 .f32) (main_arg4 : FVec F S256x1024 .f32) (main_arg5 : FVec F S256 .f32) (main_arg6 : FVec F S2x256 .f32) (main_arg7 : FVec F S2 .f32) (main_arg8 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S16000x1024 .f32 := Host.absf main_arg2
  let main_cst_2 : FVec F S_ .f32 := constant S_ .f32 0x7F800000#32
  let main_v10 : FVec F S16000x1024 .f32 := broadcastInDim S16000x1024 ![] bcast_S_S16000x1024 main_cst_2
  let main_v11 : IVec S16000x1024 1 := cmpf .olt main_v9 main_v10
  let main_c_3 : IVec S_ 1 := constantI S_ 1 1#1
  let main_v12 : IVec S_ 1 := (fun x v => Host.reduce IntOp.andi x v reducesTo_S16000x1024_S_d0_1 h_S_) main_v11 main_c_3
  let main_v13 : IVec S_ 1 := andi main_v8 main_v12
  let main_v14 : FVec F S16000x1000 .f32 := Host.absf main_arg3
  let main_cst_4 : FVec F S_ .f32 := constant S_ .f32 0x7F800000#32
  let main_v15 : FVec F S16000x1000 .f32 := broadcastInDim S16000x1000 ![] bcast_S_S16000x1000 main_cst_4
  let main_v16 : IVec S16000x1000 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x1000 : Shape := ⟨2, ![4096, 1000]⟩
abbrev S16000x1024 : Shape := ⟨2, ![16000, 1024]⟩
abbrev S16000x1000 : Shape := ⟨2, ![16000, 1000]⟩
abbrev S256x1024 : Shape := ⟨2, ![256, 1024]⟩
abbrev S256 : Shape := ⟨1, ![256]⟩
abbrev S2x256 : Shape := ⟨2, ![2, 256]⟩
abbrev S2 : Shape := ⟨1, ![2]⟩
abbrev S1 : Shape := ⟨1, ![1]⟩
abbrev S_ : Shape := ⟨0, ![]⟩
abbrev S16384x1024 : Shape := ⟨2, ![16384, 1024]⟩
abbrev S16384x1000 : Shape := ⟨2, ![16384, 1000]⟩
abbrev S4096x1 : Shape := ⟨2, ![4096, 1]⟩
abbrev S512x1024 : Shape := ⟨2, ![512, 1024]⟩
abbrev S1024x1024 : Shape := ⟨2, ![1024, 1024]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S256x2 : Shape := ⟨2, ![256, 2]⟩
abbrev S512x2 : Shape := ⟨2, ![512, 2]⟩
abbrev S1x2 : Shape := ⟨2, ![1, 2]⟩
abbrev S1x1 : Shape := ⟨2, ![1, 1]⟩

abbrev nBuf : Space → Nat
  | .hbm => 30
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1000, .f32⟩
  | .hbm, ⟨2, _⟩ => ⟨S16000x1024, .f32⟩
  | .hbm, ⟨3, _⟩ => ⟨S16000x1000, .f32⟩
  | .hbm, ⟨4, _⟩ => ⟨S256x1024, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S1, .f32⟩
  | .hbm, ⟨9, _⟩ => ⟨S_, .i32⟩
  | .hbm, ⟨10, _⟩ => ⟨S_, .f32⟩
  | .hbm, ⟨11, _⟩ => ⟨S16384x1024, .f32⟩
  | .hbm, ⟨12, _⟩ => ⟨S_, .i32⟩
  | .hbm, ⟨13, _⟩ => ⟨S_, .f32⟩
  | .hbm, ⟨14, _⟩ => ⟨S16384x1000, .f32⟩
  | .hbm, ⟨15, _⟩ => ⟨S_, .i32⟩
  | .hbm, ⟨16, _⟩ => ⟨S_, .f32⟩
  | .hbm, ⟨17, _⟩ => ⟨S4096x1024, .f32⟩
  | .hbm, ⟨18, _⟩ => ⟨S_, .i32⟩
  | .hbm, ⟨19, _⟩ => ⟨S_, .f32⟩
  | .hbm, ⟨20, _⟩ => ⟨S16384x1024, .f32⟩
  | .hbm, ⟨21, _⟩ => ⟨S4096x1024, .bf16⟩
  | .hbm, ⟨22, _⟩ => ⟨S16384x1024, .bf16⟩
  | .hbm, ⟨23, _⟩ => ⟨S16384x1024, .bf16⟩
  | .hbm, ⟨24, _⟩ => ⟨S256x1024, .bf16⟩
  | .hbm, ⟨25, _⟩ => ⟨S2x256, .bf16⟩
  | .hbm, ⟨26, _⟩ => ⟨S4096x1024, .f32⟩
  | .hbm, ⟨27, _⟩ => ⟨S4096x1, .f32⟩
  | .hbm, ⟨28, _⟩ => ⟨S4096x1, .f32⟩
  | .hbm, ⟨29, _⟩ => ⟨S4096x1000, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S256, .f32⟩
  | .local _ .vmem, ⟨10, _⟩ => ⟨S2x256, .bf16⟩
  | .local _ .vmem, ⟨11, _⟩ => ⟨S2, .f32⟩
  | .local _ .vmem, ⟨12, _⟩ => ⟨S1, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | .local _ .vmem, ⟨20, _⟩ => ⟨S512x1, .f32⟩
  | .local _ .vmem, ⟨21, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_13 : BitVec 32 := 0#32
  let v24 : BitVec 1 := Scalar.cmpi .ne v23 c0_i32_13
  v24

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  pads_S16000x1024_S16384x1024_03840_000 : S16000x1024.Pads (![0, 0] : Fin 2 → Nat) ![384, 0] ![0, 0] S16384x1024
  h_S_ : 0 < S_.numel
  pads_S16000x1000_S16384x1000_03840_000 : S16000x1000.Pads (![0, 0] : Fin 2 → Nat) ![384, 0] ![0, 0] S16384x1000
  pads_S4096x1000_S4096x1024_000_0240 : S4096x1000.Pads (![0, 0] : Fin 2 → Nat) ![0, 24] ![0, 0] S4096x1024
  pads_S16384x1000_S16384x1024_000_0240 : S16384x1000.Pads (![0, 0] : Fin 2 → Nat) ![0, 24] ![0, 0] S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  transposes_S2x256_p1_0_S256x2 : S2x256.Transposes [1, 0] S256x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  slices_S512x2_o0_0_S512x1 : S512x2.Slices ![0, 0] S512x1
  slices_S512x2_o0_1_S512x1 : S512x2.Slices ![0, 1] S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  broadcasts_S512x1_S512x1024 : S512x1.Broadcasts S512x1024
  inb_S1_S1_0 : ∀ a, (![0] : Fin 1 → Nat) a + S1.size a ≤ S1.size a
  h_S1 : 0 < S1.numel
  shapeCasts_S1_S1x1 : S1.ShapeCasts S1x1
  broadcasts_S1x1_S512x1024 : S1x1.Broadcasts S512x1024
  slices_S4096x1024_S4096x1000_0_0 : S4096x1024.Slices ![0, 0] S4096x1000
  dot_S512x1024_S1024x256_S512x256_1_0_0_1_n_n_wf : DotDims.WF S512x1024 S1024x256 S512x256 [1] [0] [0] [1] [] []
  dot_S512x256_S256x2_S512x2_1_0_0_1_n_n_wf : DotDims.WF S512x256 S256x2 S512x2 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .bf16 = 32 ∨ (Rect.block (s := S2x256) S2x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .f32 = 32 ∨ (Rect.block (s := S4096x1024) S512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond1 i == 1#1) | 11 => fun i => !(k0_cond1 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x1000 : Shape := ⟨2, ![4096, 1000]⟩
abbrev S16000x1024 : Shape := ⟨2, ![16000, 1024]⟩
abbrev S16000x1000 : Shape := ⟨2, ![16000, 1000]⟩
abbrev S256x1024 : Shape := ⟨2, ![256, 1024]⟩
abbrev S256 : Shape := ⟨1, ![256]⟩
abbrev S2x256 : Shape := ⟨2, ![2, 256]⟩
abbrev S2 : Shape := ⟨1, ![2]⟩
abbrev S1 : Shape := ⟨1, ![1]⟩
abbrev S1024x256 : Shape := ⟨2, ![1024, 256]⟩
abbrev S4096x256 : Shape := ⟨2, ![4096, 256]⟩
abbrev S1x256 : Shape := ⟨2, ![1, 256]⟩
abbrev S_ : Shape := ⟨0, ![]⟩
abbrev S256x2 : Shape := ⟨2, ![256, 2]⟩
abbrev S4096x2 : Shape := ⟨2, ![4096, 2]⟩
abbrev S1x2 : Shape := ⟨2, ![1, 2]⟩
abbrev S4096x1 : Shape := ⟨2, ![4096, 1]⟩
abbrev S1024x16000 : Shape := ⟨2, ![1024, 16000]⟩
abbrev S4096x16000 : Shape := ⟨2, ![4096, 16000]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1000, .f32⟩
  | .hbm, ⟨2, _⟩ => ⟨S16000x1024, .f32⟩
  | .hbm, ⟨3, _⟩ => ⟨S16000x1000, .f32⟩
  | .hbm, ⟨4, _⟩ => ⟨S256x1024, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S1, .f32⟩
  | .hbm, ⟨9, _⟩ => ⟨S1024x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S256x2, .f32⟩
  | .hbm, ⟨18, _⟩ => ⟨S4096x2, .f32⟩
  | .hbm, ⟨19, _⟩ => ⟨S1x2, .f32⟩
  | .hbm, ⟨20, _⟩ => ⟨S4096x2, .f32⟩
  | .hbm, ⟨21, _⟩ => ⟨S4096x2, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .i1⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S1024x16000, .f32⟩
  | .hbm, ⟨50, _⟩ => ⟨S4096x16000, .f32⟩
  | .hbm, ⟨51, _⟩ => ⟨S4096x16000, .f32⟩
  | .hbm, ⟨52, _⟩ => ⟨S4096x16000, .f32⟩
  | .hbm, ⟨53, _⟩ => ⟨S4096x16000, .f32⟩
  | .hbm, ⟨54, _⟩ => ⟨S4096x1000, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1000, .f32⟩
  | .hbm, ⟨59, _⟩ => ⟨S4096x1000, .f32⟩
  | .hbm, ⟨60, _⟩ => ⟨S4096x1000, .f32⟩
  | .hbm, ⟨61, _⟩ => ⟨S4096x1000, .f32⟩
  | .hbm, ⟨62, _⟩ => ⟨S4096x1000, .f32⟩
  | .hbm, ⟨63, _⟩ => ⟨S1x1, .f32⟩
  | .hbm, ⟨64, _⟩ => ⟨S4096x1000, .f32⟩
  | .hbm, ⟨65, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S2x256_S256x2_1_0 : S2x256.Transposes [1, 0] S256x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  slices_S4096x2_S4096x1_0_0 : S4096x2.Slices ![0, 0] S4096x1
  bcast_S_S4096x1 : S_.BroadcastsInDim S4096x1 (![] : Fin 0 → Fin S4096x1.rank)
  slices_S4096x2_S4096x1_0_1 : S4096x2.Slices ![0, 1] S4096x1
  transposes_S16000x1024_S1024x16000_1_0 : S16000x1024.Transposes [1, 0] S1024x16000
  bcast_S4096x1_S4096x16000_0_1 : S4096x1.BroadcastsInDim S4096x16000 (![0, 1] : Fin 2 → Fin S4096x16000.rank)
  bcast_S4096x1_S4096x1000_0_1 : S4096x1.BroadcastsInDim S4096x1000 (![0, 1] : Fin 2 → Fin S4096x1000.rank)
  bcast_S1_S1x1_1 : S1.BroadcastsInDim S1x1 (![1] : Fin 1 → Fin S1x1.rank)
  bcast_S1x1_S4096x1000_0_1 : S1x1.BroadcastsInDim S4096x1000 (![0, 1] : Fin 2 → Fin S4096x1000.rank)
  dot_S4096x1024_S1024x256_S4096x256_1_0_0_1_n_n_wf : DotDims.WF S4096x1024 S1024x256 S4096x256 [1] [0] [0] [1] [] []
  dot_S4096x256_S256x2_S4096x2_1_0_0_1_n_n_wf : DotDims.WF S4096x256 S256x2 S4096x2 [1] [0] [0] [1] [] []
  dot_S4096x1024_S1024x16000_S4096x16000_1_0_0_1_n_n_wf : DotDims.WF S4096x1024 S1024x16000 S4096x16000 [1] [0] [0] [1] [] []
  dot_S4096x16000_S16000x1000_S4096x1000_1_0_0_1_n_n_wf : DotDims.WF S4096x16000 S16000x1000 S4096x1000 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf
def dot_S4096x1024_S1024x16000_S4096x16000_1_0_0_1_n_n : DotDims S4096x1024 S1024x16000 S4096x16000 where
  lhsContracting := [1]
  rhsContracting := [0]
  lhsNonContracting := [0]
  rhsNonContracting := [1]
  lhsBatch := []
  rhsBatch := []
  wf := dot_S4096x1024_S1024x16000_S4096x16000_1_0_0_1_n_n_wf
def dot_S4096x16000_S16000x1000_S4096x1000_1_0_0_1_n_n : DotDims S4096x16000 S16000x1000 S4096x1000 where
  lhsContracting := [1]
  rhsContracting := [0]
  lhsNonContracting := [0]
  rhsNonContracting := [1]
  lhsBatch := []
  rhsBatch := []
  wf := dot_S4096x16000_S16000x1000_S4096x1000_1_0_0_1_n_n_wf

class Facts : Prop extends Facts₀ where

variable [Facts]
-- ==== Proof.K.RunA.lean ====
/-
  The kernel body run at a point where only the first conditional holds.
-/
import proofs.«160482_j31069793419865_2_alg».proof.Proof.Gen.Kernel.Frame
import proofs.«160482_j31069793419865_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first point of a row of the grid (the first conditional taken, the second not), on whole staging
    memrefs: the inputs at their contents, the two small outputs and the three scratch buffers at anything. It runs to
    the continuation holding the inputs as they were and each buffer it stored into with its stores written, last
    first: the weight and the sharpness into the two outputs and into their scratch copies, the accumulator first
    zeroed and then holding the first tile's term. The lists of stores are what the run finds. -/
noncomputable def runA (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : k0_cond1 i = 1#1) (hc1 : ¬ k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) :
    Σ' (L12 : List (View.Piece (Elt F) S512x1 .f32)) (L13 : List (View.Piece (Elt F) S512x1 .f32)) (L14 : List (View.Piece (Elt F) S512x1024 .f32))
       (L15 : List (View.Piece (Elt F) S512x1 .f32)) (L16 : List (View.Piece (Elt F) S512x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    simp only [k0_part1_eq_skeleton]; unfold k0_part1_skel
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H12]; · iexists _; iexact H12
    isplitl [H13]; · iexists _; iexact H13
    isplitl [H14]; · iexists _; iexact H14
    isplitl [H15]; · iexists _; iexact H15
    iexists _; iexact H16

end Cert.Kernel.Hand

end
-- ==== Proof.K.RunB.lean ====
/-
  The kernel body run at a point where neither conditional holds.
-/
import proofs.«160482_j31069793419865_2_alg».proof.Proof.Gen.Kernel.Frame
import proofs.«160482_j31069793419865_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at an inner point of a row of the grid (neither conditional taken): it reads the input blocks, the
    sharpness scratch and the accumulator, and stores the accumulator plus this tile's term. The list of stores is
    what the run finds. -/
noncomputable def runB (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : ¬ k0_cond1 i = 1#1) (hc1 : ¬ k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) (xs0 : Vec F S512x1024 .f32) (xs2 : Vec F S512x1 .f32) :
    { L14 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xs0 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg14.view.loc (c : Thread nD τ) ↦[arg14.view.set]{fullShare} arg14.view.writes (Elt F) f L14) ∗ owns (c : Thread nD τ) arg16 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg14.eq_unread hfs0
    obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; isplitr; · ipureintro; exact harg16.read_unread _
    iexact HS2

end Cert.Kernel.Hand

end
-- ==== Proof.K.RunC.lean ====
/-
  The kernel body run at a point where only the second conditional holds.
-/
import proofs.«160482_j31069793419865_2_alg».proof.Proof.Gen.Kernel.Frame
import proofs.«160482_j31069793419865_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last point of a row of the grid (the second conditional taken, the first not): the accumulator
    takes the last tile's term, and the blend of the accumulator with the block of the second input, by the weight
    scratch, scaled, is stored into the large output. The lists of stores are what the run finds. -/
noncomputable def runC (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : ¬ k0_cond1 i = 1#1) (hc1 : k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) (xs0 : Vec F S512x1024 .f32) (xs1 : Vec F S512x1 .f32) (xs2 : Vec F S512x1 .f32) :
    Σ' (L11 : List (View.Piece (Elt F) S512x1024 .f32)) (L14 : List (View.Piece (Elt F) S512x1024 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L11)
                ∗ (∃ f, arg14.view.loc (c : Thread nD τ) ↦[arg14.view.set]{fullShare} arg14.view.writes (Elt F) f L14)
                ∗ owns (c : Thread nD τ) arg15 fullShare xs1 ∗ owns (c : Thread nD τ) arg16 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg14.eq_unread hfs0
    obtain rfl := harg15.eq_unread hfs1
    obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H11]; · iexists _; iexact H11
    isplitl [HS0]; · iexists _; iexact HS0
    isplitl [HS1]
    · iexists _; isplitr; · ipureintro; exact harg15.read_unread _
      iexact HS1
    iexists _; isplitr; · ipureintro; exact harg16.read_unread _
    iexact HS2

end Cert.Kernel.Hand

end
-- ==== Proof.K.State.lean ====
/-
  The proof data of the one pipeline and the body obligation.

  The grid has 8 rows of 16 points. At the first point of a row the body computes the row tile's weight and sharpness,
  stores them into the two small outputs and into two scratch buffers, zeroes the accumulator scratch and adds the first
  tile's term; at the fourteen inner points it only adds a tile's term; at the last it adds the last term and stores the
  blend into the large output. The small outputs are written back at the row's last point although nothing is stored
  into them after the first: their buffers are not touched in between, so what is written back is what the first
  point stored. The state after each point is defined by recursion on the point, case by case.
-/
import proofs.«160482_j31069793419865_2_alg».proof.Proof.K.RunA
import proofs.«160482_j31069793419865_2_alg».proof.Proof.K.RunB
import proofs.«160482_j31069793419865_2_alg».proof.Proof.K.RunC
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, the idle table and the write-backs, decided over the grid -/

theorem hcondA : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcondC : ∀ t : Fin cfg0.N, k0_cond2 (grid0.coords t) = 1#1 ↔ t.val % 16 = 15 :=
  (by decide +kernel : ∀ t : Fin grid0.N, k0_cond2 (grid0.coords t) = 1#1 ↔ t.val % 16 = 15)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem idle9_of : ∀ t : Fin cfg0.N, ¬ t.val % 16 = 15 → cfg0.idle 9 (grid0.coords t) = true :=
  (by decide +kernel : ∀ t : Fin grid0.N, ¬ t.val % 16 = 15 → idle0 9 (grid0.coords t) = true)
theorem live9_of : ∀ t : Fin cfg0.N, t.val % 16 = 15 → cfg0.idle 9 (grid0.coords t) = false :=
  (by decide +kernel : ∀ t : Fin grid0.N, t.val % 16 = 15 → idle0 9 (grid0.coords t) = false)
theorem idle10_of : ∀ t : Fin cfg0.N, ¬ t.val % 16 = 0 → cfg0.idle 10 (grid0.coords t) = true :=
  (by decide +kernel : ∀ t : Fin grid0.N, ¬ t.val % 16 = 0 → idle0 10 (grid0.coords t) = true)
theorem live10_of : ∀ t : Fin cfg0.N, t.val % 16 = 0 → cfg0.idle 10 (grid0.coords t) = false :=
  (by decide +kernel : ∀ t : Fin grid0.N, t.val % 16 = 0 → idle0 10 (grid0.coords t) = false)
theorem idle11_of : ∀ t : Fin cfg0.N, ¬ t.val % 16 = 0 → cfg0.idle 11 (grid0.coords t) = true :=
  (by decide +kernel : ∀ t : Fin grid0.N, ¬ t.val % 16 = 0 → idle0 11 (grid0.coords t) = true)
theorem live11_of : ∀ t : Fin cfg0.N, t.val % 16 = 0 → cfg0.idle 11 (grid0.coords t) = false :=
  (by decide +kernel : ∀ t : Fin grid0.N, t.val % 16 = 0 → idle0 11 (grid0.coords t) = false)

/-- The large output's buffer never holds anything stored earlier when the body runs: every point before is idle for
    it or writes it back. -/
theorem fresh9 : ∀ n, n ≤ cfg0.N → cfg0.fresh 9 n = true :=
  Pipeline.Cfg.fresh_tab cfg0 9 (fun _ => true) rfl
    (by decide +kernel : ∀ t : Fin grid0.N, true = ((cfg0.win 9).flush t || (cfg0.idle 9 (cfg0.grid.coords t) && true)))
/-- A small output's buffer holds nothing stored earlier exactly at the first point of a row. -/
theorem fresh10 : ∀ n, n ≤ cfg0.N → cfg0.fresh 10 n = decide (n % 16 = 0) :=
  Pipeline.Cfg.fresh_tab cfg0 10 (fun n => decide (n % 16 = 0)) rfl
    (by decide +kernel : ∀ t : Fin grid0.N, decide ((t.val + 1) % 16 = 0) = ((cfg0.win 10).flush t || (cfg0.idle 10 (cfg0.grid.coords t) && decide (t.val % 16 = 0))))
theorem fresh11 : ∀ n, n ≤ cfg0.N → cfg0.fresh 11 n = decide (n % 16 = 0) :=
  Pipeline.Cfg.fresh_tab cfg0 11 (fun n => decide (n % 16 = 0)) rfl
    (by decide +kernel : ∀ t : Fin grid0.N, decide ((t.val + 1) % 16 = 0) = ((cfg0.win 11).flush t || (cfg0.idle 11 (cfg0.grid.coords t) && decide (t.val % 16 = 0))))

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
/-- The scratch operands: the accumulator, the weight's copy, the sharpness's copy. -/
abbrev sc0 : Memref sig .tc .vmem S512x1024 .f32 := Memref.whole cc0_scratch0
abbrev sc1 : Memref sig .tc .vmem S512x1 .f32 := Memref.whole cc0_scratch1
abbrev sc2 : Memref sig .tc .vmem S512x1 .f32 := Memref.whole cc0_scratch2

/-- The region's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The stores of each case cover the buffers they are read back from -/

section Covers
variable (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32)

theorem coverA12 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1, y ∈ pc.1.set :=
  View.cover_of_tiledL _ S512x1.size (by sl_kernel_rfl) y
theorem coverA13 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1, y ∈ pc.1.set :=
  View.cover_of_tiledL _ S512x1.size (by sl_kernel_rfl) y
theorem coverA14 (hc0 : k0_cond1 i = 1#1) (hc1 : ¬ k0_cond2 i = 1#1) (y : S512x1024.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1, y ∈ pc.1.set :=
  View.cover_of_tiledL _ S512x1024.size (by sl_kernel_rfl) y
theorem coverA15 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1, y ∈ pc.1.set :=
  View.cover_of_tiledL _ S512x1.size (by sl_kernel_rfl) y
theorem coverA16 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1, y ∈ pc.1.set :=
  View.cover_of_tiledL _ S512x1.size (by sl_kernel_rfl) y
theorem coverB14 (hc0 : ¬ k0_cond1 i = 1#1) (hc1 : ¬ k0_cond2 i = 1#1) (xs0 : Vec F S512x1024 .f32) (xs2 : Vec F S512x1 .f32) (y : S512x1024.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs2).1, y ∈ pc.1.set :=
  View.cover_of_tiledL _ S512x1024.size (by sl_kernel_rfl) y
theorem coverC11 (hc0 : ¬ k0_cond1 i = 1#1) (hc1 : k0_cond2 i = 1#1) (xs0 : Vec F S512x1024 .f32) (xs1 xs2 : Vec F S512x1 .f32) (y : S512x1024.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 xs2).1, y ∈ pc.1.set :=
  View.cover_of_tiledL _ S512x1024.size (by sl_kernel_rfl) y
theorem coverC14 (hc0 : ¬ k0_cond1 i = 1#1) (hc1 : k0_cond2 i = 1#1) (xs0 : Vec F S512x1024 .f32) (xs1 xs2 : Vec F S512x1 .f32) (y : S512x1024.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 xs2).2.1, y ∈ pc.1.set :=
  View.cover_of_tiledL _ S512x1024.size (by sl_kernel_rfl) y
end Covers

/-! ## The state after each point -/

/-- What is carried: the two small outputs' buffers, the accumulator, the weight's copy, the sharpness's copy. -/
abbrev St (F : FTy → Type) := Vec F S512x1 .f32 × Vec F S512x1 .f32 × Vec F S512x1024 .f32 × Vec F S512x1 .f32 × Vec F S512x1 .f32

theorem notA_of {t : Fin cfg0.N} (h0 : ¬ t.val % 16 = 0) : ¬ k0_cond1 (grid0.coords t) = 1#1 := fun h => h0 ((hcondA t).mp h)
theorem notC_of {t : Fin cfg0.N} (h1 : ¬ t.val % 16 = 15) : ¬ k0_cond2 (grid0.coords t) = 1#1 := fun h => h1 ((hcondC t).mp h)

/-- The body's run at a row's first point, on that point's memrefs and blocks. -/
def caseA (c : Dev nD) (t : Fin cfg0.N) (h0 : t.val % 16 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) ((hcondA t).mpr h0) (notC_of (by omega)) (iblk m c 0 t) (iblk m c 1 t) (iblk m c 2 t) (iblk m c 3 t) (iblk m c 4 t) (iblk m c 5 t) (iblk m c 6 t) (iblk m c 7 t) (iblk m c 8 t)
/-- At an inner point, over what the point before left in the accumulator and the sharpness's copy. -/
def caseB (c : Dev nD) (t : Fin cfg0.N) (h0 : ¬ t.val % 16 = 0) (h1 : ¬ t.val % 16 = 15) (p : St F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) (notA_of h0) (notC_of h1) (iblk m c 0 t) (iblk m c 1 t) (iblk m c 2 t) (iblk m c 3 t) (iblk m c 4 t) (iblk m c 5 t) (iblk m c 6 t) (iblk m c 7 t) (iblk m c 8 t) p.2.2.1 p.2.2.2.2
/-- At a row's last point, over what the point before left in the three scratch buffers. -/
def caseC (c : Dev nD) (t : Fin cfg0.N) (h0 : ¬ t.val % 16 = 0) (h1 : t.val % 16 = 15) (p : St F) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) (notA_of h0) ((hcondC t).mpr h1) (iblk m c 0 t) (iblk m c 1 t) (iblk m c 2 t) (iblk m c 3 t) (iblk m c 4 t) (iblk m c 5 t) (iblk m c 6 t) (iblk m c 7 t) (iblk m c 8 t) p.2.2.1 p.2.2.2.1 p.2.2.2.2

/-- What a row's first point leaves in the two small outputs, the accumulator and the two copies. -/
def a12 (c : Dev nD) (t : Fin cfg0.N) (h0 : t.val % 16 = 0) : Vec F S512x1 .f32 := View.canon (caseA m c t h0).1
def a13 (c : Dev nD) (t : Fin cfg0.N) (h0 : t.val % 16 = 0) : Vec F S512x1 .f32 := View.canon (caseA m c t h0).2.1
def a14 (c : Dev nD) (t : Fin cfg0.N) (h0 : t.val % 16 = 0) : Vec F S512x1024 .f32 := View.canon (caseA m c t h0).2.2.1
def a15 (c : Dev nD) (t : Fin cfg0.N) (h0 : t.val % 16 = 0) : Vec F S512x1 .f32 := View.canon (caseA m c t h0).2.2.2.1
def a16 (c : Dev nD) (t : Fin cfg0.N) (h0 : t.val % 16 = 0) : Vec F S512x1 .f32 := View.canon (caseA m c t h0).2.2.2.2.1
/-- What an inner point leaves in the accumulator. -/
def b14 (c : Dev nD) (t : Fin cfg0.N) (h0 : ¬ t.val % 16 = 0) (h1 : ¬ t.val % 16 = 15) (p : St F) : Vec F S512x1024 .f32 := View.canon (caseB m c t h0 h1 p).1
/-- What a row's last point leaves in the large output and in the accumulator. -/
def c11 (c : Dev nD) (t : Fin cfg0.N) (h0 : ¬ t.val % 16 = 0) (h1 : t.val % 16 = 15) (p : St F) : Vec F S512x1024 .f32 := View.canon (caseC m c t h0 h1 p).1
def c14 (c : Dev nD) (t : Fin cfg0.N) (h0 : ¬ t.val % 16 = 0) (h1 : t.val % 16 = 15) (p : St F) : Vec F S512x1024 .f32 := View.canon (caseC m c t h0 h1 p).2.1

/-- The state after the point at position `n`. -/
def stAt (c : Dev nD) : (n : ℕ) → n < cfg0.N → St F
  | 0, hn => (a12 m c ⟨0, hn⟩ (Nat.zero_mod _), a13 m c ⟨0, hn⟩ (Nat.zero_mod _), a14 m c ⟨0, hn⟩ (Nat.zero_mod _), a15 m c ⟨0, hn⟩ (Nat.zero_mod _), a16 m c ⟨0, hn⟩ (Nat.zero_mod _))
  | n + 1, hn =>
    if h0 : (n + 1) % 16 = 0 then
      (a12 m c ⟨n + 1, hn⟩ h0, a13 m c ⟨n + 1, hn⟩ h0, a14 m c ⟨n + 1, hn⟩ h0, a15 m c ⟨n + 1, hn⟩ h0, a16 m c ⟨n + 1, hn⟩ h0)
    else
      if h1 : (n + 1) % 16 = 15 then
        ((stAt c n (Nat.lt_of_succ_lt hn)).1, (stAt c n (Nat.lt_of_succ_lt hn)).2.1, c14 m c ⟨n + 1, hn⟩ h0 h1 (stAt c n (Nat.lt_of_succ_lt hn)), (stAt c n (Nat.lt_of_succ_lt hn)).2.2.2.1, (stAt c n (Nat.lt_of_succ_lt hn)).2.2.2.2)
      else
        ((stAt c n (Nat.lt_of_succ_lt hn)).1, (stAt c n (Nat.lt_of_succ_lt hn)).2.1, b14 m c ⟨n + 1, hn⟩ h0 h1 (stAt c n (Nat.lt_of_succ_lt hn)), (stAt c n (Nat.lt_of_succ_lt hn)).2.2.2.1, (stAt c n (Nat.lt_of_succ_lt hn)).2.2.2.2)

/-- The state before the point `t` (for a point that is not the first). -/
abbrev prev (c : Dev nD) (t : Fin cfg0.N) : St F := stAt m c (t.val - 1) (Nat.lt_of_le_of_lt (Nat.sub_le _ _) t.isLt)

theorem stAt_A (c : Dev nD) (t : Fin cfg0.N) (h0 : t.val % 16 = 0) :
    stAt m c t.val t.isLt = (a12 m c t h0, a13 m c t h0, a14 m c t h0, a15 m c t h0, a16 m c t h0) := by
  obtain ⟨n, hn⟩ := t
  cases n with
  | zero => rfl
  | succ n => exact (dif_pos h0).trans rfl

theorem stAt_B (c : Dev nD) (t : Fin cfg0.N) (h0 : ¬ t.val % 16 = 0) (h1 : ¬ t.val % 16 = 15) :
    stAt m c t.val t.isLt = ((prev m c t).1, (prev m c t).2.1, b14 m c t h0 h1 (prev m c t), (prev m c t).2.2.2.1, (prev m c t).2.2.2.2) := by
  obtain ⟨n, hn⟩ := t
  cases n with
  | zero => exact absurd (Nat.zero_mod _) h0
  | succ n => exact (dif_neg h0).trans ((dif_neg h1).trans rfl)

theorem stAt_C (c : Dev nD) (t : Fin cfg0.N) (h0 : ¬ t.val % 16 = 0) (h1 : t.val % 16 = 15) :
    stAt m c t.val t.isLt = ((prev m c t).1, (prev m c t).2.1, c14 m c t h0 h1 (prev m c t), (prev m c t).2.2.2.1, (prev m c t).2.2.2.2) := by
  obtain ⟨n, hn⟩ := t
  cases n with
  | zero => exact absurd (Nat.zero_mod _) h0
  | succ n => exact (dif_neg h0).trans ((dif_pos h1).trans rfl)

/-- What the large output's buffer holds after the point `t`: at a row's last point the blend the body stores; at the
    other points nothing is claimed of it (any contents of the right shape serve). -/
def out9 (c : Dev nD) (t : Fin cfg0.N) : Vec F S512x1024 .f32 :=
  if h1 : t.val % 16 = 15 then c11 m c t (by omega) h1 (prev m c t)
  else (stAt m c t.val t.isLt).2.2.1

theorem out9_C (c : Dev nD) (t : Fin cfg0.N) (h0 : ¬ t.val % 16 = 0) (h1 : t.val % 16 = 15) :
    out9 m c t = c11 m c t h0 h1 (prev m c t) := dif_pos h1

/-- The region's invariant before position `n`: before the first point every scratch at anything; afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) sc0 fullShare (stAt m c n hn).2.2.1 ∗ owns (c : Thread nD τ) sc1 fullShare (stAt m c n hn).2.2.2.1 ∗ owns (c : Thread nD τ) sc2 fullShare (stAt m c n hn).2.2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (stAt m c n hn).2.2.1 ∗ owns (c : Thread nD τ) sc1 fullShare (stAt m c n hn).2.2.2.1 ∗ owns (c : Thread nD τ) sc2 fullShare (stAt m c n hn).2.2.2.2) ∗ (∃ r, prngReg c r)) := rfl
theorem PhiS_pos (c : Dev nD) (n : ℕ) (h : n ≤ cfg0.N) (hz : n ≠ 0) :
    PhiS m c n h = iprop(iprop(owns (c : Thread nD τ) sc0 fullShare (stAt m c (n - 1) (by omega)).2.2.1 ∗ owns (c : Thread nD τ) sc1 fullShare (stAt m c (n - 1) (by omega)).2.2.2.1 ∗ owns (c : Thread nD τ) sc2 fullShare (stAt m c (n - 1) (by omega)).2.2.2.2) ∗ (∃ r, prngReg c r)) := by
  cases n with
  | zero => exact absurd rfl hz
  | succ n => rfl

/-! ## The proof data -/

/-- The arrays as the region finds them; after the body at a point each input's buffer at its block, the small outputs' at
    the carried state's first two components, the large output's at `out9`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => (stAt m c t.val t.isLt).1
    | ⟨11, _⟩ => (stAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]
theorem after_10 (c : Dev nD) (t : Fin cfg0.N) : (dats m 0 c).after 10 t = (stAt m c t.val t.isLt).1 := by dsimp only [dats]
theorem after_11 (c : Dev nD) (t : Fin cfg0.N) : (dats m 0 c).after 11 t = (stAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- After an inner or last point of a row a small output's buffer is as the point before left it. -/
theorem carry10 (c : Dev nD) (t : Fin cfg0.N) (h0 : ¬ t.val % 16 = 0) :
    (stAt m c t.val t.isLt).1 = (prev m c t).1 := by
  by_cases h1 : t.val % 16 = 15
  · rw [stAt_C m c t h0 h1]
  · rw [stAt_B m c t h0 h1]
theorem carry11 (c : Dev nD) (t : Fin cfg0.N) (h0 : ¬ t.val % 16 = 0) :
    (stAt m c t.val t.isLt).2.1 = (prev m c t).2.1 := by
  by_cases h1 : t.val % 16 = 15
  · rw [stAt_C m c t h0 h1]
  · rw [stAt_B m c t h0 h1]

/-- At a point that is not a row's first, a small output's buffer holds what the point before left: nothing was written
    back since the row's first point stored into it, and the points between are idle for it. -/
theorem before_10 (c : Dev nD) (t : Fin cfg0.N) (h0 : ¬ t.val % 16 = 0) (d) :
    (dats m 0 c).before 10 t d = (prev m c t).1 := by
  have hN : t.val < 128 := lt_of_lt_of_eq t.isLt (show cfg0.N = 128 from N_0)
  rw [Pipeline.Dat.before_out_traj (dats m 0 c) 10 rfl (fun _ _ => rfl)
    (fun u hu _ hfr => by
      have hu0 : ¬ u.val % 16 = 0 := fun h => by
        rw [fresh10 u.val (Nat.le_of_lt u.isLt)] at hfr; exact absurd (decide_eq_true h) (by rw [hfr]; exact Bool.false_ne_true)
      rw [after_10, after_10]; exact carry10 m c u hu0) t.val t rfl d,
    fresh10 t.val (Nat.le_of_lt t.isLt), decide_eq_false h0, if_neg Bool.false_ne_true, after_10]
theorem before_11 (c : Dev nD) (t : Fin cfg0.N) (h0 : ¬ t.val % 16 = 0) (d) :
    (dats m 0 c).before 11 t d = (prev m c t).2.1 := by
  have hN : t.val < 128 := lt_of_lt_of_eq t.isLt (show cfg0.N = 128 from N_0)
  rw [Pipeline.Dat.before_out_traj (dats m 0 c) 11 rfl (fun _ _ => rfl)
    (fun u hu _ hfr => by
      have hu0 : ¬ u.val % 16 = 0 := fun h => by
        rw [fresh11 u.val (Nat.le_of_lt u.isLt)] at hfr; exact absurd (decide_eq_true h) (by rw [hfr]; exact Bool.false_ne_true)
      rw [after_11, after_11]; exact carry11 m c u hu0) t.val t rfl d,
    fresh11 t.val (Nat.le_of_lt t.isLt), decide_eq_false h0, if_neg Bool.false_ne_true, after_11]

end Cert.Kernel.Hand

end
-- ==== Proof.K.Body.lean ====
/-
  The body obligation at every point, the run of the whole program and its frame.
-/
import proofs.«160482_j31069793419865_2_alg».proof.Proof.K.State

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point. The inputs' buffers hold their blocks. The point's position in its row says which of the three
    cases it is in. At a row's first point the scratch buffers and the small outputs are handed over at anything and
    come back at the case's stores; at an inner point the accumulator and the sharpness's copy are handed over at what
    the point before left, and the outputs go back untouched; at the last point the large output comes back at the
    blend, and the small outputs, untouched since the row's first point, hold what that point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare (iblk m c 0 t) from by
    unfold Dat.leavesExact; rw [live_0 t, after_0]]
  rw [show (dats m 0 c).leavesExact 1 t = owns (c : Thread nD τ) (ms0_1 t) fullShare (iblk m c 1 t) from by
    unfold Dat.leavesExact; rw [live_1 t, after_1]]
  rw [show (dats m 0 c).leavesExact 2 t = owns (c : Thread nD τ) (ms0_2 t) fullShare (iblk m c 2 t) from by
    unfold Dat.leavesExact; rw [live_2 t, after_2]]
  rw [show (dats m 0 c).leavesExact 3 t = owns (c : Thread nD τ) (ms0_3 t) fullShare (iblk m c 3 t) from by
    unfold Dat.leavesExact; rw [live_3 t, after_3]]
  rw [show (dats m 0 c).leavesExact 4 t = owns (c : Thread nD τ) (ms0_4 t) fullShare (iblk m c 4 t) from by
    unfold Dat.leavesExact; rw [live_4 t, after_4]]
  rw [show (dats m 0 c).leavesExact 5 t = owns (c : Thread nD τ) (ms0_5 t) fullShare (iblk m c 5 t) from by
    unfold Dat.leavesExact; rw [live_5 t, after_5]]
  rw [show (dats m 0 c).leavesExact 6 t = owns (c : Thread nD τ) (ms0_6 t) fullShare (iblk m c 6 t) from by
    unfold Dat.leavesExact; rw [live_6 t, after_6]]
  rw [show (dats m 0 c).leavesExact 7 t = owns (c : Thread nD τ) (ms0_7 t) fullShare (iblk m c 7 t) from by
    unfold Dat.leavesExact; rw [live_7 t, after_7]]
  rw [show (dats m 0 c).leavesExact 8 t = owns (c : Thread nD τ) (ms0_8 t) fullShare (iblk m c 8 t) from by
    unfold Dat.leavesExact; rw [live_8 t, after_8]]
  by_cases h0 : t.val % 16 = 0
  · have h1 : ¬ t.val % 16 = 15 := by omega
    rw [Dat.leavesExact_idle (dats m 0 c) 9 t (idle9_of t h1) (Bool.eq_false_iff.mpr fun h => h1 ((flush0_9 t).mp h))]
    rw [show (dats m 0 c).leavesExact 10 t = owns (c : Thread nD τ) (ms0_10 t) fullShare (stAt m c t.val t.isLt).1 from by
      unfold Dat.leavesExact; rw [live10_of t h0, after_10]]
    rw [show (dats m 0 c).leavesExact 11 t = owns (c : Thread nD τ) (ms0_11 t) fullShare (stAt m c t.val t.isLt).2.1 from by
      unfold Dat.leavesExact; rw [live11_of t h0, after_11]]
    rw [stAt_A m c t h0]; (try dsimp only)
    unfold a12 a13 a14 a15 a16
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, ⟨%e12, H12⟩, ⟨%e13, H13⟩, ⟨%e14, H14⟩, ⟨%e15, H15⟩, ⟨%e16, H16⟩⟩
      isplitl [H14 H15 H16 Hg]
      · isplitl [H14 H15 H16]
        · isplitl [H14]
          · unfold owns; iexists _; isplitr
            swap; · iexact H14
            ipureintro; exact View.read_writes_eq_canon _ _ _ (coverA14 c _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_eq_canon _ _ _ (coverA15 c _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_eq_canon _ _ _ (coverA16 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H12]
      · unfold owns; iexists _; isplitr
        swap; · iexact H12
        ipureintro; exact View.read_writes_eq_canon _ _ _ (coverA12 c _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_eq_canon _ _ _ (coverA13 c _ _ _ _ _ _ _ _ _ _ _ _ _ _ _ _ _ _ _ _ _ _ _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexists _; iexact H10
      isplitl [H11]; · iexists _; iexact H11
      isplitl [HS0]; · iexists _; iexact HS0
      isplitl [HS1]; · iexists _; iexact HS1
      isplitl [HS2]; · iexists _; iexact HS2
      iintro ⟨H0, H1, H2, H3, H4, H5, H6, H7, H8, ⟨%e12, H12⟩, ⟨%e13, H13⟩, ⟨%e14, H14⟩, ⟨%e15, H15⟩, ⟨%e16, H16⟩⟩
      isplitl [H14 H15 H16 Hg]
      · isplitl [H14 H15 H16]
        · isplitl [H14]
          · unfold owns; iexists _; isplitr
            swap; · iexact H14
            ipureintro; exact View.read_writes_eq_canon _ _ _ (coverA14 c _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_eq_canon _ _ _ (coverA15 c _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_eq_canon _ _ _ (coverA16 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H12]
      · unfold owns; iexists _; isplitr
        swap; · iexact H12
        ipureintro; exact View.read_writes_eq_canon _ _ _ (coverA12 c _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_eq_canon _ _ _ (coverA13 c _ _ _ _ _ _ _ _ _ _ _ _ _ _ _ _ _ _ _ _ _ _ _ _ _ _ _ _ _ _ _ _ _ _ _ _ _ _ _ _ _ _)
  · have hz : t.val ≠ 0 := fun h => h0 (by rw [h])
    by_cases h1 : t.val % 16 = 15
    · rw [show (dats m 0 c).leavesExact 9 t = owns (c : Thread nD τ) (ms0_9 t) fullShare (out9 m c t) from by
        unfold Dat.leavesExact; rw [live9_of t h1, after_9]]
      rw [show (dats m 0 c).leavesExact 10 t = owns (c : Thread nD τ) (ms0_10 t) fullShare (stAt m c t.val t.isLt).1 from by
        unfold Dat.leavesExact; rw [idle10_of t h0, (flush0_10 t).mpr h1, after_10]]
      rw [show (dats m 0 c).leavesExact 11 t = owns (c : Thread nD τ) (ms0_11 t) fullShare (stAt m c t.val t.isLt).2.1 from by
        unfold Dat.leavesExact; rw [idle11_of t h0, (flush0_11 t).mpr h1, after_11]]
      simp only [before_10 m c t h0, before_11 m c t h0]
      rw [out9_C m c t h0 h1, stAt_C m c t h0 h1]; (try dsimp only)
      unfold c11 c14
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseC m c t h0 h1 (prev m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, ⟨%e11, H9⟩, ⟨%e14, H14⟩, HS1, HS2⟩
      isplitl [H14 HS1 HS2 Hg]
      · isplitl [H14 HS1 HS2]
        · isplitl [H14]
          · unfold owns; iexists _; isplitr
            swap; · iexact H14
            ipureintro; exact View.read_writes_eq_canon _ _ _ (coverC14 c _ _ _ _ _ _ _ _ _ _ _ _ _ _ _ _ _ _ _ _ _ _ _ _ _ _ _ _ _ _ _ _ _ _ _ _ _ _ _ _ _ _ _ _ _)
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (coverC11 c _ _ _ _ _ _ _ _ _ _ _ _ _ _ _ _ _ _ _ _ _ _ _ _ _ _ _ _ _ _ _ _ _ _ _ _ _ _ _ _ _ _ _ _ _)
      isplitl [H10]; · iexact H10
      iexact H11
    · rw [Dat.leavesExact_idle (dats m 0 c) 9 t (idle9_of t h1) (Bool.eq_false_iff.mpr fun h => h1 ((flush0_9 t).mp h))]
      rw [Dat.leavesExact_idle (dats m 0 c) 10 t (idle10_of t h0) (Bool.eq_false_iff.mpr fun h => h1 ((flush0_10 t).mp h))]
      rw [Dat.leavesExact_idle (dats m 0 c) 11 t (idle11_of t h0) (Bool.eq_false_iff.mpr fun h => h1 ((flush0_11 t).mp h))]
      rw [stAt_B m c t h0 h1]; (try dsimp only)
      unfold b14
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseB m c t h0 h1 (prev m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS2]; · iexact HS2
      iintro ⟨H0, H1, H2, H3, H4, H5, H6, H7, H8, ⟨%e14, H14⟩, HS2⟩
      isplitl [H14 HS1 HS2 Hg]
      · isplitl [H14 HS1 HS2]
        · isplitl [H14]
          · unfold owns; iexists _; isplitr
            swap; · iexact H14
            ipureintro; exact View.read_writes_eq_canon _ _ _ (coverB14 c _ _ _ _ _ _ _ _ _ _ _ _ _ _ _ _ _ _ _ _ _ _ _ _ _ _ _ _ _ _ _ _ _ _ _ _ _ _ _ _ _ _ _ _)
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, and every final state has each array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its nine argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KI.RunA.lean ====
/-
  The kernel body run at a point where only the first conditional holds.
-/
import proofs.«160482_j31069793419865_2_alg».proof.Proof.Gen.KernelIdeal.Frame
import proofs.«160482_j31069793419865_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first point of a row of the grid (the first conditional taken, the second not), on whole staging
    memrefs: the inputs at their contents, the two small outputs and the three scratch buffers at anything. It runs to
    the continuation holding the inputs as they were and each buffer it stored into with its stores written, last
    first: the weight and the sharpness into the two outputs and into their scratch copies, the accumulator first
    zeroed and then holding the first tile's term. The lists of stores are what the run finds. -/
noncomputable def runA (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : k0_cond1 i = 1#1) (hc1 : ¬ k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) :
    Σ' (L12 : List (View.Piece (Elt F) S512x1 .f32)) (L13 : List (View.Piece (Elt F) S512x1 .f32)) (L14 : List (View.Piece (Elt F) S512x1024 .f32))
       (L15 : List (View.Piece (Elt F) S512x1 .f32)) (L16 : List (View.Piece (Elt F) S512x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    simp only [k0_part1_eq_skeleton]; unfold k0_part1_skel
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H12]; · iexists _; iexact H12
    isplitl [H13]; · iexists _; iexact H13
    isplitl [H14]; · iexists _; iexact H14
    isplitl [H15]; · iexists _; iexact H15
    iexists _; iexact H16

end Cert.KernelIdeal.Hand

end
-- ==== Proof.KI.RunB.lean ====
/-
  The kernel body run at a point where neither conditional holds.
-/
import proofs.«160482_j31069793419865_2_alg».proof.Proof.Gen.KernelIdeal.Frame
import proofs.«160482_j31069793419865_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at an inner point of a row of the grid (neither conditional taken): it reads the input blocks, the
    sharpness scratch and the accumulator, and stores the accumulator plus this tile's term. The list of stores is
    what the run finds. -/
noncomputable def runB (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : ¬ k0_cond1 i = 1#1) (hc1 : ¬ k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) (xs0 : Vec F S512x1024 .f32) (xs2 : Vec F S512x1 .f32) :
    { L14 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xs0 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg14.view.loc (c : Thread nD τ) ↦[arg14.view.set]{fullShare} arg14.view.writes (Elt F) f L14) ∗ owns (c : Thread nD τ) arg16 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg14.eq_unread hfs0
    obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; isplitr; · ipureintro; exact harg16.read_unread _
    iexact HS2

end Cert.KernelIdeal.Hand

end
-- ==== Proof.KI.RunC.lean ====
/-
  The kernel body run at a point where only the second conditional holds.
-/
import proofs.«160482_j31069793419865_2_alg».proof.Proof.Gen.KernelIdeal.Frame
import proofs.«160482_j31069793419865_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last point of a row of the grid (the second conditional taken, the first not): the accumulator
    takes the last tile's term, and the blend of the accumulator with the block of the second input, by the weight
    scratch, scaled, is stored into the large output. The lists of stores are what the run finds. -/
noncomputable def runC (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (hc0 : ¬ k0_cond1 i = 1#1) (hc1 : k0_cond2 i = 1#1)
    (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32) (xs0 : Vec F S512x1024 .f32) (xs1 : Vec F S512x1 .f32) (xs2 : Vec F S512x1 .f32) :
    Σ' (L11 : List (View.Piece (Elt F) S512x1024 .f32)) (L14 : List (View.Piece (Elt F) S512x1024 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L11)
                ∗ (∃ f, arg14.view.loc (c : Thread nD τ) ↦[arg14.view.set]{fullShare} arg14.view.writes (Elt F) f L14)
                ∗ owns (c : Thread nD τ) arg15 fullShare xs1 ∗ owns (c : Thread nD τ) arg16 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg14.eq_unread hfs0
    obtain rfl := harg15.eq_unread hfs1
    obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H11]; · iexists _; iexact H11
    isplitl [HS0]; · iexists _; iexact HS0
    isplitl [HS1]
    · iexists _; isplitr; · ipureintro; exact harg15.read_unread _
      iexact HS1
    iexists _; isplitr; · ipureintro; exact harg16.read_unread _
    iexact HS2

end Cert.KernelIdeal.Hand

end
-- ==== Proof.KI.State.lean ====
/-
  The proof data of the one pipeline and the body obligation.

  The grid has 8 rows of 16 points. At the first point of a row the body computes the row tile's weight and sharpness,
  stores them into the two small outputs and into two scratch buffers, zeroes the accumulator scratch and adds the first
  tile's term; at the fourteen inner points it only adds a tile's term; at the last it adds the last term and stores the
  blend into the large output. The small outputs are written back at the row's last point although nothing is stored
  into them after the first: their buffers are not touched in between, so what is written back is what the first
  point stored. The state after each point is defined by recursion on the point, case by case.
-/
import proofs.«160482_j31069793419865_2_alg».proof.Proof.KI.RunA
import proofs.«160482_j31069793419865_2_alg».proof.Proof.KI.RunB
import proofs.«160482_j31069793419865_2_alg».proof.Proof.KI.RunC
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, the idle table and the write-backs, decided over the grid -/

theorem hcondA : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcondC : ∀ t : Fin cfg0.N, k0_cond2 (grid0.coords t) = 1#1 ↔ t.val % 16 = 15 :=
  (by decide +kernel : ∀ t : Fin grid0.N, k0_cond2 (grid0.coords t) = 1#1 ↔ t.val % 16 = 15)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem idle9_of : ∀ t : Fin cfg0.N, ¬ t.val % 16 = 15 → cfg0.idle 9 (grid0.coords t) = true :=
  (by decide +kernel : ∀ t : Fin grid0.N, ¬ t.val % 16 = 15 → idle0 9 (grid0.coords t) = true)
theorem live9_of : ∀ t : Fin cfg0.N, t.val % 16 = 15 → cfg0.idle 9 (grid0.coords t) = false :=
  (by decide +kernel : ∀ t : Fin grid0.N, t.val % 16 = 15 → idle0 9 (grid0.coords t) = false)
theorem idle10_of : ∀ t : Fin cfg0.N, ¬ t.val % 16 = 0 → cfg0.idle 10 (grid0.coords t) = true :=
  (by decide +kernel : ∀ t : Fin grid0.N, ¬ t.val % 16 = 0 → idle0 10 (grid0.coords t) = true)
theorem live10_of : ∀ t : Fin cfg0.N, t.val % 16 = 0 → cfg0.idle 10 (grid0.coords t) = false :=
  (by decide +kernel : ∀ t : Fin grid0.N, t.val % 16 = 0 → idle0 10 (grid0.coords t) = false)
theorem idle11_of : ∀ t : Fin cfg0.N, ¬ t.val % 16 = 0 → cfg0.idle 11 (grid0.coords t) = true :=
  (by decide +kernel : ∀ t : Fin grid0.N, ¬ t.val % 16 = 0 → idle0 11 (grid0.coords t) = true)
theorem live11_of : ∀ t : Fin cfg0.N, t.val % 16 = 0 → cfg0.idle 11 (grid0.coords t) = false :=
  (by decide +kernel : ∀ t : Fin grid0.N, t.val % 16 = 0 → idle0 11 (grid0.coords t) = false)

/-- The large output's buffer never holds anything stored earlier when the body runs: every point before is idle for
    it or writes it back. -/
theorem fresh9 : ∀ n, n ≤ cfg0.N → cfg0.fresh 9 n = true :=
  Pipeline.Cfg.fresh_tab cfg0 9 (fun _ => true) rfl
    (by decide +kernel : ∀ t : Fin grid0.N, true = ((cfg0.win 9).flush t || (cfg0.idle 9 (cfg0.grid.coords t) && true)))
/-- A small output's buffer holds nothing stored earlier exactly at the first point of a row. -/
theorem fresh10 : ∀ n, n ≤ cfg0.N → cfg0.fresh 10 n = decide (n % 16 = 0) :=
  Pipeline.Cfg.fresh_tab cfg0 10 (fun n => decide (n % 16 = 0)) rfl
    (by decide +kernel : ∀ t : Fin grid0.N, decide ((t.val + 1) % 16 = 0) = ((cfg0.win 10).flush t || (cfg0.idle 10 (cfg0.grid.coords t) && decide (t.val % 16 = 0))))
theorem fresh11 : ∀ n, n ≤ cfg0.N → cfg0.fresh 11 n = decide (n % 16 = 0) :=
  Pipeline.Cfg.fresh_tab cfg0 11 (fun n => decide (n % 16 = 0)) rfl
    (by decide +kernel : ∀ t : Fin grid0.N, decide ((t.val + 1) % 16 = 0) = ((cfg0.win 11).flush t || (cfg0.idle 11 (cfg0.grid.coords t) && decide (t.val % 16 = 0))))

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
/-- The scratch operands: the accumulator, the weight's copy, the sharpness's copy. -/
abbrev sc0 : Memref sig .tc .vmem S512x1024 .f32 := Memref.whole cc0_scratch0
abbrev sc1 : Memref sig .tc .vmem S512x1 .f32 := Memref.whole cc0_scratch1
abbrev sc2 : Memref sig .tc .vmem S512x1 .f32 := Memref.whole cc0_scratch2

/-- The region's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The stores of each case cover the buffers they are read back from -/

section Covers
variable (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256 .f32) (harg7 : arg7.IsWhole) (arg8 : Memref sig .tc .vmem S2x256 .bf16) (harg8 : arg8.IsWhole) (arg9 : Memref sig .tc .vmem S2 .f32) (harg9 : arg9.IsWhole) (arg10 : Memref sig .tc .vmem S1 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S512x1 .f32) (harg15 : arg15.IsWhole) (arg16 : Memref sig .tc .vmem S512x1 .f32) (harg16 : arg16.IsWhole) (x0 : Vec F S512x1024 .bf16) (x1 : Vec F S512x1024 .f32) (x2 : Vec F S1024x1024 .bf16) (x3 : Vec F S1024x1024 .bf16) (x4 : Vec F S256x1024 .bf16) (x5 : Vec F S256 .f32) (x6 : Vec F S2x256 .bf16) (x7 : Vec F S2 .f32) (x8 : Vec F S1 .f32)

theorem coverA12 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1, y ∈ pc.1.set :=
  View.cover_of_tiledL _ S512x1.size (by sl_kernel_rfl) y
theorem coverA13 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1, y ∈ pc.1.set :=
  View.cover_of_tiledL _ S512x1.size (by sl_kernel_rfl) y
theorem coverA14 (hc0 : k0_cond1 i = 1#1) (hc1 : ¬ k0_cond2 i = 1#1) (y : S512x1024.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1, y ∈ pc.1.set :=
  View.cover_of_tiledL _ S512x1024.size (by sl_kernel_rfl) y
theorem coverA15 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1, y ∈ pc.1.set :=
  View.cover_of_tiledL _ S512x1.size (by sl_kernel_rfl) y
theorem coverA16 (hc0 : k0_cond1 i = 1#1) (hc1 : ¬ k0_cond2 i = 1#1) (y : S512x1.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1, y ∈ pc.1.set :=
  View.cover_of_tiledL _ S512x1.size (by sl_kernel_rfl) y
theorem coverB14 (hc0 : ¬ k0_cond1 i = 1#1) (hc1 : ¬ k0_cond2 i = 1#1) (xs0 : Vec F S512x1024 .f32) (xs2 : Vec F S512x1 .f32) (y : S512x1024.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs2).1, y ∈ pc.1.set :=
  View.cover_of_tiledL _ S512x1024.size (by sl_kernel_rfl) y
theorem coverC11 (hc0 : ¬ k0_cond1 i = 1#1) (hc1 : k0_cond2 i = 1#1) (xs0 : Vec F S512x1024 .f32) (xs1 xs2 : Vec F S512x1 .f32) (y : S512x1024.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 xs2).1, y ∈ pc.1.set :=
  View.cover_of_tiledL _ S512x1024.size (by sl_kernel_rfl) y
theorem coverC14 (hc0 : ¬ k0_cond1 i = 1#1) (hc1 : k0_cond2 i = 1#1) (xs0 : Vec F S512x1024 .f32) (xs1 xs2 : Vec F S512x1 .f32) (y : S512x1024.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 xs2).2.1, y ∈ pc.1.set :=
  View.cover_of_tiledL _ S512x1024.size (by sl_kernel_rfl) y
end Covers

/-! ## The state after each point -/

/-- What is carried: the two small outputs' buffers, the accumulator, the weight's copy, the sharpness's copy. -/
abbrev St (F : FTy → Type) := Vec F S512x1 .f32 × Vec F S512x1 .f32 × Vec F S512x1024 .f32 × Vec F S512x1 .f32 × Vec F S512x1 .f32

theorem notA_of {t : Fin cfg0.N} (h0 : ¬ t.val % 16 = 0) : ¬ k0_cond1 (grid0.coords t) = 1#1 := fun h => h0 ((hcondA t).mp h)
theorem notC_of {t : Fin cfg0.N} (h1 : ¬ t.val % 16 = 15) : ¬ k0_cond2 (grid0.coords t) = 1#1 := fun h => h1 ((hcondC t).mp h)

/-- The body's run at a row's first point, on that point's memrefs and blocks. -/
def caseA (c : Dev nD) (t : Fin cfg0.N) (h0 : t.val % 16 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) ((hcondA t).mpr h0) (notC_of (by omega)) (iblk m c 0 t) (iblk m c 1 t) (iblk m c 2 t) (iblk m c 3 t) (iblk m c 4 t) (iblk m c 5 t) (iblk m c 6 t) (iblk m c 7 t) (iblk m c 8 t)
/-- At an inner point, over what the point before left in the accumulator and the sharpness's copy. -/
def caseB (c : Dev nD) (t : Fin cfg0.N) (h0 : ¬ t.val % 16 = 0) (h1 : ¬ t.val % 16 = 15) (p : St F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) (notA_of h0) (notC_of h1) (iblk m c 0 t) (iblk m c 1 t) (iblk m c 2 t) (iblk m c 3 t) (iblk m c 4 t) (iblk m c 5 t) (iblk m c 6 t) (iblk m c 7 t) (iblk m c 8 t) p.2.2.1 p.2.2.2.2
/-- At a row's last point, over what the point before left in the three scratch buffers. -/
def caseC (c : Dev nD) (t : Fin cfg0.N) (h0 : ¬ t.val % 16 = 0) (h1 : t.val % 16 = 15) (p : St F) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 (Memref.isWhole_whole _) sc1 (Memref.isWhole_whole _) sc2 (Memref.isWhole_whole _) (notA_of h0) ((hcondC t).mpr h1) (iblk m c 0 t) (iblk m c 1 t) (iblk m c 2 t) (iblk m c 3 t) (iblk m c 4 t) (iblk m c 5 t) (iblk m c 6 t) (iblk m c 7 t) (iblk m c 8 t) p.2.2.1 p.2.2.2.1 p.2.2.2.2

/-- What a row's first point leaves in the two small outputs, the accumulator and the two copies. -/
def a12 (c : Dev nD) (t : Fin cfg0.N) (h0 : t.val % 16 = 0) : Vec F S512x1 .f32 := View.canon (caseA m c t h0).1
def a13 (c : Dev nD) (t : Fin cfg0.N) (h0 : t.val % 16 = 0) : Vec F S512x1 .f32 := View.canon (caseA m c t h0).2.1
def a14 (c : Dev nD) (t : Fin cfg0.N) (h0 : t.val % 16 = 0) : Vec F S512x1024 .f32 := View.canon (caseA m c t h0).2.2.1
def a15 (c : Dev nD) (t : Fin cfg0.N) (h0 : t.val % 16 = 0) : Vec F S512x1 .f32 := View.canon (caseA m c t h0).2.2.2.1
def a16 (c : Dev nD) (t : Fin cfg0.N) (h0 : t.val % 16 = 0) : Vec F S512x1 .f32 := View.canon (caseA m c t h0).2.2.2.2.1
/-- What an inner point leaves in the accumulator. -/
def b14 (c : Dev nD) (t : Fin cfg0.N) (h0 : ¬ t.val % 16 = 0) (h1 : ¬ t.val % 16 = 15) (p : St F) : Vec F S512x1024 .f32 := View.canon (caseB m c t h0 h1 p).1
/-- What a row's last point leaves in the large output and in the accumulator. -/
def c11 (c : Dev nD) (t : Fin cfg0.N) (h0 : ¬ t.val % 16 = 0) (h1 : t.val % 16 = 15) (p : St F) : Vec F S512x1024 .f32 := View.canon (caseC m c t h0 h1 p).1
def c14 (c : Dev nD) (t : Fin cfg0.N) (h0 : ¬ t.val % 16 = 0) (h1 : t.val % 16 = 15) (p : St F) : Vec F S512x1024 .f32 := View.canon (caseC m c t h0 h1 p).2.1

/-- The state after the point at position `n`. -/
def stAt (c : Dev nD) : (n : ℕ) → n < cfg0.N → St F
  | 0, hn => (a12 m c ⟨0, hn⟩ (Nat.zero_mod _), a13 m c ⟨0, hn⟩ (Nat.zero_mod _), a14 m c ⟨0, hn⟩ (Nat.zero_mod _), a15 m c ⟨0, hn⟩ (Nat.zero_mod _), a16 m c ⟨0, hn⟩ (Nat.zero_mod _))
  | n + 1, hn =>
    if h0 : (n + 1) % 16 = 0 then
      (a12 m c ⟨n + 1, hn⟩ h0, a13 m c ⟨n + 1, hn⟩ h0, a14 m c ⟨n + 1, hn⟩ h0, a15 m c ⟨n + 1, hn⟩ h0, a16 m c ⟨n + 1, hn⟩ h0)
    else
      if h1 : (n + 1) % 16 = 15 then
        ((stAt c n (Nat.lt_of_succ_lt hn)).1, (stAt c n (Nat.lt_of_succ_lt hn)).2.1, c14 m c ⟨n + 1, hn⟩ h0 h1 (stAt c n (Nat.lt_of_succ_lt hn)), (stAt c n (Nat.lt_of_succ_lt hn)).2.2.2.1, (stAt c n (Nat.lt_of_succ_lt hn)).2.2.2.2)
      else
        ((stAt c n (Nat.lt_of_succ_lt hn)).1, (stAt c n (Nat.lt_of_succ_lt hn)).2.1, b14 m c ⟨n + 1, hn⟩ h0 h1 (stAt c n (Nat.lt_of_succ_lt hn)), (stAt c n (Nat.lt_of_succ_lt hn)).2.2.2.1, (stAt c n (Nat.lt_of_succ_lt hn)).2.2.2.2)

/-- The state before the point `t` (for a point that is not the first). -/
abbrev prev (c : Dev nD) (t : Fin cfg0.N) : St F := stAt m c (t.val - 1) (Nat.lt_of_le_of_lt (Nat.sub_le _ _) t.isLt)

theorem stAt_A (c : Dev nD) (t : Fin cfg0.N) (h0 : t.val % 16 = 0) :
    stAt m c t.val t.isLt = (a12 m c t h0, a13 m c t h0, a14 m c t h0, a15 m c t h0, a16 m c t h0) := by
  obtain ⟨n, hn⟩ := t
  cases n with
  | zero => rfl
  | succ n => exact (dif_pos h0).trans rfl

theorem stAt_B (c : Dev nD) (t : Fin cfg0.N) (h0 : ¬ t.val % 16 = 0) (h1 : ¬ t.val % 16 = 15) :
    stAt m c t.val t.isLt = ((prev m c t).1, (prev m c t).2.1, b14 m c t h0 h1 (prev m c t), (prev m c t).2.2.2.1, (prev m c t).2.2.2.2) := by
  obtain ⟨n, hn⟩ := t
  cases n with
  | zero => exact absurd (Nat.zero_mod _) h0
  | succ n => exact (dif_neg h0).trans ((dif_neg h1).trans rfl)

theorem stAt_C (c : Dev nD) (t : Fin cfg0.N) (h0 : ¬ t.val % 16 = 0) (h1 : t.val % 16 = 15) :
    stAt m c t.val t.isLt = ((prev m c t).1, (prev m c t).2.1, c14 m c t h0 h1 (prev m c t), (prev m c t).2.2.2.1, (prev m c t).2.2.2.2) := by
  obtain ⟨n, hn⟩ := t
  cases n with
  | zero => exact absurd (Nat.zero_mod _) h0
  | succ n => exact (dif_neg h0).trans ((dif_pos h1).trans rfl)

/-- What the large output's buffer holds after the point `t`: at a row's last point the blend the body stores; at the
    other points nothing is claimed of it (any contents of the right shape serve). -/
def out9 (c : Dev nD) (t : Fin cfg0.N) : Vec F S512x1024 .f32 :=
  if h1 : t.val % 16 = 15 then c11 m c t (by omega) h1 (prev m c t)
  else (stAt m c t.val t.isLt).2.2.1

theorem out9_C (c : Dev nD) (t : Fin cfg0.N) (h0 : ¬ t.val % 16 = 0) (h1 : t.val % 16 = 15) :
    out9 m c t = c11 m c t h0 h1 (prev m c t) := dif_pos h1

/-- The region's invariant before position `n`: before the first point every scratch at anything; afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) sc0 fullShare (stAt m c n hn).2.2.1 ∗ owns (c : Thread nD τ) sc1 fullShare (stAt m c n hn).2.2.2.1 ∗ owns (c : Thread nD τ) sc2 fullShare (stAt m c n hn).2.2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (stAt m c n hn).2.2.1 ∗ owns (c : Thread nD τ) sc1 fullShare (stAt m c n hn).2.2.2.1 ∗ owns (c : Thread nD τ) sc2 fullShare (stAt m c n hn).2.2.2.2) ∗ (∃ r, prngReg c r)) := rfl
theorem PhiS_pos (c : Dev nD) (n : ℕ) (h : n ≤ cfg0.N) (hz : n ≠ 0) :
    PhiS m c n h = iprop(iprop(owns (c : Thread nD τ) sc0 fullShare (stAt m c (n - 1) (by omega)).2.2.1 ∗ owns (c : Thread nD τ) sc1 fullShare (stAt m c (n - 1) (by omega)).2.2.2.1 ∗ owns (c : Thread nD τ) sc2 fullShare (stAt m c (n - 1) (by omega)).2.2.2.2) ∗ (∃ r, prngReg c r)) := by
  cases n with
  | zero => exact absurd rfl hz
  | succ n => rfl

/-! ## The proof data -/

/-- The arrays as the region finds them; after the body at a point each input's buffer at its block, the small outputs' at
    the carried state's first two components, the large output's at `out9`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => (stAt m c t.val t.isLt).1
    | ⟨11, _⟩ => (stAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]
theorem after_10 (c : Dev nD) (t : Fin cfg0.N) : (dats m 0 c).after 10 t = (stAt m c t.val t.isLt).1 := by dsimp only [dats]
theorem after_11 (c : Dev nD) (t : Fin cfg0.N) : (dats m 0 c).after 11 t = (stAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- After an inner or last point of a row a small output's buffer is as the point before left it. -/
theorem carry10 (c : Dev nD) (t : Fin cfg0.N) (h0 : ¬ t.val % 16 = 0) :
    (stAt m c t.val t.isLt).1 = (prev m c t).1 := by
  by_cases h1 : t.val % 16 = 15
  · rw [stAt_C m c t h0 h1]
  · rw [stAt_B m c t h0 h1]
theorem carry11 (c : Dev nD) (t : Fin cfg0.N) (h0 : ¬ t.val % 16 = 0) :
    (stAt m c t.val t.isLt).2.1 = (prev m c t).2.1 := by
  by_cases h1 : t.val % 16 = 15
  · rw [stAt_C m c t h0 h1]
  · rw [stAt_B m c t h0 h1]

/-- At a point that is not a row's first, a small output's buffer holds what the point before left: nothing was written
    back since the row's first point stored into it, and the points between are idle for it. -/
theorem before_10 (c : Dev nD) (t : Fin cfg0.N) (h0 : ¬ t.val % 16 = 0) (d) :
    (dats m 0 c).before 10 t d = (prev m c t).1 := by
  have hN : t.val < 128 := lt_of_lt_of_eq t.isLt (show cfg0.N = 128 from N_0)
  rw [Pipeline.Dat.before_out_traj (dats m 0 c) 10 rfl (fun _ _ => rfl)
    (fun u hu _ hfr => by
      have hu0 : ¬ u.val % 16 = 0 := fun h => by
        rw [fresh10 u.val (Nat.le_of_lt u.isLt)] at hfr; exact absurd (decide_eq_true h) (by rw [hfr]; exact Bool.false_ne_true)
      rw [after_10, after_10]; exact carry10 m c u hu0) t.val t rfl d,
    fresh10 t.val (Nat.le_of_lt t.isLt), decide_eq_false h0, if_neg Bool.false_ne_true, after_10]
theorem before_11 (c : Dev nD) (t : Fin cfg0.N) (h0 : ¬ t.val % 16 = 0) (d) :
    (dats m 0 c).before 11 t d = (prev m c t).2.1 := by
  have hN : t.val < 128 := lt_of_lt_of_eq t.isLt (show cfg0.N = 128 from N_0)
  rw [Pipeline.Dat.before_out_traj (dats m 0 c) 11 rfl (fun _ _ => rfl)
    (fun u hu _ hfr => by
      have hu0 : ¬ u.val % 16 = 0 := fun h => by
        rw [fresh11 u.val (Nat.le_of_lt u.isLt)] at hfr; exact absurd (decide_eq_true h) (by rw [hfr]; exact Bool.false_ne_true)
      rw [after_11, after_11]; exact carry11 m c u hu0) t.val t rfl d,
    fresh11 t.val (Nat.le_of_lt t.isLt), decide_eq_false h0, if_neg Bool.false_ne_true, after_11]

end Cert.KernelIdeal.Hand

end
-- ==== Proof.KI.Body.lean ====
/-
  The body obligation at every point, the run of the whole program and its frame.
-/
import proofs.«160482_j31069793419865_2_alg».proof.Proof.KI.State

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point. The inputs' buffers hold their blocks. The point's position in its row says which of the three
    cases it is in. At a row's first point the scratch buffers and the small outputs are handed over at anything and
    come back at the case's stores; at an inner point the accumulator and the sharpness's copy are handed over at what
    the point before left, and the outputs go back untouched; at the last point the large output comes back at the
    blend, and the small outputs, untouched since the row's first point, hold what that point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare (iblk m c 0 t) from by
    unfold Dat.leavesExact; rw [live_0 t, after_0]]
  rw [show (dats m 0 c).leavesExact 1 t = owns (c : Thread nD τ) (ms0_1 t) fullShare (iblk m c 1 t) from by
    unfold Dat.leavesExact; rw [live_1 t, after_1]]
  rw [show (dats m 0 c).leavesExact 2 t = owns (c : Thread nD τ) (ms0_2 t) fullShare (iblk m c 2 t) from by
    unfold Dat.leavesExact; rw [live_2 t, after_2]]
  rw [show (dats m 0 c).leavesExact 3 t = owns (c : Thread nD τ) (ms0_3 t) fullShare (iblk m c 3 t) from by
    unfold Dat.leavesExact; rw [live_3 t, after_3]]
  rw [show (dats m 0 c).leavesExact 4 t = owns (c : Thread nD τ) (ms0_4 t) fullShare (iblk m c 4 t) from by
    unfold Dat.leavesExact; rw [live_4 t, after_4]]
  rw [show (dats m 0 c).leavesExact 5 t = owns (c : Thread nD τ) (ms0_5 t) fullShare (iblk m c 5 t) from by
    unfold Dat.leavesExact; rw [live_5 t, after_5]]
  rw [show (dats m 0 c).leavesExact 6 t = owns (c : Thread nD τ) (ms0_6 t) fullShare (iblk m c 6 t) from by
    unfold Dat.leavesExact; rw [live_6 t, after_6]]
  rw [show (dats m 0 c).leavesExact 7 t = owns (c : Thread nD τ) (ms0_7 t) fullShare (iblk m c 7 t) from by
    unfold Dat.leavesExact; rw [live_7 t, after_7]]
  rw [show (dats m 0 c).leavesExact 8 t = owns (c : Thread nD τ) (ms0_8 t) fullShare (iblk m c 8 t) from by
    unfold Dat.leavesExact; rw [live_8 t, after_8]]
  by_cases h0 : t.val % 16 = 0
  · have h1 : ¬ t.val % 16 = 15 := by omega
    rw [Dat.leavesExact_idle (dats m 0 c) 9 t (idle9_of t h1) (Bool.eq_false_iff.mpr fun h => h1 ((flush0_9 t).mp h))]
    rw [show (dats m 0 c).leavesExact 10 t = owns (c : Thread nD τ) (ms0_10 t) fullShare (stAt m c t.val t.isLt).1 from by
      unfold Dat.leavesExact; rw [live10_of t h0, after_10]]
    rw [show (dats m 0 c).leavesExact 11 t = owns (c : Thread nD τ) (ms0_11 t) fullShare (stAt m c t.val t.isLt).2.1 from by
      unfold Dat.leavesExact; rw [live11_of t h0, after_11]]
    rw [stAt_A m c t h0]; (try dsimp only)
    unfold a12 a13 a14 a15 a16
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, ⟨%e12, H12⟩, ⟨%e13, H13⟩, ⟨%e14, H14⟩, ⟨%e15, H15⟩, ⟨%e16, H16⟩⟩
      isplitl [H14 H15 H16 Hg]
      · isplitl [H14 H15 H16]
        · isplitl [H14]
          · unfold owns; iexists _; isplitr
            swap; · iexact H14
            ipureintro; exact View.read_writes_eq_canon _ _ _ (coverA14 c _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_eq_canon _ _ _ (coverA15 c _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_eq_canon _ _ _ (coverA16 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H12]
      · unfold owns; iexists _; isplitr
        swap; · iexact H12
        ipureintro; exact View.read_writes_eq_canon _ _ _ (coverA12 c _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_eq_canon _ _ _ (coverA13 c _ _ _ _ _ _ _ _ _ _ _ _ _ _ _ _ _ _ _ _ _ _ _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexists _; iexact H10
      isplitl [H11]; · iexists _; iexact H11
      isplitl [HS0]; · iexists _; iexact HS0
      isplitl [HS1]; · iexists _; iexact HS1
      isplitl [HS2]; · iexists _; iexact HS2
      iintro ⟨H0, H1, H2, H3, H4, H5, H6, H7, H8, ⟨%e12, H12⟩, ⟨%e13, H13⟩, ⟨%e14, H14⟩, ⟨%e15, H15⟩, ⟨%e16, H16⟩⟩
      isplitl [H14 H15 H16 Hg]
      · isplitl [H14 H15 H16]
        · isplitl [H14]
          · unfold owns; iexists _; isplitr
            swap; · iexact H14
            ipureintro; exact View.read_writes_eq_canon _ _ _ (coverA14 c _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_eq_canon _ _ _ (coverA15 c _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_eq_canon _ _ _ (coverA16 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H12]
      · unfold owns; iexists _; isplitr
        swap; · iexact H12
        ipureintro; exact View.read_writes_eq_canon _ _ _ (coverA12 c _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_eq_canon _ _ _ (coverA13 c _ _ _ _ _ _ _ _ _ _ _ _ _ _ _ _ _ _ _ _ _ _ _ _ _ _ _ _ _ _ _ _ _ _ _ _ _ _ _ _ _ _)
  · have hz : t.val ≠ 0 := fun h => h0 (by rw [h])
    by_cases h1 : t.val % 16 = 15
    · rw [show (dats m 0 c).leavesExact 9 t = owns (c : Thread nD τ) (ms0_9 t) fullShare (out9 m c t) from by
        unfold Dat.leavesExact; rw [live9_of t h1, after_9]]
      rw [show (dats m 0 c).leavesExact 10 t = owns (c : Thread nD τ) (ms0_10 t) fullShare (stAt m c t.val t.isLt).1 from by
        unfold Dat.leavesExact; rw [idle10_of t h0, (flush0_10 t).mpr h1, after_10]]
      rw [show (dats m 0 c).leavesExact 11 t = owns (c : Thread nD τ) (ms0_11 t) fullShare (stAt m c t.val t.isLt).2.1 from by
        unfold Dat.leavesExact; rw [idle11_of t h0, (flush0_11 t).mpr h1, after_11]]
      simp only [before_10 m c t h0, before_11 m c t h0]
      rw [out9_C m c t h0 h1, stAt_C m c t h0 h1]; (try dsimp only)
      unfold c11 c14
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseC m c t h0 h1 (prev m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, ⟨%e11, H9⟩, ⟨%e14, H14⟩, HS1, HS2⟩
      isplitl [H14 HS1 HS2 Hg]
      · isplitl [H14 HS1 HS2]
        · isplitl [H14]
          · unfold owns; iexists _; isplitr
            swap; · iexact H14
            ipureintro; exact View.read_writes_eq_canon _ _ _ (coverC14 c _ _ _ _ _ _ _ _ _ _ _ _ _ _ _ _ _ _ _ _ _ _ _ _ _ _ _ _ _ _ _ _ _ _ _ _ _ _ _ _ _ _ _ _ _)
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (coverC11 c _ _ _ _ _ _ _ _ _ _ _ _ _ _ _ _ _ _ _ _ _ _ _ _ _ _ _ _ _ _ _ _ _ _ _ _ _ _ _ _ _ _ _ _ _)
      isplitl [H10]; · iexact H10
      iexact H11
    · rw [Dat.leavesExact_idle (dats m 0 c) 9 t (idle9_of t h1) (Bool.eq_false_iff.mpr fun h => h1 ((flush0_9 t).mp h))]
      rw [Dat.leavesExact_idle (dats m 0 c) 10 t (idle10_of t h0) (Bool.eq_false_iff.mpr fun h => h1 ((flush0_10 t).mp h))]
      rw [Dat.leavesExact_idle (dats m 0 c) 11 t (idle11_of t h0) (Bool.eq_false_iff.mpr fun h => h1 ((flush0_11 t).mp h))]
      rw [stAt_B m c t h0 h1]; (try dsimp only)
      unfold b14
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((caseB m c t h0 h1 (prev m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS2]; · iexact HS2
      iintro ⟨H0, H1, H2, H3, H4, H5, H6, H7, H8, ⟨%e14, H14⟩, HS2⟩
      isplitl [H14 HS1 HS2 Hg]
      · isplitl [H14 HS1 HS2]
        · isplitl [H14]
          · unfold owns; iexists _; isplitr
            swap; · iexact H14
            ipureintro; exact View.read_writes_eq_canon _ _ _ (coverB14 c _ _ _ _ _ _ _ _ _ _ _ _ _ _ _ _ _ _ _ _ _ _ _ _ _ _ _ _ _ _ _ _ _ _ _ _ _ _ _ _ _ _ _ _)
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, and every final state has each array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its nine argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.KI.Pieces.lean ====
/-
  What each case's stores leave, as the body's arithmetic applied to the point's blocks and to the carried state.
-/
import proofs.«160482_j31069793419865_2_alg».proof.Proof.KI.State
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An all-zero offset, in rank 2 and rank 1. -/
theorem hz2 : (![0, 0] : Fin 2 → ℕ) = fun _ => 0 := funext fun a => by fin_cases a <;> rfl
theorem hz1 : (![0] : Fin 1 → ℕ) = fun _ => 0 := funext fun a => by fin_cases a <;> rfl

/-- Reading a whole scratch buffer back at contents chosen to read as `X` gives `X`. -/
theorem sc0_read (h : (sc0 : Memref sig .tc .vmem S512x1024 .f32).IsWhole) (X : Vec F S512x1024 .f32) :
    View.read (Elt F) (View.whole cc0_scratch0) (h.unread X) = X := h.read_unread X
theorem sc1_read (h : (sc1 : Memref sig .tc .vmem S512x1 .f32).IsWhole) (X : Vec F S512x1 .f32) :
    View.read (Elt F) (View.whole cc0_scratch1) (h.unread X) = X := h.read_unread X
theorem sc2_read (h : (sc2 : Memref sig .tc .vmem S512x1 .f32).IsWhole) (X : Vec F S512x1 .f32) :
    View.read (Elt F) (View.whole cc0_scratch2) (h.unread X) = X := h.read_unread X

/-- The first small output after a row's first point: the weight, the body's logistic of the first gate value. -/
theorem a12_eq (c : Dev nD) (t : Fin cfg0.N) (h0 : t.val % 16 = 0) :
    a12 m c t h0 = k0_pay8 (k0_pay1 (iblk m c 0 t)) (iblk m c 4 t) (iblk m c 5 t) (iblk m c 6 t) (iblk m c 7 t) := by
  unfold a12 caseA runA
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The second small output: the sharpness. -/
theorem a13_eq (c : Dev nD) (t : Fin cfg0.N) (h0 : t.val % 16 = 0) :
    a13 m c t h0 = k0_pay9 (k0_pay1 (iblk m c 0 t)) (iblk m c 4 t) (iblk m c 5 t) (iblk m c 6 t) (iblk m c 7 t) := by
  unfold a13 caseA runA
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The weight's scratch copy. -/
theorem a15_eq (c : Dev nD) (t : Fin cfg0.N) (h0 : t.val % 16 = 0) :
    a15 m c t h0 = k0_pay2 (k0_pay8 (k0_pay1 (iblk m c 0 t)) (iblk m c 4 t) (iblk m c 5 t) (iblk m c 6 t) (iblk m c 7 t)) := by
  unfold a15 caseA runA
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The sharpness's scratch copy. -/
theorem a16_eq (c : Dev nD) (t : Fin cfg0.N) (h0 : t.val % 16 = 0) :
    a16 m c t h0 = k0_pay3 (k0_pay9 (k0_pay1 (iblk m c 0 t)) (iblk m c 4 t) (iblk m c 5 t) (iblk m c 6 t) (iblk m c 7 t)) := by
  unfold a16 caseA runA
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The accumulator after a row's first point: the zero fill plus the first tile's term, at the sharpness just stored. -/
theorem a14_eq (c : Dev nD) (t : Fin cfg0.N) (h0 : t.val % 16 = 0) :
    a14 m c t h0 = k0_pay4 (iblk m c 0 t) (iblk m c 2 t) (k0_pay3 (k0_pay9 (k0_pay1 (iblk m c 0 t)) (iblk m c 4 t) (iblk m c 5 t) (iblk m c 6 t) (iblk m c 7 t))) (iblk m c 3 t) k0_pay6 := by
  unfold a14 caseA runA
  dsimp only
  sl_unfold_words
  (try dsimp only)
  rw [View.canon_cons_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The accumulator after an inner point: what it held plus this tile's term, at the carried sharpness. -/
theorem b14_eq (c : Dev nD) (t : Fin cfg0.N) (h0 : ¬ t.val % 16 = 0) (h1 : ¬ t.val % 16 = 15) (p : St F) :
    b14 m c t h0 h1 p = k0_pay4 (iblk m c 0 t) (iblk m c 2 t) p.2.2.2.2 (iblk m c 3 t) p.2.2.1 := by
  unfold b14 caseB runB
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The accumulator after a row's last point: likewise. -/
theorem c14_eq (c : Dev nD) (t : Fin cfg0.N) (h0 : ¬ t.val % 16 = 0) (h1 : t.val % 16 = 15) (p : St F) :
    c14 m c t h0 h1 p = k0_pay4 (iblk m c 0 t) (iblk m c 2 t) p.2.2.2.2 (iblk m c 3 t) p.2.2.1 := by
  unfold c14 caseC runC
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

/-- The large output after a row's last point: the blend of the second input's block with the finished accumulator. -/
theorem c11_eq (c : Dev nD) (t : Fin cfg0.N) (h0 : ¬ t.val % 16 = 0) (h1 : t.val % 16 = 15) (p : St F) :
    c11 m c t h0 h1 p = k0_pay5 p.2.2.2.1 (iblk m c 1 t) (k0_pay4 (iblk m c 0 t) (iblk m c 2 t) p.2.2.2.2 (iblk m c 3 t) p.2.2.1) (iblk m c 8 t) := by
  unfold c11 caseC runC
  dsimp only
  sl_unfold_words
  (try dsimp only)
  rw [View.canon_unit_zero hz2]
  simp only [View.readCov_unit_zero (S := S512x1) _ hz2, View.readCov_unit_zero (S := S512x1024) _ hz2, sc0_read, sc1_read, sc2_read, View.readAt_eq_ld, Memref.IsWhole.read_unread, View.ld_unit_zero (S := S512x1024) hz2, View.ld_unit_zero (S := S1024x1024) hz2, View.ld_unit_zero (S := S256x1024) hz2, View.ld_unit_zero (S := S256) hz1, View.ld_unit_zero (S := S2x256) hz2, View.ld_unit_zero (S := S2) hz1, View.ld_unit_zero (S := S1) hz1, View.ld_unit_zero (S := S512x1) hz2]

end Cert.KernelIdeal.Hand

end
-- ==== Proof.Spec.lean ====
/-
  The three results as functions of the nine argument arrays, entry by entry, on the extended reals.

  A row `b` of `q` goes through a two-layer gate: `hid b j = max (∑ d, q b d · w1 j d + b1 j) 0`,
  `gate b e = ∑ j, hid b j · w2 e j + b2 e`; the first gate value gives the mixing weight
  `alpha b = 1 / (1 + exp (-(gate b 0)))`, the second the sharpness
  `beta b = max g 0 + log (1 + exp (-|g|)) + 0.001` at `g = gate b 1`.
  The cache term is `agg b c = ∑ n < 16000, exp (beta b · ⟨q b, keys n⟩) · vals n c`, and the result is
  `((1 - alpha b) · z b c + alpha b · agg b c) · ps 0`.
  The literals 1.0 and 0.001 stay as the 32-bit words both programs print (never evaluated).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word of the f32 literal 1.0. -/
abbrev one : EReal := Ideal.ofBits .f32 0x3F800000#32
/-- The word of the f32 literal 1.0e-3. -/
abbrev milli : EReal := Ideal.ofBits .f32 0x3A83126F#32

variable (q : FVec Ideal ⟨2, ![4096, 1024]⟩ .f32) (z : FVec Ideal ⟨2, ![4096, 1000]⟩ .f32)
  (keys : FVec Ideal ⟨2, ![16000, 1024]⟩ .f32) (vals : FVec Ideal ⟨2, ![16000, 1000]⟩ .f32)
  (w1 : FVec Ideal ⟨2, ![256, 1024]⟩ .f32) (b1 : FVec Ideal ⟨1, ![256]⟩ .f32)
  (w2 : FVec Ideal ⟨2, ![2, 256]⟩ .f32) (b2 : FVec Ideal ⟨1, ![2]⟩ .f32) (ps : FVec Ideal ⟨1, ![1]⟩ .f32)

/-- The hidden layer: a rectified affine image of row `b` of `q`. -/
def hid (b : Fin 4096) (j : Fin 256) : EReal :=
  max ((∑ d : Fin 1024, q (ix2 b d) * w1 (ix2 j d)) + b1 (ix1 j)) 0

/-- The two gate values of row `b`. -/
def gate (b : Fin 4096) (e : Fin 2) : EReal :=
  (∑ j : Fin 256, hid q w1 b1 b j * w2 (ix2 e j)) + b2 (ix1 e)

/-- The mixing weight of row `b`: the logistic function of the first gate value. -/
def alpha (b : Fin 4096) : EReal := Ideal.logistic (gate q w1 b1 w2 b2 b 0)

/-- `log (1 + exp x)` in its overflow-free form `max x 0 + log (1 + exp (-|x|))`, `|x| = max x (-x)`. -/
def softplus (x : EReal) : EReal := max x 0 + Ideal.log1p (Ideal.exp (-(max x (-x))))

/-- The sharpness of row `b`: softplus of the second gate value, plus the literal 0.001. -/
def beta (b : Fin 4096) : EReal := softplus (gate q w1 b1 w2 b2 b 1) + milli

/-- The inner product of row `b` of `q` with cache key `n`. -/
def sim (b : Fin 4096) (n : Fin 16000) : EReal := ∑ d : Fin 1024, q (ix2 b d) * keys (ix2 n d)

/-- The cache term: the values weighted by the exponentiated, sharpened similarities. -/
def agg (b : Fin 4096) (c : Fin 1000) : EReal :=
  ∑ n : Fin 16000, Ideal.exp (beta q w1 b1 w2 b2 b * sim q keys b n) * vals (ix2 n c)

/-- The first result: the gated blend of `z` and the cache term, scaled. -/
def logits (b : Fin 4096) (c : Fin 1000) : EReal :=
  ((one - alpha q w1 b1 w2 b2 b) * z (ix2 b c) + alpha q w1 b1 w2 b2 b * agg q keys vals w1 b1 w2 b2 b c) * ps (ix1 0)

end Cert.Spec

end
-- ==== Proof.PayValue.lean ====
/-
  The body's arithmetic read at one entry, on the extended reals.

  Each payload of the body is one term of the values loaded before it. Here each is read at explicit
  coordinates `(r, c)`: the pointwise operations read through entry by entry; a product of blocks into the
  zero block is the sum over the shared axis; a transposed block swaps its coordinates; a column `[512, 1]`
  spread along the lanes, or a bias viewed as a one-row block and spread over the rows, reads the one entry
  it came from; a one-column slice of the two-column gate block reads that column.

  The results: the blend `((1 - α) · z + α · agg) · s`; one cache step `acc + ∑ k, exp (β · ⟨q, keys k⟩) · vals k`;
  the two gate values `∑ j, max (⟨q, w1 j⟩ + b1 j) 0 · w2 e j + b2 e`; the mixing weight, the logistic
  function of the first; the sharpness, `max g 0 + log (1 + exp (-|g|)) + 0.001` at the second
  (the body guards that formula by "g differs from itself", which never holds on the extended reals).
-/
import proofs.«160482_j31069793419865_2_alg».proof.Proof.Gen.KernelIdeal.Skeleton
import proofs.«160482_j31069793419865_2_alg».proof.Proof.Spec
import Idealize.ShloMosaic.Lib.Pipeline.Value
import Idealize.ShloMosaic.Lib.ValueIdx
import Idealize.ShloMosaic.PureOps.Ideal.Laws

noncomputable section

namespace Cert.PayValue

open Cert.KernelIdeal Cert.KernelIdeal.Gen Idealize.ShloMosaic Idealize.ShloMosaic.ValueIdx

/-! ## Layout steps at explicit coordinates -/

/-- A column `[512, 1]` spread along the lanes reads, at `(r, c)`, the column's entry of row `r`. -/
theorem bcastCol_apply (v : FVec Ideal S512x1 .f32) (r : Fin 512) (c : Fin 1024) :
    broadcastTo S512x1024 v broadcasts_S512x1_S512x1024 (ix2 r c) = v (ix2 r 0) :=
  broadcastTo_apply v broadcasts_S512x1_S512x1024 (ix2 r c) (ix2 r 0) (fun a => match a with
    | ⟨0, _⟩ => by show r.val = if (512 : Nat) = 1 then 0 else r.val; rw [if_neg (by decide)]
    | ⟨1, _⟩ => by show 0 = if (1 : Nat) = 1 then 0 else c.val; rw [if_pos rfl])

/-- A one-entry vector viewed `[1, 1]` and spread over the block reads its one entry everywhere. -/
theorem bcastOne_apply (v : FVec Ideal S1 .f32) (r : Fin 512) (c : Fin 1024) :
    broadcastTo S512x1024 (shapeCast S1x1 v shapeCasts_S1_S1x1) broadcasts_S1x1_S512x1024 (ix2 r c) = v (ix1 0) := by
  refine (broadcastTo_apply _ broadcasts_S1x1_S512x1024 (ix2 r c) (ix2 0 0) (fun a => match a with
    | ⟨0, _⟩ => by show 0 = if (1 : Nat) = 1 then 0 else r.val; rw [if_pos rfl]
    | ⟨1, _⟩ => by show 0 = if (1 : Nat) = 1 then 0 else c.val; rw [if_pos rfl])).trans ?_
  exact shapeCast_apply v shapeCasts_S1_S1x1 (ix2 0 0) (ix1 0) (by
    rw [Shape.rowMajor_val_one, Shape.rowMajor_val_two]; rfl)

/-! ## The blend -/

/-- The stored block of the last cache step: the gated blend of the two operands, scaled by the one-entry vector. -/
theorem pay5_apply (v25 : Vec Ideal S512x1 .f32) (v28 v32 : Vec Ideal S512x1024 .f32) (v36 : Vec Ideal S1 .f32)
    (r : Fin 512) (c : Fin 1024) :
    k0_pay5 v25 v28 v32 v36 (ix2 r c)
      = ((Cert.Spec.one - v25 (ix2 r 0)) * v28 (ix2 r c) + v25 (ix2 r 0) * v32 (ix2 r c)) * v36 (ix1 0) := by
  unfold k0_pay5
  simp only [mulf_apply, addf_apply, shapeCast_self, bcastCol_apply, bcastOne_apply, subf_apply, broadcast_apply]
  rfl

/-! ## Pointwise functions at an index (definitional) -/

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem logistic_apply {s : Shape} {φ : FTy} (a : FVec Ideal s φ) (i : s.Idx) : logistic a i = Ideal.logistic (a i) := rfl
theorem absf_apply {s : Shape} {φ : FTy} (a : FVec Ideal s φ) (i : s.Idx) : absf a i = max (a i) (-(a i)) := rfl

/-! ## The shape casts to the same shape, and the zero block -/

theorem pay1_eq (v : Vec Ideal S512x1024 .bf16) : k0_pay1 v = v := by
  unfold k0_pay1; exact shapeCast_self _ _
theorem pay2_eq (v : FVec Ideal S512x1 .f32) : k0_pay2 v = v := by
  unfold k0_pay2; exact shapeCast_self _ _
theorem pay3_eq (v : FVec Ideal S512x1 .f32) : k0_pay3 v = v := by
  unfold k0_pay3; exact shapeCast_self _ _
/-- The block the first cache step starts from is zero everywhere. -/
theorem pay6_eq : (k0_pay6 (F := Ideal)) = fun _ => 0 := by
  unfold k0_pay6
  simp only [shapeCast_self]
  funext i
  exact Ideal.ofBits_zero_f32

/-! ## The square product `[512, 1024] × [1024, 1024]` at an index -/

theorem sq_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem sq_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into the zero block, the product at `(r, c)` is the sum over the shared axis. -/
theorem matmulSq_apply (l : FVec Ideal S512x1024 .bf16) (w : FVec Ideal S1024x1024 .bf16) (r : Fin 512) (c : Fin 1024) :
    matmul dot_S512x1024_S1024x1024_S512x1024_1_0_0_1_n_n none l w (constant (F := Ideal) S512x1024 .f32 0x00000000#32) (ix2 r c)
      = ∑ k : Fin 1024, l (ix2 r k) * w (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact sq_lhs0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (dot_S512x1024_S1024x1024_S512x1024_1_0_0_1_n_n.rhsIdx_val_of_single rfl _ _).trans hk
    | ⟨1, _⟩ => exact sq_rhs1 _ _)
  rw [el, er]

/-- The transposed square block at `(k, c)` is the block at `(c, k)` (stated for any permutation equal to
    the swap of the two axes). -/
theorem transposeSq_apply (p : List (Fin S1024x1024.rank)) (h : S1024x1024.Transposes p S1024x1024) (hp : p = [1, 0])
    (x : FVec Ideal S1024x1024 .bf16) (k c : Fin 1024) :
    transpose S1024x1024 p x h (ix2 k c) = x (ix2 c k) := by
  subst hp
  exact transpose_apply [1, 0] x h (ix2 k c) (ix2 c k) (fun b => match b with
    | ⟨0, _⟩ => rfl
    | ⟨1, _⟩ => rfl)

/-! ## The accumulation step -/

/-- One cache step: the running block plus the values weighted by the exponentiated, sharpened inner products. -/
theorem pay4_apply (x0 : Vec Ideal S512x1024 .bf16) (x2 x3 : Vec Ideal S1024x1024 .bf16) (v9 : Vec Ideal S512x1 .f32)
    (v15 : Vec Ideal S512x1024 .f32) (r : Fin 512) (c : Fin 1024) :
    k0_pay4 x0 x2 v9 x3 v15 (ix2 r c)
      = v15 (ix2 r c) + ∑ k : Fin 1024, Ideal.exp (v9 (ix2 r 0) * ∑ d : Fin 1024, x0 (ix2 r d) * x2 (ix2 k d)) * x3 (ix2 k c) := by
  unfold k0_pay4
  simp only [shapeCast_self, pay1_eq, addf_apply, matmulSq_apply, truncf_apply, exp_apply, mulf_apply, bcastCol_apply,
    transposeSq_apply]

/-! ## The hidden layer's product `[512, 1024] × [1024, 256]` and the gate's product `[512, 256] × [256, 2]` at an index -/

theorem hid_lhs0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem hid_rhs1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Into the zero block, the hidden layer's product at `(r, j)` is the sum over the 1024 features. -/
theorem matmulHid_apply (l : FVec Ideal S512x1024 .bf16) (w : FVec Ideal S1024x256 .bf16) (r : Fin 512) (j : Fin 256) :
    matmul dot_S512x1024_S1024x256_S512x256_1_0_0_1_n_n none l w (constant (F := Ideal) S512x256 .f32 0x00000000#32) (ix2 r j)
      = ∑ d : Fin 1024, l (ix2 r d) * w (ix2 d j) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r j) ((contrEquiv1 dot_S512x1024_S1024x256_S512x256_1_0_0_1_n_n 1024 rfl rfl).symm k) = ix2 r k := funext fun a => Fin.ext (by
    match a with
    | ⟨0, _⟩ => exact hid_lhs0 _ _
    | ⟨1, _⟩ => exact (dot_S512x1024_S1024x256_S512x256_1_0_0_1_n_n.lhsIdx_val_of_single rfl _ _).trans hk)
  have er : dot_S512x1024_S1024x256_S512x256_1_0_0_1_n_n.rhsIdx (ix2 r j) ((contrEquiv1 dot_S512x1024_S1024x256_S512x256_1_0_0_1_n_n 1024 rfl rfl).symm k) = ix2 k j := funext fun a => Fin.ext (by
    match a with
    | ⟨0, _⟩ => exact (dot_S512x1024_S1024x256_S512x256_1_0_0_1_n_n.rhsIdx_val_of_single rfl _ _).trans hk
    | ⟨1, _⟩ => exact hid_rhs1 _ _)
  rw [el, er]

theorem gate_lhs0 (i : S512x2.Idx) (q : dot_S512x256_S256x2_S512x2_1_0_0_1_n_n.contr.Idx) :
    (dot_S512x256_S256x2_S512x2_1_0_0_1_n_n.lhsIdx i q 0).val = (i 0).val := by
  unfold DotDims.lhsIdx
  rw [dif_neg (show ¬(0 : Fin S512x256.rank) ∈ dot_S512x256_S256x2_S512x2_1_0_0_1_n_n.lhsBatch by decide), dif_pos (show (0 : Fin S512x256.rank) ∈ dot_S512x256_S256x2_S512x2_1_0_0_1_n_n.lhsNonContracting by decide)]
  rfl
theorem gate_rhs1 (i : S512x2.Idx) (q : dot_S512x256_S256x2_S512x2_1_0_0_1_n_n.contr.Idx) :
    (dot_S512x256_S256x2_S512x2_1_0_0_1_n_n.rhsIdx i q 1).val = (i 1).val := by
  unfold DotDims.rhsIdx
  rw [dif_neg (show ¬(1 : Fin S256x2.rank) ∈ dot_S512x256_S256x2_S512x2_1_0_0_1_n_n.rhsBatch by decide), dif_pos (show (1 : Fin S256x2.rank) ∈ dot_S512x256_S256x2_S512x2_1_0_0_1_n_n.rhsNonContracting by decide)]
  rfl

/-- Into the zero block, the gate's product at `(r, e)` is the sum over the 256 hidden units. -/
theorem matmulGate_apply (l : FVec Ideal S512x256 .bf16) (w : FVec Ideal S256x2 .bf16) (r : Fin 512) (e : Fin 2) :
    matmul dot_S512x256_S256x2_S512x2_1_0_0_1_n_n none l w (constant (F := Ideal) S512x2 .f32 0x00000000#32) (ix2 r e)
      = ∑ j : Fin 256, l (ix2 r j) * w (ix2 j e) := by
  simp only [matmul]
  rw [Ideal.matmul_constant_zero_apply, ← Equiv.sum_comp (contrEquiv1 dot_S512x256_S256x2_S512x2_1_0_0_1_n_n 256 rfl rfl).symm]
  refine Finset.sum_congr rfl fun k _ => ?_
  have hk := contrEquiv1_symm_val dot_S512x256_S256x2_S512x2_1_0_0_1_n_n 256 rfl rfl k
  have el : dot_S512x256_S256x2_S512x2_1_0_0_1_n_n.lhsIdx (ix2 r e) ((contrEquiv1 dot_S512x256_S256x2_S512x2_1_0_0_1_n_n 256 rfl rfl).symm k) = ix2 r k := funext fun a => Fin.ext (by
    match a with
    | ⟨0, _⟩ => exact gate_lhs0 _ _
    | ⟨1, _⟩ => exact (dot_S512x256_S256x2_S512x2_1_0_0_1_n_n.lhsIdx_val_of_single rfl _ _).trans hk)
  have er : dot_S512x256_S256x2_S512x2_1_0_0_1_n_n.rhsIdx (ix2 r e) ((contrEquiv1 dot_S512x256_S256x2_S512x2_1_0_0_1_n_n 256 rfl rfl).symm k) = ix2 k e := funext fun a => Fin.ext (by
    match a with
    | ⟨0, _⟩ => exact (dot_S512x256_S256x2_S512x2_1_0_0_1_n_n.rhsIdx_val_of_single rfl _ _).trans hk
    | ⟨1, _⟩ => exact gate_rhs1 _ _)
  rw [el, er]

/-! ## The gate's layout steps at explicit coordinates -/

/-- The transposed first weight block at `(d, j)` is the block at `(j, d)` (for any permutation equal to the swap). -/
theorem transposeW1_apply (p : List (Fin S256x1024.rank)) (h : S256x1024.Transposes p S1024x256) (hp : p = [1, 0])
    (x : FVec Ideal S256x1024 .bf16) (d : Fin 1024) (j : Fin 256) :
    transpose S1024x256 p x h (ix2 d j) = x (ix2 j d) := by
  subst hp
  exact transpose_apply [1, 0] x h (ix2 d j) (ix2 j d) (fun b => match b with
    | ⟨0, _⟩ => rfl
    | ⟨1, _⟩ => rfl)

/-- The transposed second weight block at `(j, e)` is the block at `(e, j)`. -/
theorem transposeW2_apply (p : List (Fin S2x256.rank)) (h : S2x256.Transposes p S256x2) (hp : p = [1, 0])
    (x : FVec Ideal S2x256 .bf16) (j : Fin 256) (e : Fin 2) :
    transpose S256x2 p x h (ix2 j e) = x (ix2 e j) := by
  subst hp
  exact transpose_apply [1, 0] x h (ix2 j e) (ix2 e j) (fun b => match b with
    | ⟨0, _⟩ => rfl
    | ⟨1, _⟩ => rfl)

/-- The first bias viewed `[1, 256]` and spread over the rows reads, at `(r, j)`, its entry `j`. -/
theorem bcastB1_apply (v : FVec Ideal S256 .f32) (r : Fin 512) (j : Fin 256) :
    broadcastTo S512x256 (shapeCast S1x256 v shapeCasts_S256_S1x256) broadcasts_S1x256_S512x256 (ix2 r j) = v (ix1 j) := by
  refine (broadcastTo_apply _ broadcasts_S1x256_S512x256 (ix2 r j) (ix2 0 j) (fun a => match a with
    | ⟨0, _⟩ => by show 0 = if (1 : Nat) = 1 then 0 else r.val; rw [if_pos rfl]
    | ⟨1, _⟩ => by show j.val = if (256 : Nat) = 1 then 0 else j.val; rw [if_neg (by decide)])).trans ?_
  exact shapeCast_apply v shapeCasts_S256_S1x256 (ix2 0 j) (ix1 j) (by
    rw [Shape.rowMajor_val_one, Shape.rowMajor_val_two]
    show j.val = 0 * 256 + j.val
    omega)

/-- The second bias viewed `[1, 2]` and spread over the rows reads, at `(r, e)`, its entry `e`. -/
theorem bcastB2_apply (v : FVec Ideal S2 .f32) (r : Fin 512) (e : Fin 2) :
    broadcastTo S512x2 (shapeCast S1x2 v shapeCasts_S2_S1x2) broadcasts_S1x2_S512x2 (ix2 r e) = v (ix1 e) := by
  refine (broadcastTo_apply _ broadcasts_S1x2_S512x2 (ix2 r e) (ix2 0 e) (fun a => match a with
    | ⟨0, _⟩ => by show 0 = if (1 : Nat) = 1 then 0 else r.val; rw [if_pos rfl]
    | ⟨1, _⟩ => by show e.val = if (2 : Nat) = 1 then 0 else e.val; rw [if_neg (by decide)])).trans ?_
  exact shapeCast_apply v shapeCasts_S2_S1x2 (ix2 0 e) (ix1 e) (by
    rw [Shape.rowMajor_val_one, Shape.rowMajor_val_two]
    show e.val = 0 * 2 + e.val
    omega)

/-- The f32 zero word, as the scalar a body broadcasts, is the extended real `0`. -/
theorem scalar_zero : (Scalar.ofBits (F := Ideal) .f32 0x00000000#32 : EReal) = 0 := Ideal.ofBits_zero_f32

/-! ## The gate -/

/-- The two gate values of row `r`: the rectified affine hidden layer, then the affine output layer. -/
theorem pay7_apply (x0 : Vec Ideal S512x1024 .bf16) (x4 : Vec Ideal S256x1024 .bf16) (x5 : Vec Ideal S256 .f32)
    (x6 : Vec Ideal S2x256 .bf16) (x7 : Vec Ideal S2 .f32) (r : Fin 512) (e : Fin 2) :
    k0_pay7 (k0_pay1 x0) x4 x5 x6 x7 (ix2 r e)
      = (∑ j : Fin 256, max ((∑ d : Fin 1024, x0 (ix2 r d) * x4 (ix2 j d)) + x5 (ix1 j)) 0 * x6 (ix2 e j)) + x7 (ix1 e) := by
  unfold k0_pay7
  simp only [shapeCast_self, pay1_eq, addf_apply, matmulGate_apply, truncf_apply, maximumf_apply, matmulHid_apply,
    transposeW1_apply, transposeW2_apply, bcastB1_apply, bcastB2_apply, broadcast_apply, scalar_zero]

/-- The first column of the gate block at `(r, 0)` is the gate at `(r, 0)`. -/
theorem slice0_apply (g : FVec Ideal S512x2 .f32) (r : Fin 512) :
    extractStridedSlice S512x1 ![0, 0] g slices_S512x2_o0_0_S512x1 (ix2 r 0) = g (ix2 r 0) :=
  extractStridedSlice_apply ![0, 0] g slices_S512x2_o0_0_S512x1 (ix2 r 0) (ix2 r 0) (fun a => match a with
    | ⟨0, _⟩ => by show r.val = 0 + r.val; omega
    | ⟨1, _⟩ => by show 0 = 0 + 0; rfl)

/-- The second column of the gate block at `(r, 0)` is the gate at `(r, 1)`. -/
theorem slice1_apply (g : FVec Ideal S512x2 .f32) (r : Fin 512) :
    extractStridedSlice S512x1 ![0, 1] g slices_S512x2_o0_1_S512x1 (ix2 r 0) = g (ix2 r 1) :=
  extractStridedSlice_apply ![0, 1] g slices_S512x2_o0_1_S512x1 (ix2 r 0) (ix2 r 1) (fun a => match a with
    | ⟨0, _⟩ => by show r.val = 0 + r.val; omega
    | ⟨1, _⟩ => by show 1 = 1 + 0; rfl)

/-- The mixing weight of row `r`: the logistic function of the first gate value. -/
theorem pay8_apply (x0 : Vec Ideal S512x1024 .bf16) (x4 : Vec Ideal S256x1024 .bf16) (x5 : Vec Ideal S256 .f32)
    (x6 : Vec Ideal S2x256 .bf16) (x7 : Vec Ideal S2 .f32) (r : Fin 512) :
    k0_pay8 (k0_pay1 x0) x4 x5 x6 x7 (ix2 r 0)
      = Ideal.logistic ((∑ j : Fin 256, max ((∑ d : Fin 1024, x0 (ix2 r d) * x4 (ix2 j d)) + x5 (ix1 j)) 0 * x6 (ix2 0 j)) + x7 (ix1 0)) := by
  unfold k0_pay8
  simp only [logistic_apply]
  rw [slice0_apply, pay7_apply]

/-- A value is never different from itself. -/
theorem cmp_one_self (x : EReal) : Ideal.cmp .one x x = 0#1 := by
  simp [Ideal.cmp]

/-- The sharpness of row `r`: softplus of the second gate value, plus the literal 0.001. -/
theorem pay9_apply (x0 : Vec Ideal S512x1024 .bf16) (x4 : Vec Ideal S256x1024 .bf16) (x5 : Vec Ideal S256 .f32)
    (x6 : Vec Ideal S2x256 .bf16) (x7 : Vec Ideal S2 .f32) (r : Fin 512) :
    k0_pay9 (k0_pay1 x0) x4 x5 x6 x7 (ix2 r 0)
      = Cert.Spec.softplus ((∑ j : Fin 256, max ((∑ d : Fin 1024, x0 (ix2 r d) * x4 (ix2 j d)) + x5 (ix1 j)) 0 * x6 (ix2 1 j)) + x7 (ix1 1))
          + Cert.Spec.milli := by
  unfold k0_pay9
  simp only [addf_apply, select_apply, cmpf_apply, Ideal.cmpf_def, cmp_one_self, select_zero, maximumf_apply, log1p_apply,
    exp_apply, subf_apply, absf_apply, broadcast_apply, scalar_zero, slice1_apply, sub_zero, zero_sub]
  rw [pay7_apply]
  rfl

end Cert.PayValue

end
-- ==== Proof.Blocks.lean ====
/-
  The input windows' blocks as pieces of their arrays.

  The grid is 8 × 16: point `t` works on row-block `t / 16` (512 rows of the 4096-row arrays) against
  key-block `t % 16` (1024 rows of the 16384-row arrays). Windows 0 and 1 hold the row-block's rows, windows 2
  and 3 the key-block's rows, every column; windows 4 to 8 hold their whole (small) arrays at every point. A block's
  coordinate along an axis is always (block index) × (block extent) + (coordinate inside the block).
-/
import proofs.«160482_j31069793419865_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx

namespace Cert.Blocks

open Cert.KernelIdeal Cert.KernelIdeal.Gen

variable {F : FTy → Type} [FloatOps F]
variable (m : (ℓ : Loc nD τ sig) → Buf (Elt F) ℓ)

/-- The block index of each input window at grid point `t`: the grid is 8 × 16, point `t` has row-block
    `t / 16` and key-block `t % 16`; windows 0 and 1 follow the row-block, windows 2 and 3 the key-block, and
    windows 4 to 8 stay at block 0. -/
theorem idx_facts : ∀ t : Fin cfg0.N,
    win0_0.index t (0 : Fin 2) = t.val / 16 ∧ win0_0.index t (1 : Fin 2) = 0
  ∧ win0_1.index t (0 : Fin 2) = t.val / 16 ∧ win0_1.index t (1 : Fin 2) = 0
  ∧ win0_2.index t (0 : Fin 2) = t.val % 16 ∧ win0_2.index t (1 : Fin 2) = 0
  ∧ win0_3.index t (0 : Fin 2) = t.val % 16 ∧ win0_3.index t (1 : Fin 2) = 0
  ∧ win0_4.index t (0 : Fin 2) = 0 ∧ win0_4.index t (1 : Fin 2) = 0
  ∧ win0_5.index t (0 : Fin 1) = 0
  ∧ win0_6.index t (0 : Fin 2) = 0 ∧ win0_6.index t (1 : Fin 2) = 0
  ∧ win0_7.index t (0 : Fin 1) = 0
  ∧ win0_8.index t (0 : Fin 1) = 0 :=
  (by decide +kernel : ∀ t : Fin grid0.N, _)

/-! ## Windows 0 to 3: a block is a band of rows of its array -/

/-- Window 0's block at point `t` is rows `512 (t / 16) … 512 (t / 16) + 511` of its array. -/
theorem iblk0_apply (c : Dev nD) (t : Fin cfg0.N) (x : S512x1024.Idx) (k : S4096x1024.Idx)
    (hk0 : (k 0).val = 512 * (t.val / 16) + (x 0).val) (hk1 : (k 1).val = (x 1).val) :
    (iblk m c 0 t : Vec F S512x1024 .bf16) x = (V m c main_v4 : S4096x1024.Idx → Elt F .bf16) k := by
  obtain ⟨e0, e1, -⟩ := idx_facts t
  unfold iblk
  rw [View.read_apply]
  show V m c main_v4 _ = V m c main_v4 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- Window 1's block at point `t` is rows `512 (t / 16) … 512 (t / 16) + 511` of its array. -/
theorem iblk1_apply (c : Dev nD) (t : Fin cfg0.N) (x : S512x1024.Idx) (k : S4096x1024.Idx)
    (hk0 : (k 0).val = 512 * (t.val / 16) + (x 0).val) (hk1 : (k 1).val = (x 1).val) :
    (iblk m c 1 t : Vec F S512x1024 .f32) x = (V m c main_v2 : S4096x1024.Idx → Elt F .f32) k := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t 0 * 512 + 1 * (x 0).val = (k 0).val; rw [e0, hk0]; omega
  | ⟨1, _⟩ => show win0_1.index t 1 * 1024 + 1 * (x 1).val = (k 1).val; rw [e1, hk1]; omega

/-- Window 2's block at point `t` is rows `1024 (t % 16) … 1024 (t % 16) + 1023` of its array. -/
theorem iblk2_apply (c : Dev nD) (t : Fin cfg0.N) (x : S1024x1024.Idx) (k : S16384x1024.Idx)
    (hk0 : (k 0).val = 1024 * (t.val % 16) + (x 0).val) (hk1 : (k 1).val = (x 1).val) :
    (iblk m c 2 t : Vec F S1024x1024 .bf16) x = (V m c main_v5 : S16384x1024.Idx → Elt F .bf16) k := by
  obtain ⟨-, -, -, -, e0, e1, -⟩ := idx_facts t
  unfold iblk
  rw [View.read_apply]
  show V m c main_v5 _ = V m c main_v5 _
  congr 1
  funext a
  apply Fin.ext
  match a with
  | ⟨0, _⟩ => show win0_2.index t 0 * 1024 + 1 * (x 0).val = (k 0).val; rw [e0, hk0]; omega
  | ⟨1, _⟩ => show win0_2.index t 1 * 1024 + 1 * (x 1).val = (k 1).val; rw [e1, hk1]; omega

/-- Window 3's block at point `t` is rows `1024 (t % 16) … 1024 (t % 16) + 1023` of its array. -/
theorem iblk3_apply (c : Dev nD) (t : Fin cfg0.N) (x : S1024x1024.Idx) (k : S16384x1024.Idx)
    (hk0 : (k 0).val = 1024 * (t.val % 16) + (x 0).val) (hk1 : (k 1).val = (x 1).val) :
    (iblk m c 3 t : Vec F S1024x1024 .bf16) x = (V m c main_v6 : S16384x1024.Idx → Elt F .bf16) k := by
  obtain ⟨-, -, -, -, -, -, e0, e1, -⟩ := idx_facts t
  unfold iblk
  rw [View.read_apply]
  show V m c main_v6 _ = V m c main_v6 _
  congr 1
  funext a
  apply Fin.ext
  match a with
  | ⟨0, _⟩ => show win0_3.index t 0 * 1024 + 1 * (x 0).val = (k 0).val; rw [e0, hk0]; omega
  | ⟨1, _⟩ => show win0_3.index t 1 * 1024 + 1 * (x 1).val = (k 1).val; rw [e1, hk1]; omega

/-- A row of the row-block `t / 16` is a row of the 4096-row arrays. -/
theorem row_lt (t : Fin cfg0.N) (r : Fin 512) : 512 * (t.val / 16) + r.val < 4096 := by
  have ht : t.val < 128 := lt_of_lt_of_eq t.isLt (show cfg0.N = 128 from N_0)
  have hr := r.isLt
  omega

/-- A row of the key-block `t % 16` is a row of the 16384-row arrays. -/
theorem key_lt (t : Fin cfg0.N) (r : Fin 1024) : 1024 * (t.val % 16) + r.val < 16384 := by
  have hr := r.isLt
  omega

/-- Window 0's block in coordinates. -/
theorem iblk0_ix (c : Dev nD) (t : Fin cfg0.N) (r : Fin 512) (d : Fin 1024) :
    (iblk m c 0 t : Vec F S512x1024 .bf16) (ix2 r d)
      = (V m c main_v4 : S4096x1024.Idx → Elt F .bf16) (ix2 ⟨512 * (t.val / 16) + r.val, row_lt t r⟩ d) :=
  iblk0_apply m c t _ _ rfl rfl

/-- Window 1's block in coordinates. -/
theorem iblk1_ix (c : Dev nD) (t : Fin cfg0.N) (r : Fin 512) (d : Fin 1024) :
    (iblk m c 1 t : Vec F S512x1024 .f32) (ix2 r d)
      = (V m c main_v2 : S4096x1024.Idx → Elt F .f32) (ix2 ⟨512 * (t.val / 16) + r.val, row_lt t r⟩ d) :=
  iblk1_apply m c t _ _ rfl rfl

/-- Window 2's block in coordinates. -/
theorem iblk2_ix (c : Dev nD) (t : Fin cfg0.N) (r : Fin 1024) (d : Fin 1024) :
    (iblk m c 2 t : Vec F S1024x1024 .bf16) (ix2 r d)
      = (V m c main_v5 : S16384x1024.Idx → Elt F .bf16) (ix2 ⟨1024 * (t.val % 16) + r.val, key_lt t r⟩ d) :=
  iblk2_apply m c t _ _ rfl rfl

/-- Window 3's block in coordinates. -/
theorem iblk3_ix (c : Dev nD) (t : Fin cfg0.N) (r : Fin 1024) (d : Fin 1024) :
    (iblk m c 3 t : Vec F S1024x1024 .bf16) (ix2 r d)
      = (V m c main_v6 : S16384x1024.Idx → Elt F .bf16) (ix2 ⟨1024 * (t.val % 16) + r.val, key_lt t r⟩ d) :=
  iblk3_apply m c t _ _ rfl rfl

/-! ## Windows 4 to 8: the block is the whole array at every point -/

/-- Window 4's block at every point is its whole array. -/
theorem iblk4_eq (c : Dev nD) (t : Fin cfg0.N) :
    (iblk m c 4 t : Vec F S256x1024 .bf16) = (V m c main_v7 : S256x1024.Idx → Elt F .bf16) := by
  obtain ⟨-, -, -, -, -, -, -, -, e0, e1, -⟩ := idx_facts t
  funext x
  unfold iblk
  rw [View.read_apply]
  show V m c main_v7 _ = V m c main_v7 _
  congr 1
  funext a
  apply Fin.ext
  match a with
  | ⟨0, _⟩ => show win0_4.index t 0 * 256 + 1 * (x 0).val = (x 0).val; rw [e0]; omega
  | ⟨1, _⟩ => show win0_4.index t 1 * 1024 + 1 * (x 1).val = (x 1).val; rw [e1]; omega

/-- Window 5's block at every point is its whole array. -/
theorem iblk5_eq (c : Dev nD) (t : Fin cfg0.N) :
    (iblk m c 5 t : Vec F S256 .f32) = (V m c main_arg5 : S256.Idx → Elt F .f32) := by
  obtain ⟨-, -, -, -, -, -, -, -, -, -, e0, -⟩ := idx_facts t
  funext x
  unfold iblk
  rw [View.read_apply]
  show V m c main_arg5 _ = V m c main_arg5 _
  congr 1
  funext a
  apply Fin.ext
  match a with
  | ⟨0, _⟩ => show win0_5.index t 0 * 256 + 1 * (x 0).val = (x 0).val; rw [e0]; omega

/-- Window 6's block at every point is its whole array. -/
theorem iblk6_eq (c : Dev nD) (t : Fin cfg0.N) :
    (iblk m c 6 t : Vec F S2x256 .bf16) = (V m c main_v8 : S2x256.Idx → Elt F .bf16) := by
  obtain ⟨-, -, -, -, -, -, -, -, -, -, -, e0, e1, -⟩ := idx_facts t
  funext x
  unfold iblk
  rw [View.read_apply]
  show V m c main_v8 _ = V m c main_v8 _
  congr 1
  funext a
  apply Fin.ext
  match a with
  | ⟨0, _⟩ => show win0_6.index t 0 * 2 + 1 * (x 0).val = (x 0).val; rw [e0]; omega
  | ⟨1, _⟩ => show win0_6.index t 1 * 256 + 1 * (x 1).val = (x 1).val; rw [e1]; omega

/-- Window 7's block at every point is its whole array. -/
theorem iblk7_eq (c : Dev nD) (t : Fin cfg0.N) :
    (iblk m c 7 t : Vec F S2 .f32) = (V m c main_arg7 : S2.Idx → Elt F .f32) := by
  obtain ⟨-, -, -, -, -, -, -, -, -, -, -, -, -, e0, -⟩ := idx_facts t
  funext x
  unfold iblk
  rw [View.read_apply]
  show V m c main_arg7 _ = V m c main_arg7 _
  congr 1
  funext a
  apply Fin.ext
  match a with
  | ⟨0, _⟩ => show win0_7.index t 0 * 2 + 1 * (x 0).val = (x 0).val; rw [e0]; omega

/-- Window 8's block at every point is its whole array. -/
theorem iblk8_eq (c : Dev nD) (t : Fin cfg0.N) :
    (iblk m c 8 t : Vec F S1 .f32) = (V m c main_arg8 : S1.Idx → Elt F .f32) := by
  obtain ⟨-, -, -, -, -, -, -, -, -, -, -, -, -, -, e0⟩ := idx_facts t
  funext x
  unfold iblk
  rw [View.read_apply]
  show V m c main_arg8 _ = V m c main_arg8 _
  congr 1
  funext a
  apply Fin.ext
  match a with
  | ⟨0, _⟩ => show win0_8.index t 0 * 1 + 1 * (x 0).val = (x 0).val; rw [e0]; omega

end Cert.Blocks

end
-- ==== Proof.BlocksHost.lean ====
/-
  The arrays the region finds, as functions of the argument arrays.

  Before the region the host converts `q`, `w1`, `w2` to a narrower float format (the identity on the extended
  reals), pads `z` with 24 zero columns, the keys with 384 zero rows and the values with 384 zero rows and then 24
  zero columns (to whole blocks of 1024), and converts the padded keys and values. The padding value is the integer
  0 converted to a float: the float zero.
-/
import proofs.«160482_j31069793419865_2_alg».proof.Proof.Blocks
import Idealize.ShloMosaic.Lib.ValueIdx
import Idealize.ShloMosaic.Lib.Pipeline.Value
import Idealize.ShloMosaic.Lib.Tactic
import Idealize.ShloMosaic.Lib.KernelVsHost
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.ValueIdx

namespace Cert.Blocks

open Cert.KernelIdeal Cert.KernelIdeal.Gen

variable (m : (ℓ : Loc nD τ sig) → Buf (Elt Ideal) ℓ)

/-- The padding value of the four host pads: the integer constant 0 converted to a float, as a rank-0 array. -/
abbrev padv : S_.Idx → EReal := sitofp (F := Ideal) .f32 (constantI S_ 32 0#32)

/-- It is the float zero. -/
theorem padv_apply (i : S_.Idx) : padv i = 0 := sitofp_zero (φ := .f32)

/-! ## The arrays the region finds, as the host operations before it leave them -/

/-- Window 0's array is the first argument (a change of float format is the identity on the extended reals). -/
theorem V_main_v4 (c : Dev nD) :
    (V m c main_v4 : S4096x1024.Idx → EReal) = (m ((c : Thread nD τ).loc main_arg0) : S4096x1024.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- Window 4's array is the fifth argument. -/
theorem V_main_v7 (c : Dev nD) :
    (V m c main_v7 : S256x1024.Idx → EReal) = (m ((c : Thread nD τ).loc main_arg4) : S256x1024.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- Window 6's array is the seventh argument. -/
theorem V_main_v8 (c : Dev nD) :
    (V m c main_v8 : S2x256.Idx → EReal) = (m ((c : Thread nD τ).loc main_arg6) : S2x256.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- Window 1's array is the second argument padded with 24 columns. -/
theorem V_main_v2_eq (c : Dev nD) :
    (V m c main_v2 : S4096x1024.Idx → EReal)
      = pad S4096x1024 ![0, 0] ![0, 24] ![0, 0] (m ((c : Thread nD τ).loc main_arg1) : S4096x1000.Idx → EReal) padv
          pads_S4096x1000_S4096x1024_000_0240 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- Window 2's array is the third argument padded with 384 rows. -/
theorem V_main_v5_eq (c : Dev nD) :
    (V m c main_v5 : S16384x1024.Idx → EReal)
      = pad S16384x1024 ![0, 0] ![384, 0] ![0, 0] (m ((c : Thread nD τ).loc main_arg2) : S16000x1024.Idx → EReal) padv
          pads_S16000x1024_S16384x1024_03840_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- Window 3's array is the fourth argument padded with 384 rows, then with 24 columns. -/
theorem V_main_v6_eq (c : Dev nD) :
    (V m c main_v6 : S16384x1024.Idx → EReal)
      = pad S16384x1024 ![0, 0] ![0, 24] ![0, 0]
          (pad S16384x1000 ![0, 0] ![384, 0] ![0, 0] (m ((c : Thread nD τ).loc main_arg3) : S16000x1000.Idx → EReal) padv
            pads_S16000x1000_S16384x1000_03840_000 h_S_) padv
          pads_S16384x1000_S16384x1024_000_0240 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-! ## The padded arrays read at an index -/

/-- Window 1's array inside the first 1000 columns is the second argument. -/
theorem V_main_v2_in (c : Dev nD) (p : Fin 4096) (j : Fin 1024) (hj : j.val < 1000) :
    (V m c main_v2 : S4096x1024.Idx → EReal) (ix2 p j)
      = (m ((c : Thread nD τ).loc main_arg1) : S4096x1000.Idx → EReal) (ix2 p ⟨j.val, hj⟩) := by
  rw [V_main_v2_eq]
  exact pad_apply_of_inside _ _ _ _ _ _ _ (ix2 p j) (ix2 p ⟨j.val, hj⟩) (fun a => match a with
    | ⟨0, _⟩ => by show p.val = 0 + p.val * (0 + 1); omega
    | ⟨1, _⟩ => by show j.val = 0 + j.val * (0 + 1); omega)

/-- Window 1's array is zero in its last 24 columns. -/
theorem V_main_v2_out (c : Dev nD) (p : Fin 4096) (j : Fin 1024) (hj : 1000 ≤ j.val) :
    (V m c main_v2 : S4096x1024.Idx → EReal) (ix2 p j) = (0 : EReal) := by
  rw [V_main_v2_eq]
  refine (pad_apply_of_not_inside _ _ _ _ _ _ _ (ix2 p j) (1 : Fin 2) ?_).trans (padv_apply _)
  show ¬(0 ≤ j.val ∧ (j.val - 0) % 1 = 0 ∧ (j.val - 0) / 1 < 1000)
  omega

/-- Window 1's array at an index. -/
theorem V_main_v2_ix (c : Dev nD) (p : Fin 4096) (j : Fin 1024) :
    (V m c main_v2 : S4096x1024.Idx → EReal) (ix2 p j)
      = if h : j.val < 1000 then (m ((c : Thread nD τ).loc main_arg1) : S4096x1000.Idx → EReal) (ix2 p ⟨j.val, h⟩) else (0 : EReal) := by
  split_ifs with h
  · exact V_main_v2_in m c p j h
  · exact V_main_v2_out m c p j (by omega)

/-- Window 2's array inside the first 16000 rows is the third argument. -/
theorem V_main_v5_in (c : Dev nD) (p : Fin 16384) (d : Fin 1024) (hp : p.val < 16000) :
    (V m c main_v5 : S16384x1024.Idx → EReal) (ix2 p d)
      = (m ((c : Thread nD τ).loc main_arg2) : S16000x1024.Idx → EReal) (ix2 ⟨p.val, hp⟩ d) := by
  rw [V_main_v5_eq]
  exact pad_apply_of_inside _ _ _ _ _ _ _ (ix2 p d) (ix2 ⟨p.val, hp⟩ d) (fun a => match a with
    | ⟨0, _⟩ => by show p.val = 0 + p.val * (0 + 1); omega
    | ⟨1, _⟩ => by show d.val = 0 + d.val * (0 + 1); omega)

/-- Window 2's array is zero in its last 384 rows. -/
theorem V_main_v5_out (c : Dev nD) (p : Fin 16384) (d : Fin 1024) (hp : 16000 ≤ p.val) :
    (V m c main_v5 : S16384x1024.Idx → EReal) (ix2 p d) = (0 : EReal) := by
  rw [V_main_v5_eq]
  refine (pad_apply_of_not_inside _ _ _ _ _ _ _ (ix2 p d) (0 : Fin 2) ?_).trans (padv_apply _)
  show ¬(0 ≤ p.val ∧ (p.val - 0) % 1 = 0 ∧ (p.val - 0) / 1 < 16000)
  omega

/-- Window 2's array at an index. -/
theorem V_main_v5_ix (c : Dev nD) (p : Fin 16384) (d : Fin 1024) :
    (V m c main_v5 : S16384x1024.Idx → EReal) (ix2 p d)
      = if h : p.val < 16000 then (m ((c : Thread nD τ).loc main_arg2) : S16000x1024.Idx → EReal) (ix2 ⟨p.val, h⟩ d) else (0 : EReal) := by
  split_ifs with h
  · exact V_main_v5_in m c p d h
  · exact V_main_v5_out m c p d (by omega)

/-- Window 3's array inside the first 16000 rows and 1000 columns is the fourth argument. -/
theorem V_main_v6_in (c : Dev nD) (p : Fin 16384) (j : Fin 1024) (hp : p.val < 16000) (hj : j.val < 1000) :
    (V m c main_v6 : S16384x1024.Idx → EReal) (ix2 p j)
      = (m ((c : Thread nD τ).loc main_arg3) : S16000x1000.Idx → EReal) (ix2 ⟨p.val, hp⟩ ⟨j.val, hj⟩) := by
  rw [V_main_v6_eq]
  refine (pad_apply_of_inside _ _ _ _ _ _ _ (ix2 p j) (ix2 p ⟨j.val, hj⟩) (fun a => match a with
    | ⟨0, _⟩ => by show p.val = 0 + p.val * (0 + 1); omega
    | ⟨1, _⟩ => by show j.val = 0 + j.val * (0 + 1); omega)).trans ?_
  exact pad_apply_of_inside _ _ _ _ _ _ _ (ix2 p (⟨j.val, hj⟩ : Fin 1000)) (ix2 ⟨p.val, hp⟩ ⟨j.val, hj⟩) (fun a => match a with
    | ⟨0, _⟩ => by show p.val = 0 + p.val * (0 + 1); omega
    | ⟨1, _⟩ => by show j.val = 0 + j.val * (0 + 1); omega)

/-- Window 3's array is zero in its last 384 rows and in its last 24 columns. -/
theorem V_main_v6_out (c : Dev nD) (p : Fin 16384) (j : Fin 1024) (h : 16000 ≤ p.val ∨ 1000 ≤ j.val) :
    (V m c main_v6 : S16384x1024.Idx → EReal) (ix2 p j) = (0 : EReal) := by
  rw [V_main_v6_eq]
  by_cases hj : j.val < 1000
  · have hp : 16000 ≤ p.val := by omega
    refine (pad_apply_of_inside _ _ _ _ _ _ _ (ix2 p j) (ix2 p ⟨j.val, hj⟩) (fun a => match a with
    | ⟨0, _⟩ => by show p.val = 0 + p.val * (0 + 1); omega
    | ⟨1, _⟩ => by show j.val = 0 + j.val * (0 + 1); omega)).trans ?_
    refine (pad_apply_of_not_inside _ _ _ _ _ _ _ (ix2 p (⟨j.val, hj⟩ : Fin 1000)) (0 : Fin 2) ?_).trans (padv_apply _)
    show ¬(0 ≤ p.val ∧ (p.val - 0) % 1 = 0 ∧ (p.val - 0) / 1 < 16000)
    omega
  · refine (pad_apply_of_not_inside _ _ _ _ _ _ _ (ix2 p j) (1 : Fin 2) ?_).trans (padv_apply _)
    show ¬(0 ≤ j.val ∧ (j.val - 0) % 1 = 0 ∧ (j.val - 0) / 1 < 1000)
    omega

/-- Window 3's array at an index. -/
theorem V_main_v6_ix (c : Dev nD) (p : Fin 16384) (j : Fin 1024) :
    (V m c main_v6 : S16384x1024.Idx → EReal) (ix2 p j)
      = if h : p.val < 16000 ∧ j.val < 1000 then (m ((c : Thread nD τ).loc main_arg3) : S16000x1000.Idx → EReal) (ix2 ⟨p.val, h.1⟩ ⟨j.val, h.2⟩) else (0 : EReal) := by
  split_ifs with h
  · exact V_main_v6_in m c p j h.1 h.2
  · exact V_main_v6_out m c p j (by omega)

/-! ## The blocks as functions of the argument arrays -/

/-- Window 0's block at point `t`: rows `512 (t / 16) + r` of the first argument. -/
theorem iblk0_arg (c : Dev nD) (t : Fin cfg0.N) (r : Fin 512) (d : Fin 1024) :
    (iblk m c 0 t : Vec Ideal S512x1024 .bf16) (ix2 r d)
      = (m ((c : Thread nD τ).loc main_arg0) : S4096x1024.Idx → EReal) (ix2 ⟨512 * (t.val / 16) + r.val, row_lt t r⟩ d) :=
  (iblk0_ix m c t r d).trans (congrFun (V_main_v4 m c) _)

/-- Window 1's block at point `t`: rows `512 (t / 16) + r` of the second argument, zero past column 1000. -/
theorem iblk1_arg (c : Dev nD) (t : Fin cfg0.N) (r : Fin 512) (j : Fin 1024) :
    (iblk m c 1 t : Vec Ideal S512x1024 .f32) (ix2 r j)
      = if h : j.val < 1000 then (m ((c : Thread nD τ).loc main_arg1) : S4096x1000.Idx → EReal)
          (ix2 ⟨512 * (t.val / 16) + r.val, row_lt t r⟩ ⟨j.val, h⟩) else (0 : EReal) :=
  (iblk1_ix m c t r j).trans (V_main_v2_ix m c _ j)

/-- Window 2's block at point `t`: rows `1024 (t % 16) + r` of the third argument, zero past row 16000. -/
theorem iblk2_arg (c : Dev nD) (t : Fin cfg0.N) (r : Fin 1024) (d : Fin 1024) :
    (iblk m c 2 t : Vec Ideal S1024x1024 .bf16) (ix2 r d)
      = if h : 1024 * (t.val % 16) + r.val < 16000 then (m ((c : Thread nD τ).loc main_arg2) : S16000x1024.Idx → EReal)
          (ix2 ⟨1024 * (t.val % 16) + r.val, h⟩ d) else (0 : EReal) :=
  (iblk2_ix m c t r d).trans (V_main_v5_ix m c ⟨1024 * (t.val % 16) + r.val, key_lt t r⟩ d)

/-- Window 3's block at point `t`: rows `1024 (t % 16) + r` of the fourth argument, zero past row 16000 and past
    column 1000. -/
theorem iblk3_arg (c : Dev nD) (t : Fin cfg0.N) (r : Fin 1024) (j : Fin 1024) :
    (iblk m c 3 t : Vec Ideal S1024x1024 .bf16) (ix2 r j)
      = if h : 1024 * (t.val % 16) + r.val < 16000 ∧ j.val < 1000 then (m ((c : Thread nD τ).loc main_arg3) : S16000x1000.Idx → EReal)
          (ix2 ⟨1024 * (t.val % 16) + r.val, h.1⟩ ⟨j.val, h.2⟩) else (0 : EReal) :=
  (iblk3_ix m c t r j).trans (V_main_v6_ix m c ⟨1024 * (t.val % 16) + r.val, key_lt t r⟩ j)

/-- Window 4's block is the fifth argument. -/
theorem iblk4_arg (c : Dev nD) (t : Fin cfg0.N) :
    (iblk m c 4 t : S256x1024.Idx → EReal) = (m ((c : Thread nD τ).loc main_arg4) : S256x1024.Idx → EReal) :=
  (iblk4_eq m c t).trans (V_main_v7 m c)

/-- Window 5's block is the sixth argument. -/
theorem iblk5_arg (c : Dev nD) (t : Fin cfg0.N) :
    (iblk m c 5 t : S256.Idx → EReal) = (m ((c : Thread nD τ).loc main_arg5) : S256.Idx → EReal) :=
  (iblk5_eq m c t).trans (V_main_arg5 m c)

/-- Window 6's block is the seventh argument. -/
theorem iblk6_arg (c : Dev nD) (t : Fin cfg0.N) :
    (iblk m c 6 t : S2x256.Idx → EReal) = (m ((c : Thread nD τ).loc main_arg6) : S2x256.Idx → EReal) :=
  (iblk6_eq m c t).trans (V_main_v8 m c)

/-- Window 7's block is the eighth argument. -/
theorem iblk7_arg (c : Dev nD) (t : Fin cfg0.N) :
    (iblk m c 7 t : S2.Idx → EReal) = (m ((c : Thread nD τ).loc main_arg7) : S2.Idx → EReal) :=
  (iblk7_eq m c t).trans (V_main_arg7 m c)

/-- Window 8's block is the ninth argument. -/
theorem iblk8_arg (c : Dev nD) (t : Fin cfg0.N) :
    (iblk m c 8 t : S1.Idx → EReal) = (m ((c : Thread nD τ).loc main_arg8) : S1.Idx → EReal) :=
  (iblk8_eq m c t).trans (V_main_arg8 m c)

end Cert.Blocks

end
-- ==== Proof.LibTileSum.lean ====
/-
  A sum cut into tiles. `T` tiles of `K` consecutive positions cover the first `N` positions when `N ≤ T · K`; masking
  the positions at or beyond `N` to zero, the double sum over tiles and positions inside a tile is the plain sum over
  the first `N` positions: position `K · t + k` runs once through `0, …, T · K - 1`, and the masked terms add nothing.
  A running total that starts at `0 + s 0` and adds `s (t + 1)` at each step is, after step `t`, the sum of
  `s 0, …, s t`. Together: sixteen tiles of 1024 positions, accumulated one tile at a time, total the 16000 terms.
-/
import Idealize.ShloMosaic.Lib.ValueIdx

namespace Cert.LibTileSum

open Finset

variable {M : Type*} [AddCommMonoid M]

/-- The masked double sum over `T` tiles of `K` positions is the sum over the first `N` positions. -/
theorem tile_sum (T K N : ℕ) (h : N ≤ T * K) (f : ℕ → M) :
    ∑ t : Fin T, ∑ k : Fin K, (if K * t.val + k.val < N then f (K * t.val + k.val) else 0)
      = ∑ n : Fin N, f n.val := by
  have e1 : ∑ t : Fin T, ∑ k : Fin K, (if K * t.val + k.val < N then f (K * t.val + k.val) else 0)
      = ∑ p : Fin T × Fin K, (if K * p.1.val + p.2.val < N then f (K * p.1.val + p.2.val) else 0) :=
    (Fintype.sum_prod_type
      (fun p : Fin T × Fin K => if K * p.1.val + p.2.val < N then f (K * p.1.val + p.2.val) else 0)).symm
  have e2 : ∑ p : Fin T × Fin K, (if K * p.1.val + p.2.val < N then f (K * p.1.val + p.2.val) else 0)
      = ∑ n : Fin (T * K), (if n.val < N then f n.val else 0) := by
    rw [← Equiv.sum_comp finProdFinEquiv (fun n : Fin (T * K) => if n.val < N then f n.val else 0)]
    refine Finset.sum_congr rfl fun p _ => ?_
    have hv : (finProdFinEquiv p).val = K * p.1.val + p.2.val := by
      simp [finProdFinEquiv, Nat.add_comm]
    rw [hv]
  rw [e1, e2, Fin.sum_univ_eq_sum_range (fun n => if n < N then f n else 0) (T * K), ← Finset.sum_filter,
    Fin.sum_univ_eq_sum_range (fun n => f n) N]
  refine Finset.sum_congr ?_ fun _ _ => rfl
  ext n
  simp only [mem_filter, mem_range]
  omega

/-- A running total: from `0 + s 0`, adding `s (t + 1)` at step `t + 1`, the total after step `t` is `s 0 + … + s t`. -/
theorem run_eq_sum (T : ℕ) (s acc : ℕ → M) (h0 : acc 0 = 0 + s 0)
    (hs : ∀ t, t + 1 < T → acc (t + 1) = acc t + s (t + 1)) (t : ℕ) (ht : t < T) :
    acc t = ∑ i ∈ range (t + 1), s i := by
  induction t with
  | zero => rw [h0, zero_add, Finset.sum_range_one]
  | succ t ih => rw [hs t ht, ih (by omega), Finset.sum_range_succ s (t + 1)]

/-- The running total after the last of `T + 1` steps is the sum over all of them. -/
theorem run_last (T : ℕ) (s acc : ℕ → M) (h0 : acc 0 = 0 + s 0)
    (hs : ∀ t, t + 1 < T + 1 → acc (t + 1) = acc t + s (t + 1)) :
    acc T = ∑ t : Fin (T + 1), s t.val := by
  rw [run_eq_sum (T + 1) s acc h0 hs T (Nat.lt_succ_self T), Fin.sum_univ_eq_sum_range s (T + 1)]

/-- Sixteen tiles of 1024 positions, masked beyond 16000, sum to the 16000 terms. -/
theorem tile16 (f : ℕ → M) :
    ∑ t : Fin 16, ∑ k : Fin 1024, (if 1024 * t.val + k.val < 16000 then f (1024 * t.val + k.val) else 0)
      = ∑ n : Fin 16000, f n.val :=
  tile_sum 16 1024 16000 (by norm_num) f

/-- The same total reached by the sixteen-step running sum over the tiles. -/
theorem run16 (f : ℕ → M) (acc : ℕ → M)
    (h0 : acc 0 = 0 + ∑ k : Fin 1024, (if 1024 * 0 + k.val < 16000 then f (1024 * 0 + k.val) else 0))
    (hs : ∀ t, t + 1 < 16 → acc (t + 1)
      = acc t + ∑ k : Fin 1024, (if 1024 * (t + 1) + k.val < 16000 then f (1024 * (t + 1) + k.val) else 0)) :
    acc 15 = ∑ n : Fin 16000, f n.val := by
  rw [run_last 15 (fun t => ∑ k : Fin 1024, (if 1024 * t + k.val < 16000 then f (1024 * t + k.val) else 0)) acc h0 hs]
  exact tile16 f

end Cert.LibTileSum
-- ==== Proof.Accum.lean ====
/-
  The cache term reached tile by tile.

  The 16000 cache entries are visited in sixteen tiles of 1024 positions; the last tile runs past the end, and a
  position at or beyond 16000 reads the value `0`. Whatever its weight is, such a position contributes
  `weight · 0 = 0`, so the tile sums, added up one tile at a time from `0`, total exactly the 16000 terms
  `exp (β · ⟨q b, keys n⟩) · vals n c`. No finiteness is used: only `x · 0 = 0` on the extended reals and the
  regrouping of a finite sum.
-/
import proofs.«160482_j31069793419865_2_alg».proof.Proof.Spec
import proofs.«160482_j31069793419865_2_alg».proof.Proof.LibTileSum

noncomputable section

namespace Cert.Accum

open Idealize.ShloMosaic Idealize.ShloMosaic.ValueIdx

variable (q : FVec Ideal ⟨2, ![4096, 1024]⟩ .f32) (keys : FVec Ideal ⟨2, ![16000, 1024]⟩ .f32)
  (vals : FVec Ideal ⟨2, ![16000, 1000]⟩ .f32)

/-- The sum of tile `j`: over its 1024 positions `p = 1024 · j + k`, the weight `exp (β · ⟨q b, Kp p⟩)` times the
    value `Vp p`, where `Kp`, `Vp` read the keys and one column of the values by position, padded. -/
def tileSum (b : Fin 4096) (β : EReal) (Kp : ℕ → Fin 1024 → EReal) (Vp : ℕ → EReal) (j : ℕ) : EReal :=
  ∑ k : Fin 1024, Ideal.exp (β * ∑ d : Fin 1024, q (ix2 b d) * Kp (1024 * j + k.val) d) * Vp (1024 * j + k.val)

/-- The term of cache position `p`, and `0` beyond the 16000 entries. -/
def term (b : Fin 4096) (c : Fin 1000) (β : EReal) (p : ℕ) : EReal :=
  if h : p < 16000 then Ideal.exp (β * ∑ d : Fin 1024, q (ix2 b d) * keys (ix2 ⟨p, h⟩ d)) * vals (ix2 ⟨p, h⟩ c) else 0

/-- A tile's sum is the masked sum of the terms of its positions: inside the cache the padded reads are the
    entries; beyond it the value read is `0` and the product vanishes whatever the weight. -/
theorem tileSum_eq (b : Fin 4096) (c : Fin 1000) (β : EReal) (Kp : ℕ → Fin 1024 → EReal) (Vp : ℕ → EReal)
    (hK : ∀ p (h : p < 16000) d, Kp p d = keys (ix2 ⟨p, h⟩ d))
    (hV : ∀ p (h : p < 16000), Vp p = vals (ix2 ⟨p, h⟩ c))
    (hV0 : ∀ p, 16000 ≤ p → Vp p = 0) (j : ℕ) :
    tileSum q b β Kp Vp j
      = ∑ k : Fin 1024, (if 1024 * j + k.val < 16000 then term q keys vals b c β (1024 * j + k.val) else 0) := by
  unfold tileSum
  refine Finset.sum_congr rfl fun k _ => ?_
  by_cases h : 1024 * j + k.val < 16000
  · rw [if_pos h, term, dif_pos h, hV _ h]
    congr 3
    exact Finset.sum_congr rfl fun d _ => by rw [hK _ h d]
  · rw [if_neg h, hV0 _ (not_lt.mp h), mul_zero]

/-- THE RUNNING TOTAL: started at `0` plus the first tile's sum and increased by one tile's sum at each of the
    fifteen further steps, it ends at the sum over the 16000 cache entries. -/
theorem acc_last (b : Fin 4096) (c : Fin 1000) (β : EReal) (Kp : ℕ → Fin 1024 → EReal) (Vp : ℕ → EReal)
    (hK : ∀ p (h : p < 16000) d, Kp p d = keys (ix2 ⟨p, h⟩ d))
    (hV : ∀ p (h : p < 16000), Vp p = vals (ix2 ⟨p, h⟩ c))
    (hV0 : ∀ p, 16000 ≤ p → Vp p = 0)
    (acc : ℕ → EReal) (h0 : acc 0 = 0 + tileSum q b β Kp Vp 0)
    (hs : ∀ j, j + 1 < 16 → acc (j + 1) = acc j + tileSum q b β Kp Vp (j + 1)) :
    acc 15 = ∑ n : Fin 16000, Ideal.exp (β * ∑ d : Fin 1024, q (ix2 b d) * keys (ix2 n d)) * vals (ix2 n c) := by
  rw [Cert.LibTileSum.run_last 15 (tileSum q b β Kp Vp) acc h0 hs]
  have e : ∀ t : Fin 16, tileSum q b β Kp Vp t.val
      = ∑ k : Fin 1024, (if 1024 * t.val + k.val < 16000 then term q keys vals b c β (1024 * t.val + k.val) else 0) :=
    fun t => tileSum_eq q keys vals b c β Kp Vp hK hV hV0 t.val
  rw [Finset.sum_congr rfl fun t _ => e t, Cert.LibTileSum.tile16 (term q keys vals b c β)]
  refine Finset.sum_congr rfl fun n _ => ?_
  rw [term, dif_pos n.isLt]

/-- At the sharpness of row `b` the total is the cache term of the specification. -/
theorem acc_last_agg (w1 : FVec Ideal ⟨2, ![256, 1024]⟩ .f32) (b1 : FVec Ideal ⟨1, ![256]⟩ .f32)
    (w2 : FVec Ideal ⟨2, ![2, 256]⟩ .f32) (b2 : FVec Ideal ⟨1, ![2]⟩ .f32)
    (b : Fin 4096) (c : Fin 1000) (Kp : ℕ → Fin 1024 → EReal) (Vp : ℕ → EReal)
    (hK : ∀ p (h : p < 16000) d, Kp p d = keys (ix2 ⟨p, h⟩ d))
    (hV : ∀ p (h : p < 16000), Vp p = vals (ix2 ⟨p, h⟩ c))
    (hV0 : ∀ p, 16000 ≤ p → Vp p = 0)
    (acc : ℕ → EReal) (h0 : acc 0 = 0 + tileSum q b (Cert.Spec.beta q w1 b1 w2 b2 b) Kp Vp 0)
    (hs : ∀ j, j + 1 < 16 → acc (j + 1) = acc j + tileSum q b (Cert.Spec.beta q w1 b1 w2 b2 b) Kp Vp (j + 1)) :
    acc 15 = Cert.Spec.agg q keys vals w1 b1 w2 b2 b c :=
  acc_last q keys vals b c (Cert.Spec.beta q w1 b1 w2 b2 b) Kp Vp hK hV hV0 acc h0 hs

end Cert.Accum

end
-- ==== Proof.KI.Inv.lean ====
/-
  The state carried from point to point, as functions of the nine argument arrays.

  The grid has 8 row tiles of 16 points; point `t` works on rows `512 · (t / 16) + r` and on cache positions
  `1024 · (t % 16) + k`. At a row tile's first point the two small outputs and their scratch copies receive the mixing
  weight and the sharpness of each of its rows, and nothing changes them until the next row tile; the accumulator
  receives `0` plus the first tile's sum and one further tile's sum at each later point, so after the point `t` it holds the
  running total of the first `t % 16 + 1` tile sums. A cache position at or beyond 16000, or a column at or beyond 1000,
  reads the padding value `0`. At a row tile's last point the running total is the whole cache term, and the large output
  receives the blend of the specification.
-/
import proofs.«160482_j31069793419865_2_alg».proof.Proof.KI.Pieces
import proofs.«160482_j31069793419865_2_alg».proof.Proof.PayValue
import proofs.«160482_j31069793419865_2_alg».proof.Proof.BlocksHost
import proofs.«160482_j31069793419865_2_alg».proof.Proof.Accum
import proofs.«160482_j31069793419865_2_alg».proof.Proof.Spec

set_option maxRecDepth 16384
set_option quotPrecheck false

noncomputable section

namespace Cert.KernelIdeal.Inv

open Cert.KernelIdeal Cert.KernelIdeal.Gen Cert.KernelIdeal.Hand
open Idealize.ShloMosaic Idealize.ShloMosaic.TcCoe Idealize.SL.Sem Idealize.ShloMosaic.ValueIdx
open Cert.PayValue Cert.Blocks

variable (m : (ℓ : Loc nD τ sig) → Buf (Elt Ideal) ℓ) (c : Dev nD)

local notation "A0" => (m ((c : Thread nD τ).loc main_arg0) : S4096x1024.Idx → EReal)
local notation "A1" => (m ((c : Thread nD τ).loc main_arg1) : S4096x1000.Idx → EReal)
local notation "A2" => (m ((c : Thread nD τ).loc main_arg2) : S16000x1024.Idx → EReal)
local notation "A3" => (m ((c : Thread nD τ).loc main_arg3) : S16000x1000.Idx → EReal)
local notation "A4" => (m ((c : Thread nD τ).loc main_arg4) : S256x1024.Idx → EReal)
local notation "A5" => (m ((c : Thread nD τ).loc main_arg5) : S256.Idx → EReal)
local notation "A6" => (m ((c : Thread nD τ).loc main_arg6) : S2x256.Idx → EReal)
local notation "A7" => (m ((c : Thread nD τ).loc main_arg7) : S2.Idx → EReal)
local notation "A8" => (m ((c : Thread nD τ).loc main_arg8) : S1.Idx → EReal)

/-- The row of the arrays that row `r` of point `t`'s blocks is. -/
abbrev row (t : Fin cfg0.N) (r : Fin 512) : Fin 4096 := ⟨512 * (t.val / 16) + r.val, Cert.Blocks.row_lt t r⟩

/-- The keys by cache position, `0` beyond the 16000 entries. -/
def Kp (p : ℕ) (d : Fin 1024) : EReal := if h : p < 16000 then A2 (ix2 ⟨p, h⟩ d) else (0 : EReal)

/-- Column `col` of the values by cache position, `0` beyond the 16000 entries and beyond the 1000 columns. -/
def Vp (col : Fin 1024) (p : ℕ) : EReal :=
  if h : p < 16000 ∧ col.val < 1000 then A3 (ix2 ⟨p, h.1⟩ ⟨col.val, h.2⟩) else (0 : EReal)

/-- The running total of the tile sums of row `b` and column `col`, at the sharpness of row `b`. -/
def accRun (b : Fin 4096) (col : Fin 1024) : ℕ → EReal
  | 0 => 0 + Cert.Accum.tileSum A0 b (Cert.Spec.beta A0 A4 A5 A6 A7 b) (Kp m c) (Vp m c col) 0
  | j + 1 => accRun b col j + Cert.Accum.tileSum A0 b (Cert.Spec.beta A0 A4 A5 A6 A7 b) (Kp m c) (Vp m c col) (j + 1)

/-! ## The body's arithmetic on a point's blocks, in the argument arrays -/

/-- The mixing weight computed from the blocks of point `t` is the specification's, of the block row's array row. -/
theorem alpha_blk (t : Fin cfg0.N) (r : Fin 512) :
    k0_pay8 (k0_pay1 (iblk m c 0 t)) (iblk m c 4 t) (iblk m c 5 t) (iblk m c 6 t) (iblk m c 7 t) (ix2 r 0)
      = Cert.Spec.alpha A0 A4 A5 A6 A7 (row t r) := by
  rw [pay8_apply]
  simp only [iblk0_arg, iblk4_arg, iblk5_arg, iblk6_arg, iblk7_arg]
  rfl

/-- The sharpness likewise. -/
theorem beta_blk (t : Fin cfg0.N) (r : Fin 512) :
    k0_pay9 (k0_pay1 (iblk m c 0 t)) (iblk m c 4 t) (iblk m c 5 t) (iblk m c 6 t) (iblk m c 7 t) (ix2 r 0)
      = Cert.Spec.beta A0 A4 A5 A6 A7 (row t r) := by
  rw [pay9_apply]
  simp only [iblk0_arg, iblk4_arg, iblk5_arg, iblk6_arg, iblk7_arg]
  rfl

/-- One cache step on the blocks of point `t`: the carried block plus the sum of tile `t % 16`, at the carried sharpness. -/
theorem step_blk (t : Fin cfg0.N) (v9 : Vec Ideal S512x1 .f32) (v15 : Vec Ideal S512x1024 .f32) (r : Fin 512) (col : Fin 1024) :
    k0_pay4 (iblk m c 0 t) (iblk m c 2 t) v9 (iblk m c 3 t) v15 (ix2 r col)
      = v15 (ix2 r col) + Cert.Accum.tileSum A0 (row t r) (v9 (ix2 r 0)) (Kp m c) (Vp m c col) (t.val % 16) := by
  rw [pay4_apply]
  simp only [iblk0_arg, iblk2_arg, iblk3_arg]
  rfl

/-! ## The invariant -/

/-- What is known of a carried state `s` whose block rows are the array rows `ρ r`, once `j + 1` tile sums are in the
    accumulator: the small outputs and their copies hold the weight and the sharpness of each row, the accumulator the
    running total. -/
def Good (s : St Ideal) (ρ : Fin 512 → Fin 4096) (j : ℕ) : Prop :=
  ∀ r : Fin 512,
    s.1 (ix2 r 0) = Cert.Spec.alpha A0 A4 A5 A6 A7 (ρ r)
    ∧ s.2.1 (ix2 r 0) = Cert.Spec.beta A0 A4 A5 A6 A7 (ρ r)
    ∧ s.2.2.2.1 (ix2 r 0) = Cert.Spec.alpha A0 A4 A5 A6 A7 (ρ r)
    ∧ s.2.2.2.2 (ix2 r 0) = Cert.Spec.beta A0 A4 A5 A6 A7 (ρ r)
    ∧ ∀ col : Fin 1024, s.2.2.1 (ix2 r col) = accRun m c (ρ r) col j

/-- After a row tile's first point. -/
theorem goodA (t : Fin cfg0.N) (h0 : t.val % 16 = 0) : Good m c (stAt m c t.val t.isLt) (row t) (t.val % 16) := by
  intro r
  have hA := stAt_A m c t h0
  have c1 : (stAt m c t.val t.isLt).1 = a12 m c t h0 := by rw [hA]
  have c2 : (stAt m c t.val t.isLt).2.1 = a13 m c t h0 := by rw [hA]
  have c3 : (stAt m c t.val t.isLt).2.2.1 = a14 m c t h0 := by rw [hA]
  have c4 : (stAt m c t.val t.isLt).2.2.2.1 = a15 m c t h0 := by rw [hA]
  have c5 : (stAt m c t.val t.isLt).2.2.2.2 = a16 m c t h0 := by rw [hA]
  rw [c1, c2, c3, c4, c5]
  refine ⟨?_, ?_, ?_, ?_, fun col => ?_⟩
  · rw [a12_eq]; exact alpha_blk m c t r
  · rw [a13_eq]; exact beta_blk m c t r
  · rw [a15_eq, pay2_eq]; exact alpha_blk m c t r
  · rw [a16_eq, pay3_eq]; exact beta_blk m c t r
  · rw [a14_eq, step_blk, pay3_eq, beta_blk, pay6_eq, h0]
    rfl

/-- After a later point of the row tile, from the state before it. -/
theorem goodStep (t : Fin cfg0.N) (h0 : ¬ t.val % 16 = 0) (hp : Good m c (prev m c t) (row t) ((t.val - 1) % 16)) :
    Good m c (stAt m c t.val t.isLt) (row t) (t.val % 16) := by
  intro r
  obtain ⟨e1, e2, e3, e4, e5⟩ := hp r
  have hj : t.val % 16 = (t.val - 1) % 16 + 1 := by omega
  have hstep : ∀ col : Fin 1024,
      k0_pay4 (iblk m c 0 t) (iblk m c 2 t) (prev m c t).2.2.2.2 (iblk m c 3 t) (prev m c t).2.2.1 (ix2 r col)
        = accRun m c (row t r) col (t.val % 16) := fun col => by
    rw [step_blk, e4, e5 col, hj]
    rfl
  have k1 : (stAt m c t.val t.isLt).1 = (prev m c t).1 := carry10 m c t h0
  have k2 : (stAt m c t.val t.isLt).2.1 = (prev m c t).2.1 := carry11 m c t h0
  by_cases h1 : t.val % 16 = 15
  · have hC := stAt_C m c t h0 h1
    have k3 : (stAt m c t.val t.isLt).2.2.1 = c14 m c t h0 h1 (prev m c t) := by rw [hC]
    have k4 : (stAt m c t.val t.isLt).2.2.2.1 = (prev m c t).2.2.2.1 := by rw [hC]
    have k5 : (stAt m c t.val t.isLt).2.2.2.2 = (prev m c t).2.2.2.2 := by rw [hC]
    rw [k1, k2, k3, k4, k5]
    exact ⟨e1, e2, e3, e4, fun col => by rw [c14_eq]; exact hstep col⟩
  · have hB := stAt_B m c t h0 h1
    have k3 : (stAt m c t.val t.isLt).2.2.1 = b14 m c t h0 h1 (prev m c t) := by rw [hB]
    have k4 : (stAt m c t.val t.isLt).2.2.2.1 = (prev m c t).2.2.2.1 := by rw [hB]
    have k5 : (stAt m c t.val t.isLt).2.2.2.2 = (prev m c t).2.2.2.2 := by rw [hB]
    rw [k1, k2, k3, k4, k5]
    exact ⟨e1, e2, e3, e4, fun col => by rw [b14_eq]; exact hstep col⟩

/-- Two consecutive points of one row tile work on the same rows. -/
theorem row_pred (n : ℕ) (hn : n + 1 < cfg0.N) (h0 : ¬ (n + 1) % 16 = 0) :
    row ⟨n, Nat.lt_of_succ_lt hn⟩ = row ⟨n + 1, hn⟩ :=
  funext fun r => Fin.ext (by
    show 512 * (n / 16) + r.val = 512 * ((n + 1) / 16) + r.val
    omega)

theorem good : ∀ (n : ℕ) (hn : n < cfg0.N), Good m c (stAt m c n hn) (row ⟨n, hn⟩) (n % 16) := by
  intro n
  induction n with
  | zero => intro hn; exact goodA m c ⟨0, hn⟩ (Nat.zero_mod _)
  | succ n ih =>
    intro hn
    by_cases h0 : (n + 1) % 16 = 0
    · exact goodA m c ⟨n + 1, hn⟩ h0
    · have hprev := ih (Nat.lt_of_succ_lt hn)
      rw [row_pred n hn h0] at hprev
      exact goodStep m c ⟨n + 1, hn⟩ h0 hprev

/-- The state before a point that is not a row tile's first. -/
theorem good_prev (t : Fin cfg0.N) (h0 : ¬ t.val % 16 = 0) : Good m c (prev m c t) (row t) ((t.val - 1) % 16) := by
  obtain ⟨n, hn⟩ := t
  cases n with
  | zero => exact absurd (Nat.zero_mod _) h0
  | succ n =>
    have hprev := good m c n (Nat.lt_of_succ_lt hn)
    rw [row_pred n hn h0] at hprev
    exact hprev

/-- THE STATE AFTER EACH POINT: the two small outputs and the two scratch copies hold the weight and the sharpness of the
    point's rows, the accumulator the running total of the tile sums so far. -/
theorem inv (t : Fin cfg0.N) (r : Fin 512) :
    (stAt m c t.val t.isLt).1 (ix2 r 0) = Cert.Spec.alpha A0 A4 A5 A6 A7 (row t r)
    ∧ (stAt m c t.val t.isLt).2.1 (ix2 r 0) = Cert.Spec.beta A0 A4 A5 A6 A7 (row t r)
    ∧ (stAt m c t.val t.isLt).2.2.2.1 (ix2 r 0) = Cert.Spec.alpha A0 A4 A5 A6 A7 (row t r)
    ∧ (stAt m c t.val t.isLt).2.2.2.2 (ix2 r 0) = Cert.Spec.beta A0 A4 A5 A6 A7 (row t r)
    ∧ ∀ col : Fin 1024, (stAt m c t.val t.isLt).2.2.1 (ix2 r col) = accRun m c (row t r) col (t.val % 16) :=
  good m c t.val t.isLt r

/-! ## The large output at a row tile's last point -/

theorem Kp_in (p : ℕ) (h : p < 16000) (d : Fin 1024) : Kp m c p d = A2 (ix2 ⟨p, h⟩ d) := by
  unfold Kp; exact dif_pos h
theorem Vp_in (col : Fin 1024) (hc : col.val < 1000) (p : ℕ) (h : p < 16000) :
    Vp m c col p = A3 (ix2 ⟨p, h⟩ ⟨col.val, hc⟩) := by
  unfold Vp; exact dif_pos ⟨h, hc⟩
theorem Vp_out (col : Fin 1024) (p : ℕ) (h : 16000 ≤ p) : Vp m c col p = 0 := by
  unfold Vp; exact dif_neg (fun h' => absurd h'.1 (by omega))

/-- After sixteen tiles the running total is the cache term. -/
theorem accRun_last (b : Fin 4096) (col : Fin 1024) (hc : col.val < 1000) :
    accRun m c b col 15 = Cert.Spec.agg A0 A2 A3 A4 A5 A6 A7 b ⟨col.val, hc⟩ :=
  Cert.Accum.acc_last_agg A0 A2 A3 A4 A5 A6 A7 b ⟨col.val, hc⟩ (Kp m c) (Vp m c col)
    (Kp_in m c) (Vp_in m c col hc) (Vp_out m c col) (accRun m c b col) rfl (fun _ _ => rfl)

/-- THE LARGE OUTPUT at a row tile's last point, inside the first 1000 columns: the specification's blend. -/
theorem out9_logits (t : Fin cfg0.N) (h1 : t.val % 16 = 15) (r : Fin 512) (j : Fin 1024) (hj : j.val < 1000) :
    out9 m c t (ix2 r j) = Cert.Spec.logits A0 A1 A2 A3 A4 A5 A6 A7 A8 (row t r) ⟨j.val, hj⟩ := by
  have h0 : ¬ t.val % 16 = 0 := by omega
  obtain ⟨e1, e2, e3, e4, e5⟩ := good_prev m c t h0 r
  have h14 : (t.val - 1) % 16 = 14 := by omega
  have e15 : accRun m c (row t r) j 15 = accRun m c (row t r) j 14
      + Cert.Accum.tileSum A0 (row t r) (Cert.Spec.beta A0 A4 A5 A6 A7 (row t r)) (Kp m c) (Vp m c j) 15 := rfl
  rw [out9_C m c t h0 h1, c11_eq, pay5_apply, step_blk, iblk1_arg, dif_pos hj, iblk8_arg, e3, e4, e5 j, h14, h1,
    ← e15, accRun_last m c (row t r) j hj]
  rfl

end Cert.KernelIdeal.Inv

end
-- ==== Proof.KI.Final.lean ====
/-
  The output arrays after the run, and the host's cut of the large one.

  Each output window's block at point `t` is the row-block `t / 16` of its array, and the block is written back at
  the row-block's last point (`t % 16 = 15`). Row `p` of an output therefore lies in the block of point
  `16 (p / 512) + 15`, these blocks cover the array, and the array ends holding whatever function agrees, row-block
  by row-block, with what those points leave in the window's buffer. After the region the host keeps the first 1000
  columns of the large output.
-/
import proofs.«160482_j31069793419865_2_alg».proof.Proof.KI.State
import proofs.«160482_j31069793419865_2_alg».proof.Proof.Blocks
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Final

open Cert.KernelIdeal Cert.KernelIdeal.Gen Cert.KernelIdeal.Hand
open Cert.Blocks (row_lt)

variable {F : FTy → Type} [FloatOps F]
variable (m : (ℓ : Loc nD τ sig) → Buf (Elt F) ℓ)

/-- The block index of each output window at grid point `t`: the row-block `t / 16`, column block 0. -/
theorem idx_out : ∀ t : Fin cfg0.N,
    win0_9.index t (0 : Fin 2) = t.val / 16 ∧ win0_9.index t (1 : Fin 2) = 0
  ∧ win0_10.index t (0 : Fin 2) = t.val / 16 ∧ win0_10.index t (1 : Fin 2) = 0
  ∧ win0_11.index t (0 : Fin 2) = t.val / 16 ∧ win0_11.index t (1 : Fin 2) = 0 :=
  (by decide +kernel : ∀ t : Fin grid0.N, _)

/-- What a row's last point writes back into output 10, entry by entry. -/
theorem flushed10_apply (c : Dev nD) (G : S4096x1.Idx → Elt F .f32)
    (hG : ∀ t : Fin cfg0.N, t.val % 16 = 15 → ∀ r : Fin 512,
      ((dats m 0 c).after 10 t : Vec F S512x1 .f32) (ix2 r 0) = G (ix2 ⟨512 * (t.val / 16) + r.val, row_lt t r⟩ 0))
    (t : Fin cfg0.N) (h15 : t.val % 16 = 15) (x : S512x1.Idx) :
    ((dats m 0 c).after 10 t : Vec F S512x1 .f32) x = G (((cfg0.win 10).blk t).view.emb x) := by
  obtain ⟨-, -, e0, e1, -⟩ := idx_out t
  have key := hG t h15 (x 0)
  have hlt : (x 1).val < 1 := (x 1).isLt
  have hx1 : (x 1).val = 0 := by omega
  have hx : (ix2 (x 0) (0 : Fin 1) : S512x1.Idx) = x := by
    funext a
    match a with
    | ⟨0, _⟩ => rfl
    | ⟨1, _⟩ => exact Fin.ext hx1.symm
  rw [hx] at key
  refine key.trans (congrArg G ?_)
  funext a
  apply Fin.ext
  match a with
  | ⟨0, _⟩ => show 512 * (t.val / 16) + (x 0).val = win0_10.index t 0 * 512 + 1 * (x 0).val; rw [e0]; omega
  | ⟨1, _⟩ => show 0 = win0_10.index t 1 * 1 + 1 * (x 1).val; rw [e1]; omega

/-- Every row of output 10 lies in the block of its row-block's last point. -/
theorem cover10 (i : S4096x1.Idx) :
    ∃ t : Fin cfg0.N, (cfg0.win 10).flush t = true ∧ i ∈ ((cfg0.win 10).blk t).view.set := by
  have hi0 : (i 0).val < 4096 := (i 0).isLt
  have hi1 : (i 1).val < 1 := (i 1).isLt
  have hN : cfg0.N = 128 := N_0
  obtain ⟨t, ht⟩ : ∃ t : Fin cfg0.N, t.val = 16 * ((i 0).val / 512) + 15 :=
    ⟨⟨16 * ((i 0).val / 512) + 15, lt_of_lt_of_eq (by omega : 16 * ((i 0).val / 512) + 15 < 128) hN.symm⟩, rfl⟩
  obtain ⟨-, -, e0, e1, -⟩ := idx_out t
  refine ⟨t, (flush0_10 t).mpr (by omega), ?_⟩
  show i ∈ ((View.whole main_v9_1).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    rw [e0]; omega
  | ⟨1, _⟩ =>
    show win0_10.index t (1 : Fin 2) * 1 ≤ (i 1).val ∧ (i 1).val < win0_10.index t (1 : Fin 2) * 1 + 1
    rw [e1]; omega

/-- Output 10 after the run: the function whose rows the rows' last points write back. -/
theorem final10 (c : Dev nD) (G : S4096x1.Idx → Elt F .f32)
    (hG : ∀ t : Fin cfg0.N, t.val % 16 = 15 → ∀ r : Fin 512,
      ((dats m 0 c).after 10 t : Vec F S512x1 .f32) (ix2 r 0) = G (ix2 ⟨512 * (t.val / 16) + r.val, row_lt t r⟩ 0)) :
    (dats m 0 c).arrAt 10 cfg0.N = G :=
  (dats m 0 c).arrAt_eq_of_cover 10 G
    (fun t hf => by
      show (cfg0.win 10).cut (grid0.coords t) ((dats m 0 c).after 10 t) = _
      exact funext fun x => flushed10_apply m c G hG t ((flush0_10 t).mp hf) x)
    cover10

/-- What a row's last point writes back into output 11, entry by entry. -/
theorem flushed11_apply (c : Dev nD) (G : S4096x1.Idx → Elt F .f32)
    (hG : ∀ t : Fin cfg0.N, t.val % 16 = 15 → ∀ r : Fin 512,
      ((dats m 0 c).after 11 t : Vec F S512x1 .f32) (ix2 r 0) = G (ix2 ⟨512 * (t.val / 16) + r.val, row_lt t r⟩ 0))
    (t : Fin cfg0.N) (h15 : t.val % 16 = 15) (x : S512x1.Idx) :
    ((dats m 0 c).after 11 t : Vec F S512x1 .f32) x = G (((cfg0.win 11).blk t).view.emb x) := by
  obtain ⟨-, -, -, -, e0, e1⟩ := idx_out t
  have key := hG t h15 (x 0)
  have hlt : (x 1).val < 1 := (x 1).isLt
  have hx1 : (x 1).val = 0 := by omega
  have hx : (ix2 (x 0) (0 : Fin 1) : S512x1.Idx) = x := by
    funext a
    match a with
    | ⟨0, _⟩ => rfl
    | ⟨1, _⟩ => exact Fin.ext hx1.symm
  rw [hx] at key
  refine key.trans (congrArg G ?_)
  funext a
  apply Fin.ext
  match a with
  | ⟨0, _⟩ => show 512 * (t.val / 16) + (x 0).val = win0_11.index t 0 * 512 + 1 * (x 0).val; rw [e0]; omega
  | ⟨1, _⟩ => show 0 = win0_11.index t 1 * 1 + 1 * (x 1).val; rw [e1]; omega

/-- Every row of output 11 lies in the block of its row-block's last point. -/
theorem cover11 (i : S4096x1.Idx) :
    ∃ t : Fin cfg0.N, (cfg0.win 11).flush t = true ∧ i ∈ ((cfg0.win 11).blk t).view.set := by
  have hi0 : (i 0).val < 4096 := (i 0).isLt
  have hi1 : (i 1).val < 1 := (i 1).isLt
  have hN : cfg0.N = 128 := N_0
  obtain ⟨t, ht⟩ : ∃ t : Fin cfg0.N, t.val = 16 * ((i 0).val / 512) + 15 :=
    ⟨⟨16 * ((i 0).val / 512) + 15, lt_of_lt_of_eq (by omega : 16 * ((i 0).val / 512) + 15 < 128) hN.symm⟩, rfl⟩
  obtain ⟨-, -, -, -, e0, e1⟩ := idx_out t
  refine ⟨t, (flush0_11 t).mpr (by omega), ?_⟩
  show i ∈ ((View.whole main_v9_2).slice (win0_11.rect t)).set
  rw [View.set_slice_whole, Rect.mem_set_unit]
  intro a
  match a with
  | ⟨0, _⟩ =>
    show win0_11.index t (0 : Fin 2) * 512 ≤ (i 0).val ∧ (i 0).val < win0_11.index t (0 : Fin 2) * 512 + 512
    rw [e0]; omega
  | ⟨1, _⟩ =>
    show win0_11.index t (1 : Fin 2) * 1 ≤ (i 1).val ∧ (i 1).val < win0_11.index t (1 : Fin 2) * 1 + 1
    rw [e1]; omega

/-- Output 11 after the run: the function whose rows the rows' last points write back. -/
theorem final11 (c : Dev nD) (G : S4096x1.Idx → Elt F .f32)
    (hG : ∀ t : Fin cfg0.N, t.val % 16 = 15 → ∀ r : Fin 512,
      ((dats m 0 c).after 11 t : Vec F S512x1 .f32) (ix2 r 0) = G (ix2 ⟨512 * (t.val / 16) + r.val, row_lt t r⟩ 0)) :
    (dats m 0 c).arrAt 11 cfg0.N = G :=
  (dats m 0 c).arrAt_eq_of_cover 11 G
    (fun t hf => by
      show (cfg0.win 11).cut (grid0.coords t) ((dats m 0 c).after 11 t) = _
      exact funext fun x => flushed11_apply m c G hG t ((flush0_11 t).mp hf) x)
    cover11

/-- What a row's last point writes back into the large output, entry by entry. -/
theorem flushed9_apply (c : Dev nD) (G : S4096x1024.Idx → Elt F .f32)
    (hG : ∀ t : Fin cfg0.N, t.val % 16 = 15 → ∀ (r : Fin 512) (j : Fin 1024),
      ((dats m 0 c).after 9 t : Vec F S512x1024 .f32) (ix2 r j) = G (ix2 ⟨512 * (t.val / 16) + r.val, row_lt t r⟩ j))
    (t : Fin cfg0.N) (h15 : t.val % 16 = 15) (x : S512x1024.Idx) :
    ((dats m 0 c).after 9 t : Vec F S512x1024 .f32) x = G (((cfg0.win 9).blk t).view.emb x) := by
  obtain ⟨e0, e1, -⟩ := idx_out t
  have key := hG t h15 (x 0) (x 1)
  have hx : (ix2 (x 0) (x 1) : S512x1024.Idx) = x := by
    funext a
    match a with
    | ⟨0, _⟩ => rfl
    | ⟨1, _⟩ => rfl
  rw [hx] at key
  refine key.trans (congrArg G ?_)
  funext a
  apply Fin.ext
  match a with
  | ⟨0, _⟩ => show 512 * (t.val / 16) + (x 0).val = win0_9.index t 0 * 512 + 1 * (x 0).val; rw [e0]; omega
  | ⟨1, _⟩ => show (x 1).val = win0_9.index t 1 * 1024 + 1 * (x 1).val; rw [e1]; omega

/-- Every row of the large output lies in the block of its row-block's last point. -/
theorem cover9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 128 := N_0
  obtain ⟨t, ht⟩ : ∃ t : Fin cfg0.N, t.val = 16 * ((i 0).val / 512) + 15 :=
    ⟨⟨16 * ((i 0).val / 512) + 15, lt_of_lt_of_eq (by omega : 16 * ((i 0).val / 512) + 15 < 128) hN.symm⟩, rfl⟩
  obtain ⟨e0, e1, -⟩ := idx_out t
  refine ⟨t, (flush0_9 t).mpr (by omega), ?_⟩
  show i ∈ ((View.whole main_v9_0).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [e0]; omega
  | ⟨1, _⟩ =>
    show win0_9.index t (1 : Fin 2) * 1024 ≤ (i 1).val ∧ (i 1).val < win0_9.index t (1 : Fin 2) * 1024 + 1024
    rw [e1]; omega

/-- The large output after the run: the function whose row-blocks the rows' last points write back. -/
theorem final9 (c : Dev nD) (G : S4096x1024.Idx → Elt F .f32)
    (hG : ∀ t : Fin cfg0.N, t.val % 16 = 15 → ∀ (r : Fin 512) (j : Fin 1024),
      ((dats m 0 c).after 9 t : Vec F S512x1024 .f32) (ix2 r j) = G (ix2 ⟨512 * (t.val / 16) + r.val, row_lt t r⟩ j)) :
    (dats m 0 c).arrAt 9 cfg0.N = G :=
  (dats m 0 c).arrAt_eq_of_cover 9 G
    (fun t hf => by
      show (cfg0.win 9).cut (grid0.coords t) ((dats m 0 c).after 9 t) = _
      exact funext fun x => flushed9_apply m c G hG t ((flush0_9 t).mp hf) x)
    cover9

/-! ## The host line after the region -/

/-- After the region the host keeps the first 1000 columns of the large output. -/
theorem tail_v10_eq (c : Dev nD) :
    (Pipeline.afterTail₀ cfgs (dats m) 0 (V0 m) [hostOps1] c main_v10 : S4096x1000.Idx → Elt F .f32)
      = extractStridedSlice S4096x1000 ![0, 0] ((dats m 0 c).arrAt 9 cfg0.N : S4096x1024.Idx → Elt F .f32) slices_S4096x1024_S4096x1000_0_0 := by
  unfold Pipeline.afterTail₀
  show StableHlo.after hostOps1 _ (Proc.devRef .tc main_v10) = _
  after_results
  exact congrArg (fun x : S4096x1024.Idx → Elt F .f32 => extractStridedSlice S4096x1000 ![0, 0] x slices_S4096x1024_S4096x1000_0_0)
    (Pipeline.withArrays_arr spec0 launch0.win.arr_inj c (V0 m c) (fun w => (dats m 0 c).arrAt w cfg0.N) 9)

/-- A column below 1000 is a column of the large output. -/
theorem col_lt (j : Fin 1000) : j.val < 1024 := lt_trans j.isLt (by decide)

/-- The host's cut at an index: the large output there. -/
theorem tail_v10 (c : Dev nD) (p : Fin 4096) (j : Fin 1000) :
    (Pipeline.afterTail₀ cfgs (dats m) 0 (V0 m) [hostOps1] c main_v10 : S4096x1000.Idx → Elt F .f32) (ix2 p j)
      = ((dats m 0 c).arrAt 9 cfg0.N : S4096x1024.Idx → Elt F .f32) (ix2 p ⟨j.val, col_lt j⟩) :=
  (congrFun (tail_v10_eq m c) (ix2 p j)).trans
    (extractStridedSlice_apply _ _ _ (ix2 p j) (ix2 p ⟨j.val, col_lt j⟩) (fun a => match a with
      | ⟨0, _⟩ => by show p.val = 0 + p.val; omega
      | ⟨1, _⟩ => by show j.val = 0 + j.val; omega))

end Cert.KernelIdeal.Final

end
-- ==== Proof.KI.Value.lean ====
/-
  The kernel's run with its three results named.

  The run of the whole program leaves each output array of the pipeline at what the row-blocks' last points write
  back, and the host then keeps the first 1000 columns of the large one. Row `p` of an output lies in row-block
  `p / 512`, written back at point `16 (p / 512) + 15`, where it is row `p % 512` of the block. Given that after
  every point the two small outputs' buffers hold the mixing weight and the sharpness of the block's rows, and that
  at a row-block's last point the large output's buffer holds the blend in its first 1000 columns, the three results
  are the specification's functions of the nine argument arrays. Nothing is claimed of the 24 padding columns: the
  large output's array is described by what the buffers hold, whatever that is there.
-/
import proofs.«160482_j31069793419865_2_alg».proof.Proof.KI.Body
import proofs.«160482_j31069793419865_2_alg».proof.Proof.KI.Final
import proofs.«160482_j31069793419865_2_alg».proof.Proof.Spec
import Idealize.ShloMosaic.Lib.ValueIdx

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.KValue

open Cert.KernelIdeal Cert.KernelIdeal.Gen Cert.KernelIdeal.Hand Cert.KernelIdeal.Final
open Cert.Blocks (row_lt)

variable (m : (ℓ : Loc nD τ sig) → Buf (Elt Ideal) ℓ) (ρ : Dev nD → PrngReg)

/-- Row `r` of the row-block of point `t`, as a row of the 4096-row arrays. -/
abbrev row (t : Fin cfg0.N) (r : Fin 512) : Fin 4096 := ⟨512 * (t.val / 16) + r.val, row_lt t r⟩

/-- The last point of the row-block that holds row `p`. -/
theorem pt_lt (p : Fin 4096) : 16 * (p.val / 512) + 15 < cfg0.N := by
  have hp := p.isLt
  exact lt_of_lt_of_eq (by omega : 16 * (p.val / 512) + 15 < 128) (show cfg0.N = 128 from N_0).symm
abbrev lastPt (p : Fin 4096) : Fin cfg0.N := ⟨16 * (p.val / 512) + 15, pt_lt p⟩
/-- Row `p` inside its row-block. -/
abbrev inBlk (p : Fin 4096) : Fin 512 := ⟨p.val % 512, Nat.mod_lt _ (by decide)⟩

theorem lastPt_mod (p : Fin 4096) : (lastPt p).val % 16 = 15 := by
  show (16 * (p.val / 512) + 15) % 16 = 15
  omega
theorem row_lastPt (p : Fin 4096) : row (lastPt p) (inBlk p) = p := by
  apply Fin.ext
  show 512 * ((16 * (p.val / 512) + 15) / 16) + p.val % 512 = p.val
  omega
theorem lastPt_row (t : Fin cfg0.N) (h15 : t.val % 16 = 15) (r : Fin 512) : lastPt (row t r) = t := by
  apply Fin.ext
  have hr := r.isLt
  show 16 * ((512 * (t.val / 16) + r.val) / 512) + 15 = t.val
  omega
theorem inBlk_row (t : Fin cfg0.N) (r : Fin 512) : inBlk (row t r) = r := by
  apply Fin.ext
  have hr := r.isLt
  show (512 * (t.val / 16) + r.val) % 512 = r.val
  omega

/-- The large output's array as the buffers' contents say it: row `p` is row `p % 512` of what the last point of
    its row-block leaves in the buffer. -/
def G9 (c : Dev nD) (i : S4096x1024.Idx) : Elt Ideal .f32 :=
  (out9 m c (lastPt (i 0)) : Vec Ideal S512x1024 .f32) (ix2 (inBlk (i 0)) (i 1))

theorem G9_row (c : Dev nD) (t : Fin cfg0.N) (h15 : t.val % 16 = 15) (r : Fin 512) (j : Fin 1024) :
    G9 m c (ix2 (row t r) j) = (out9 m c t : Vec Ideal S512x1024 .f32) (ix2 r j) := by
  show (out9 m c (lastPt (row t r)) : Vec Ideal S512x1024 .f32) (ix2 (inBlk (row t r)) j) = _
  rw [lastPt_row t h15 r, inBlk_row t r]

/-- The large output's array after the run. -/
theorem arr9 (c : Dev nD) : (dats m 0 c).arrAt 9 cfg0.N = G9 m c :=
  final9 m c (G9 m c) (fun t h15 r j => by rw [after_9]; exact (G9_row m c t h15 r j).symm)

/-- THE KERNEL'S RUN: every weakly fair execution ends with the three results at the specification's functions of the
    nine argument arrays, and the arguments unchanged — given the state after every point (`hinv`) and the blend a
    row-block's last point stores (`h9`). -/
theorem kernel_run_of
    (hinv : ∀ (c : Dev nD) (t : Fin cfg0.N) (r : Fin 512),
      ((stAt m c t.val t.isLt).1 : Vec Ideal S512x1 .f32) (ix2 r 0) = Cert.Spec.alpha (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (row t r)
      ∧ ((stAt m c t.val t.isLt).2.1 : Vec Ideal S512x1 .f32) (ix2 r 0) = Cert.Spec.beta (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (row t r))
    (h9 : ∀ (c : Dev nD) (t : Fin cfg0.N), t.val % 16 = 15 → ∀ (r : Fin 512) (j : Fin 1024) (hj : j.val < 1000),
      (out9 m c t : Vec Ideal S512x1024 .f32) (ix2 r j) = Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (row t r) ⟨j.val, hj⟩) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v10)
          = (fun i => Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1))
      ∧ r.2.mem ((c.tc : Thread nD τ).loc main_v9_1)
          = (fun i => Cert.Spec.alpha (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (i 0))
      ∧ r.2.mem ((c.tc : Thread nD τ).loc main_v9_2)
          = (fun i => Cert.Spec.beta (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v10 (Pipeline.mem_restRefs_of main_v10 (by decide) (by decide))).trans (funext fun i => by
        obtain ⟨p, j, rfl⟩ : ∃ (p : Fin 4096) (j : Fin 1000), i = ix2 p j := ⟨i 0, i 1, eq_ix2 i⟩
        refine (tail_v10 m c p j).trans ?_
        rw [arr9 m c]
        show (out9 m c (lastPt p) : Vec Ideal S512x1024 .f32) (ix2 (inBlk p) ⟨j.val, col_lt j⟩) = _
        rw [h9 c (lastPt p) (lastPt_mod p) (inBlk p) ⟨j.val, col_lt j⟩ j.isLt, row_lastPt p]
        rfl),
     ((h c).1 10).trans (final10 m c _ (fun t h15 r => by rw [after_10]; exact (hinv c t r).1)),
     ((h c).1 11).trans (final11 m c _ (fun t h15 r => by rw [after_11]; exact (hinv c t r).2)),
     (((h c).2 main_arg0 (Pipeline.mem_restRefs_of main_arg0 (by decide) (by decide))).trans (W_main_arg0 m (dats m) c)),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     (((h c).2 main_arg3 (Pipeline.mem_restRefs_of main_arg3 (by decide) (by decide))).trans (W_main_arg3 m (dats m) c)),
     (((h c).2 main_arg4 (Pipeline.mem_restRefs_of main_arg4 (by decide) (by decide))).trans (W_main_arg4 m (dats m) c)),
     ((h c).1 5).trans ((((dats m) 0 c).arrAt_in 5 rfl _).trans ((A_eq m c 5).trans (V_main_arg5 m c))),
     (((h c).2 main_arg6 (Pipeline.mem_restRefs_of main_arg6 (by decide) (by decide))).trans (W_main_arg6 m (dats m) c)),
     ((h c).1 7).trans ((((dats m) 0 c).arrAt_in 7 rfl _).trans ((A_eq m c 7).trans (V_main_arg7 m c))),
     ((h c).1 8).trans ((((dats m) 0 c).arrAt_in 8 rfl _).trans ((A_eq m c 8).trans (V_main_arg8 m c)))⟩)
    (Hand.run_main m ρ)

end Cert.KernelIdeal.KValue

end
-- ==== Proof.RefSpec.lean ====
/-
  The reference program computes the three results of the specification, entry by entry.

  Each stage of the reference is read at an index and the index functions of its layout steps (two transposes, the
  broadcasts of the bias rows and of the per-row scalars, the two column slices of the gate array) are identified with
  coordinates: row `b` of the hidden layer is `max (∑ d, q b d · w1 j d + b1 j) 0`, the gate values are its affine image
  under `w2`, `b2`; the first gate column goes through `1 / (1 + exp (-x))`, written with the word of the literal 1.0,
  which denotes the extended real 1, so the quotient is the logistic function; the second goes through a select whose
  condition compares `x - 0` with itself for inequality, which never holds, so the select returns
  `max x 0 + log (1 + exp (-|x|))`, and `x - 0 = x`. The cache term is the contraction over the 16000 keys of
  `exp (beta b · ⟨q b, keys n⟩)` against `vals`, and the result blends it with `z` by the mixing weight and scales by `ps 0`.
  A column index of an array with a single column is 0, so the two per-row results are functions of the row alone.
-/
import proofs.«160482_j31069793419865_2_alg».proof.Proof.Gen.ReferenceIdeal.Run
import proofs.«160482_j31069793419865_2_alg».proof.Proof.Gen.ReferenceIdeal.Read
import proofs.«160482_j31069793419865_2_alg».proof.Proof.Spec

noncomputable section

namespace Cert.RefSpec

open Cert.ReferenceIdeal Cert.ReferenceIdeal.Gen Cert.ReferenceIdeal.Read Idealize.ShloMosaic Idealize.ShloMosaic.ValueIdx
  Idealize.ShloMosaic.TcCoe Idealize.SL.Sem

variable (x0 : (⟨S4096x1024, .f32⟩ : BufTy).Contents (Elt Ideal)) (x1 : (⟨S4096x1000, .f32⟩ : BufTy).Contents (Elt Ideal))
  (x2 : (⟨S16000x1024, .f32⟩ : BufTy).Contents (Elt Ideal)) (x3 : (⟨S16000x1000, .f32⟩ : BufTy).Contents (Elt Ideal))
  (x4 : (⟨S256x1024, .f32⟩ : BufTy).Contents (Elt Ideal)) (x5 : (⟨S256, .f32⟩ : BufTy).Contents (Elt Ideal))
  (x6 : (⟨S2x256, .f32⟩ : BufTy).Contents (Elt Ideal)) (x7 : (⟨S2, .f32⟩ : BufTy).Contents (Elt Ideal))
  (x8 : (⟨S1, .f32⟩ : BufTy).Contents (Elt Ideal))

/-- The word of the f32 literal 1.0 denotes the extended real 1. -/
theorem ofBits_one_f32 : Ideal.ofBits .f32 0x3F800000#32 = 1 := by
  simp [Ideal.ofBits, Ideal.ieee]
  rw [← EReal.coe_mul, ← EReal.coe_one]
  congr 1
  norm_num

/-- The rectified hidden layer, entry by entry. -/
theorem ref_hid (b : Fin 4096) (j : Fin 256) :
    val_main_v5 (F := Ideal) x0 x4 x5 (ix2 b j) = Cert.Spec.hid x0 x4 x5 b j := by
  have h1 : ∀ k : Fin 1024, lidx_main_v1 (ix2 b j) k = ix2 b k := fun k =>
    funext fun a => match a with | ⟨0, _⟩ => rfl | ⟨1, _⟩ => rfl
  have h2 : ∀ k : Fin 1024, idx_main_v0 (ridx_main_v1 (ix2 b j) k) = ix2 j k := fun k =>
    funext fun a => match a with | ⟨0, _⟩ => rfl | ⟨1, _⟩ => rfl
  have h3 : idx_main_v2 (idx_main_v3 (ix2 b j)) = ix1 j :=
    funext fun a => match a with | ⟨0, _⟩ => rfl
  rw [val_main_v5_apply, val_main_v4_apply, val_main_v1_apply, val_main_v3_apply, val_main_v2_apply,
    val_main_call0_v0_apply, val_main_call0_cst_apply]
  simp only [val_main_v0_apply, h1, h2, h3, Ideal.maximumf_def, Ideal.addf_def, Ideal.ofBits_def, Ideal.ofBits_zero_f32]
  rfl

/-- The two gate values of a row. -/
theorem ref_gate (b : Fin 4096) (e : Fin 2) :
    val_main_v10 (F := Ideal) x0 x4 x5 x6 x7 (ix2 b e) = Cert.Spec.gate x0 x4 x5 x6 x7 b e := by
  have h1 : ∀ k : Fin 256, lidx_main_v7 (ix2 b e) k = ix2 b k := fun k =>
    funext fun a => match a with | ⟨0, _⟩ => rfl | ⟨1, _⟩ => rfl
  have h2 : ∀ k : Fin 256, idx_main_v6 (ridx_main_v7 (ix2 b e) k) = ix2 e k := fun k =>
    funext fun a => match a with | ⟨0, _⟩ => rfl | ⟨1, _⟩ => rfl
  have h3 : idx_main_v8 (idx_main_v9 (ix2 b e)) = ix1 e :=
    funext fun a => match a with | ⟨0, _⟩ => rfl
  rw [val_main_v10_apply, val_main_v7_apply, val_main_v9_apply, val_main_v8_apply]
  simp only [val_main_v6_apply, h1, h2, h3, ref_hid, Ideal.addf_def]
  rfl

/-- The mixing weight of a row: the reference spells the logistic function as a quotient with the literal 1.0. -/
theorem ref_alpha0 (b : Fin 4096) :
    val_main_v17 (F := Ideal) x0 x4 x5 x6 x7 (ix2 b (0 : Fin 1)) = Cert.Spec.alpha x0 x4 x5 x6 x7 b := by
  have h1 : idx_main_v11 (ix2 b (0 : Fin 1)) = ix2 b (0 : Fin 2) :=
    funext fun a => match a with | ⟨0, _⟩ => rfl | ⟨1, _⟩ => rfl
  rw [val_main_v17_apply, val_main_v16_apply, val_main_cst_0_apply, val_main_v15_apply, val_main_v14_apply,
    val_main_cst_apply, val_main_v13_apply, val_main_v12_apply, val_main_v11_apply, h1, ref_gate]
  simp only [Ideal.hostDivf_def, Ideal.addf_def, Ideal.hostUnary_exp_def, Ideal.hostNegf_def, Ideal.negf_def,
    Ideal.ofBits_def, ofBits_one_f32]
  rfl

/-- The sharpness of a row: the comparison of a value with itself never holds, so the select takes the overflow-free form. -/
theorem ref_beta0 (b : Fin 4096) :
    val_main_v21 (F := Ideal) x0 x4 x5 x6 x7 (ix2 b (0 : Fin 1)) = Cert.Spec.beta x0 x4 x5 x6 x7 b := by
  have h1 : idx_main_v18 (ix2 b (0 : Fin 1)) = ix2 b (1 : Fin 2) :=
    funext fun a => match a with | ⟨0, _⟩ => rfl | ⟨1, _⟩ => rfl
  have hc : ∀ x : EReal, Ideal.cmp .une x x = 0#1 := fun x => by simp [Ideal.cmp]
  rw [val_main_v21_apply, val_main_v20_apply, val_main_cst_1_apply, val_main_v19_apply, val_main_call1_v4_apply,
    Ideal.cmpf_def, hc, select_zero, val_main_call1_v11_apply, val_main_call1_v1_apply, val_main_call1_v0_apply,
    val_main_call1_cst_apply, val_main_call1_v10_apply, val_main_call1_v9_apply, val_main_call1_v8_apply,
    val_main_call1_v7_apply, val_main_call1_v3_apply, val_main_call1_v2_apply, val_main_call1_cst_apply,
    val_main_v18_apply, h1, ref_gate]
  simp only [Ideal.addf_def, Ideal.subf_def, Ideal.maximumf_def, Ideal.hostUnary_exp_def, Ideal.hostUnary_log1p_def,
    Ideal.hostNegf_def, Ideal.negf_def, Ideal.hostAbsf_def, Ideal.absf_def, Ideal.ofBits_def, Ideal.ofBits_zero_f32, sub_zero]
  rfl

/-- The inner product of a row with a cache key: the transposed key array is read back at the key's own index. -/
theorem ref_sim (b : Fin 4096) (n : Fin 16000) :
    val_main_v23 (F := Ideal) x0 x2 (ix2 b n) = Cert.Spec.sim x0 x2 b n := by
  have h1 : ∀ k : Fin 1024, lidx_main_v23 (ix2 b n) k = ix2 b k := fun k =>
    funext fun a => match a with | ⟨0, _⟩ => rfl | ⟨1, _⟩ => rfl
  have h2 : ∀ k : Fin 1024, idx_main_v22 (ridx_main_v23 (ix2 b n) k) = ix2 n k := fun k =>
    funext fun a => match a with | ⟨0, _⟩ => rfl | ⟨1, _⟩ => rfl
  rw [val_main_v23_apply]
  simp only [val_main_v22_apply, h1, h2]
  rfl

/-- The weight of cache entry `n` for row `b`: the exponential of the sharpened similarity. -/
theorem ref_weight (b : Fin 4096) (n : Fin 16000) :
    val_main_v26 (F := Ideal) x0 x2 x4 x5 x6 x7 (ix2 b n)
      = Ideal.exp (Cert.Spec.beta x0 x4 x5 x6 x7 b * Cert.Spec.sim x0 x2 b n) := by
  have h1 : idx_main_v24 (ix2 b n) = ix2 b (0 : Fin 1) :=
    funext fun a => match a with | ⟨0, _⟩ => rfl | ⟨1, _⟩ => rfl
  rw [val_main_v26_apply, val_main_v25_apply, val_main_v24_apply, h1, ref_beta0, ref_sim]
  rfl

/-- The first result, entry by entry. -/
theorem ref_logits0 (b : Fin 4096) (c : Fin 1000) :
    val_main_v37 (F := Ideal) x0 x1 x2 x3 x4 x5 x6 x7 x8 (ix2 b c)
      = Cert.Spec.logits x0 x1 x2 x3 x4 x5 x6 x7 x8 b c := by
  have hA : idx_main_v30 (ix2 b c) = ix2 b (0 : Fin 1) :=
    funext fun a => match a with | ⟨0, _⟩ => rfl | ⟨1, _⟩ => rfl
  have hB : idx_main_v32 (ix2 b c) = ix2 b (0 : Fin 1) :=
    funext fun a => match a with | ⟨0, _⟩ => rfl | ⟨1, _⟩ => rfl
  have hP : idx_main_v35 (idx_main_v36 (ix2 b c)) = ix1 (0 : Fin 1) :=
    funext fun a => match a with | ⟨0, _⟩ => rfl
  have hL : ∀ n : Fin 16000, lidx_main_v27 (ix2 b c) n = ix2 b n := fun n =>
    funext fun a => match a with | ⟨0, _⟩ => rfl | ⟨1, _⟩ => rfl
  have hR : ∀ n : Fin 16000, ridx_main_v27 (ix2 b c) n = ix2 n c := fun n =>
    funext fun a => match a with | ⟨0, _⟩ => rfl | ⟨1, _⟩ => rfl
  rw [val_main_v37_apply, val_main_v36_apply, val_main_v35_apply, hP, val_main_v34_apply, val_main_v31_apply,
    val_main_v30_apply, hA, val_main_v29_apply, val_main_v28_apply, val_main_cst_2_apply, val_main_v33_apply,
    val_main_v32_apply, hB, ref_alpha0, val_main_v27_apply]
  simp only [hL, hR, ref_weight, Ideal.mulf_def, Ideal.addf_def, Ideal.subf_def, Ideal.ofBits_def]
  rfl

/-- The three results as whole arrays. A column index `i` of an array with one column has `i 1 = 0`. -/
theorem ref_logits :
    val_main_v37 (F := Ideal) x0 x1 x2 x3 x4 x5 x6 x7 x8
      = fun i => Cert.Spec.logits x0 x1 x2 x3 x4 x5 x6 x7 x8 (i 0) (i 1) := by
  funext i
  obtain ⟨p, q, rfl⟩ : ∃ (p : Fin 4096) (q : Fin 1000), i = ix2 p q := ⟨i 0, i 1, eq_ix2 i⟩
  exact ref_logits0 x0 x1 x2 x3 x4 x5 x6 x7 x8 p q

theorem ref_alpha :
    val_main_v17 (F := Ideal) x0 x4 x5 x6 x7 = fun i => Cert.Spec.alpha x0 x4 x5 x6 x7 (i 0) := by
  funext i
  obtain ⟨p, q, rfl⟩ : ∃ (p : Fin 4096) (q : Fin 1), i = ix2 p q := ⟨i 0, i 1, eq_ix2 i⟩
  obtain rfl : q = 0 := Subsingleton.elim _ _
  exact ref_alpha0 x0 x4 x5 x6 x7 p

theorem ref_beta :
    val_main_v21 (F := Ideal) x0 x4 x5 x6 x7 = fun i => Cert.Spec.beta x0 x4 x5 x6 x7 (i 0) := by
  funext i
  obtain ⟨p, q, rfl⟩ : ∃ (p : Fin 4096) (q : Fin 1), i = ix2 p q := ⟨i 0, i 1, eq_ix2 i⟩
  obtain rfl : q = 0 := Subsingleton.elim _ _
  exact ref_beta0 x0 x4 x5 x6 x7 p

/-- The reference's run: every weakly fair execution ends with the three results at the specification's functions of the
    nine argument arrays, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v37)
          = (fun i => Cert.Spec.logits
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8)) (i 0) (i 1))
      ∧ r.2.mem ((c.tc : Thread Cert.ReferenceIdeal.nD Cert.ReferenceIdeal.τ).loc Cert.ReferenceIdeal.main_v17)
          = (fun i => Cert.Spec.alpha
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7)) (i 0))
      ∧ r.2.mem ((c.tc : Thread Cert.ReferenceIdeal.nD Cert.ReferenceIdeal.τ).loc Cert.ReferenceIdeal.main_v21)
          = (fun i => Cert.Spec.beta
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7)) (i 0))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c =>
      ⟨(h c).1.trans ((val_main_v37_eq m' c).trans (ref_logits _ _ _ _ _ _ _ _ _)),
       (h c).2.1.trans ((val_main_v17_eq _ _ _ _ _).trans (ref_alpha _ _ _ _ _)),
       (h c).2.2.1.trans ((val_main_v21_eq m' c).trans (ref_beta _ _ _ _ _)),
       (h c).2.2.2⟩)
    (Cert.ReferenceIdeal.Value.run (F := Ideal) m' ρ')

end Cert.RefSpec

end
-- ==== Proof.lean ====
/-
  The five claims for the kernel of one gated cache blend, its idealization and its reference.

  Mathematics. A row `b` of `q` goes through a two-layer gate that yields a mixing weight `alpha b` (logistic) and a
  sharpness `beta b` (softplus plus 0.001); the cache term is `agg b c = ∑ n < 16000, exp (beta b · ⟨q b, keys n⟩) · vals n c`
  and the first result is `((1 - alpha b) · z b c + alpha b · agg b c) · ps 0`; the other two results are `alpha` and
  `beta` (`Cert.Spec`). The reference computes exactly this, operation by operation. The kernel pads the cache to 16384
  rows and the class axis to 1024 columns with zeros, walks a grid of 8 row tiles by 16 cache tiles, computes the
  gate at the first cache tile of a row tile, adds one cache tile's term to an accumulator at every point, and blends
  at the last. A padded cache row contributes `x · 0 = 0` and the sixteen tile sums regroup into the one sum over
  16000 rows in a commutative monoid, so on the extended reals the two programs give equal results with no
  finiteness needed; the padded columns are sliced off after the region. The idealization rewrote nothing, so it is
  the kernel's own text read on the extended reals.
-/
import proofs.«160482_j31069793419865_2_alg».proof.Defs
import proofs.«160482_j31069793419865_2_alg».proof.Proof.Gen.Kernel
import proofs.«160482_j31069793419865_2_alg».proof.Proof.Gen.KernelIdeal
import proofs.«160482_j31069793419865_2_alg».proof.Proof.Gen.ReferenceIdeal
import proofs.«160482_j31069793419865_2_alg».proof.Proof.Gen.Pre_finite_inputs
import proofs.«160482_j31069793419865_2_alg».proof.Proof.Gen.ReferenceIdeal.Run
import proofs.«160482_j31069793419865_2_alg».proof.Proof.Gen.ReferenceIdeal.Read
import proofs.«160482_j31069793419865_2_alg».proof.Proof.K.Body
import proofs.«160482_j31069793419865_2_alg».proof.Proof.KI.Body
import proofs.«160482_j31069793419865_2_alg».proof.Proof.KI.Inv
import proofs.«160482_j31069793419865_2_alg».proof.Proof.KI.Value
import proofs.«160482_j31069793419865_2_alg».proof.Proof.RefSpec
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Hand.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments as they were: its run with the three results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.RefSpec.ref_run m ρ)

/-- Both idealized programs, from memories agreeing on the arguments, end with the specification's three results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  -- the kernel's run with its three results named: the state after each point is the specification's weight, sharpness
  -- and running cache sum, and the last point of a row stores the blend
  refine ⟨_, _, _, Cert.KernelIdeal.KValue.kernel_run_of m ρ
    (fun c t r => ⟨(Cert.KernelIdeal.Inv.inv m c t r).1, (Cert.KernelIdeal.Inv.inv m c t r).2.1⟩)
    (fun c t ht r j hj => Cert.KernelIdeal.Inv.out9_logits m c t ht r j hj), ?_⟩
  refine (θ_run Cert.ReferenceIdeal.defs _ _).mono (fun _ h c => ?_) (Cert.RefSpec.ref_run m' ρ')
  obtain ⟨h1, h2, h3, hargs⟩ := h c
  obtain ⟨e0, e1, e2, e3, e4, e5, e6, e7, e8⟩ := hagree c
  refine ⟨?_, ?_, ?_, hargs⟩
  · rw [h1, e0, e1, e2, e3, e4, e5, e6, e7, e8]; rfl
  · rw [h2, e0, e4, e5, e6, e7]; rfl
  · rw [h3, e0, e4, e5, e6, e7]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
